-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_v38)) (v4 : (c : Dev Cert.KernelIdeal.nD) → Buf (Elt Ideal) ((c.tc : Thread Cert.KernelIdeal.nD Cert.KernelIdeal.τ).loc Cert.KernelIdeal.main_v46)) (v5 : (c : Dev Cert.KernelIdeal.nD) → Buf (Elt Ideal) ((c.tc : Thread Cert.KernelIdeal.nD Cert.KernelIdeal.τ).loc Cert.KernelIdeal.main_v54)) (v6 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_v46) = v4 c
          ∧ r.2.mem ((c.tc : Thread Cert.KernelIdeal.nD Cert.KernelIdeal.τ).loc Cert.KernelIdeal.main_v54) = v5 c
          ∧ r.2.mem ((c.tc : Thread Cert.KernelIdeal.nD Cert.KernelIdeal.τ).loc Cert.KernelIdeal.main_v6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v52) = v5 c
          ∧ r.2.mem ((c.tc : Thread Cert.ReferenceIdeal.nD Cert.ReferenceIdeal.τ).loc Cert.ReferenceIdeal.main_v4) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000x3 : Shape := ⟨2, ![20000000, 3]⟩
abbrev S20000000 : Shape := ⟨1, ![20000000]⟩
abbrev S_ : Shape := ⟨0, ![]⟩

class Facts : Prop where
  bcast_S_S20000000x3 : S_.BroadcastsInDim S20000000x3 (![] : Fin 0 → Fin S20000000x3.rank)
  reducesTo_S20000000x3_S_d0_1 : S20000000x3.ReducesTo [0, 1] S_
  h_S_ : 0 < S_.numel

variable [Facts]

def fn {F : FTy → Type} [FloatOps F] (main_arg0 : FVec F S20000000x3 .f32) (main_arg1 : IVec S20000000 32) (main_arg2 : IVec S20000000 32) : IVec S_ 1 :=
  let main_v0 : FVec F S20000000x3 .f32 := Host.absf main_arg0
  let main_cst : FVec F S_ .f32 := constant S_ .f32 0x7F800000#32
  let main_v1 : FVec F S20000000x3 .f32 := broadcastInDim S20000000x3 ![] bcast_S_S20000000x3 main_cst
  let main_v2 : IVec S20000000x3 1 := cmpf .olt main_v0 main_v1
  let main_c : IVec S_ 1 := constantI S_ 1 1#1
  let main_v3 : IVec S_ 1 := (fun x v => Host.reduce IntOp.andi x v reducesTo_S20000000x3_S_d0_1 h_S_) main_v2 main_c
  main_v3
-- ==== Kernel.lean ====
abbrev S20000000x3 : Shape := ⟨2, ![20000000, 3]⟩
abbrev S20000000 : Shape := ⟨1, ![20000000]⟩
abbrev S3x20000000 : Shape := ⟨2, ![3, 20000000]⟩
abbrev S1x20000000 : Shape := ⟨2, ![1, 20000000]⟩
abbrev S3x80000 : Shape := ⟨2, ![3, 80000]⟩
abbrev S1x80000 : Shape := ⟨2, ![1, 80000]⟩
abbrev S80000 : Shape := ⟨1, ![80000]⟩
abbrev S_ : Shape := ⟨0, ![]⟩
abbrev S20000000x1 : Shape := ⟨2, ![20000000, 1]⟩

abbrev nBuf : Space → Nat
  | .hbm => 129
  | .vmem => 4
  | .smem => 0
  | _ => 0

abbrev hbmTy0_0 (i : Nat) : BufTy := match i % 128 with
  | 0 => ⟨S20000000x3, .f32⟩
  | 1 => ⟨S20000000, .i32⟩
  | 2 => ⟨S20000000, .i32⟩
  | 3 => ⟨S3x20000000, .f32⟩
  | 4 => ⟨S1x20000000, .i32⟩
  | 5 => ⟨S20000000, .i32⟩
  | 6 => ⟨S_, .i32⟩
  | 7 => ⟨S20000000, .i32⟩
  | 8 => ⟨S20000000, .i1⟩
  | 9 => ⟨S20000000, .i32⟩
  | 10 => ⟨S_, .i32⟩
  | 11 => ⟨S_, .i32⟩
  | 12 => ⟨S20000000, .i32⟩
  | 13 => ⟨S_, .i32⟩
  | 14 => ⟨S_, .i32⟩
  | 15 => ⟨S20000000, .i32⟩
  | 16 => ⟨S_, .i32⟩
  | 17 => ⟨S20000000, .i32⟩
  | 18 => ⟨S_, .i32⟩
  | 19 => ⟨S_, .i32⟩
  | 20 => ⟨S20000000, .i32⟩
  | 21 => ⟨S20000000, .i32⟩
  | 22 => ⟨S_, .i32⟩
  | 23 => ⟨S20000000, .i32⟩
  | 24 => ⟨S20000000, .i1⟩
  | 25 => ⟨S_, .i32⟩
  | 26 => ⟨S20000000, .i32⟩
  | 27 => ⟨S20000000, .i32⟩
  | 28 => ⟨S20000000, .i32⟩
  | 29 => ⟨S20000000x1, .i32⟩
  | 30 => ⟨S_, .i32⟩
  | 31 => ⟨S20000000, .i32⟩
  | 32 => ⟨S20000000, .i32⟩
  | 33 => ⟨S_, .i32⟩
  | 34 => ⟨S_, .i32⟩
  | 35 => ⟨S20000000, .i32⟩
  | 36 => ⟨S_, .i32⟩
  | 37 => ⟨S20000000, .i32⟩
  | 38 => ⟨S20000000, .i32⟩
  | 39 => ⟨S20000000, .i32⟩
  | 40 => ⟨S_, .i32⟩
  | 41 => ⟨S20000000, .i32⟩
  | 42 => ⟨S20000000, .i1⟩
  | 43 => ⟨S20000000, .i32⟩
  | 44 => ⟨S20000000, .i32⟩
  | 45 => ⟨S_, .i32⟩
  | 46 => ⟨S20000000, .i32⟩
  | 47 => ⟨S20000000, .i1⟩
  | 48 => ⟨S20000000, .i1⟩
  | 49 => ⟨S_, .i32⟩
  | 50 => ⟨S20000000, .i32⟩
  | 51 => ⟨S20000000, .i32⟩
  | 52 => ⟨S20000000, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S20000000, .i32⟩
  | 60 => ⟨S20000000, .i32⟩
  | 61 => ⟨S_, .i32⟩
  | 62 => ⟨S20000000, .i32⟩
  | 63 => ⟨S20000000, .i1⟩
  | 64 => ⟨S_, .i32⟩
  | 65 => ⟨S20000000, .i32⟩
  | 66 => ⟨S20000000, .i1⟩
  | 67 => ⟨S_, .i32⟩
  | 68 => ⟨S_, .i1⟩
  | 69 => ⟨S20000000, .i1⟩
  | 70 => ⟨S20000000, .i1⟩
  | 71 => ⟨S20000000, .i1⟩
  | 72 => ⟨S20000000, .i32⟩
  | 73 => ⟨S20000000, .i32⟩
  | 74 => ⟨S20000000, .i32⟩
  | 75 => ⟨S20000000, .i32⟩
  | 76 => ⟨S20000000, .i32⟩
  | 77 => ⟨S_, .i32⟩
  | 78 => ⟨S_, .i32⟩
  | 79 => ⟨S20000000, .i32⟩
  | 80 => ⟨S20000000, .i1⟩
  | 81 => ⟨S_, .i32⟩
  | 82 => ⟨S_, .i32⟩
  | 83 => ⟨S20000000, .i32⟩
  | 84 => ⟨S20000000, .i32⟩
  | 85 => ⟨S20000000, .i32⟩
  | 86 => ⟨S20000000, .i32⟩
  | 87 => ⟨S20000000, .i1⟩
  | 88 => ⟨S20000000x1, .i1⟩
  | 89 => ⟨S_, .i32⟩
  | 90 => ⟨S20000000, .i32⟩
  | 91 => ⟨S20000000, .i1⟩
  | 92 => ⟨S_, .i32⟩
  | 93 => ⟨S20000000, .i32⟩
  | 94 => ⟨S20000000, .i32⟩
  | 95 => ⟨S20000000, .i32⟩
  | 96 => ⟨S20000000x1, .i32⟩
  | 97 => ⟨S20000000x3, .f32⟩
  | 98 => ⟨S_, .f32⟩
  | 99 => ⟨S_, .f32⟩
  | 100 => ⟨S20000000x3, .i1⟩
  | 101 => ⟨S20000000x3, .f32⟩
  | 102 => ⟨S20000000x3, .f32⟩
  | 103 => ⟨S_, .i32⟩
  | 104 => ⟨S20000000, .i32⟩
  | 105 => ⟨S20000000, .i1⟩
  | 106 => ⟨S_, .i32⟩
  | 107 => ⟨S20000000, .i32⟩
  | 108 => ⟨S20000000, .i32⟩
  | 109 => ⟨S20000000, .i32⟩
  | 110 => ⟨S20000000x1, .i32⟩
  | 111 => ⟨S20000000, .i32⟩
  | 112 => ⟨S_, .i32⟩
  | 113 => ⟨S_, .i32⟩
  | 114 => ⟨S20000000, .i32⟩
  | 115 => ⟨S20000000, .i32⟩
  | 116 => ⟨S_, .i32⟩
  | 117 => ⟨S20000000, .i32⟩
  | 118 => ⟨S20000000, .i1⟩
  | 119 => ⟨S_, .i32⟩
  | 120 => ⟨S20000000, .i32⟩
  | 121 => ⟨S20000000, .i32⟩
  | 122 => ⟨S20000000, .i32⟩
  | 123 => ⟨S20000000x1, .i32⟩
  | 124 => ⟨S20000000, .i32⟩
  | 125 => ⟨S_, .i32⟩
  | 126 => ⟨S_, .i32⟩
  | 127 => ⟨S20000000, .i32⟩
  | _ => ⟨S20000000x3, .f32⟩

abbrev hbmTy0_1 (i : Nat) : BufTy := match i % 128 with
  | 0 => ⟨S20000000, .i32⟩
  | _ => ⟨S20000000x3, .f32⟩

abbrev hbmTy (i : Nat) : BufTy := match i / 128 with
  | 0 => hbmTy0_0 i
  | 1 => hbmTy0_1 i
  | _ => ⟨S20000000x3, .f32⟩

abbrev bufTy : (tb : Table) → Fin (tcTables nBuf tb) → BufTy
  | .hbm, ⟨i, _⟩ => hbmTy i
  | .local _ .vmem, ⟨0, _⟩ => ⟨S3x80000, .f32⟩
  | .local _ .vmem, ⟨1, _⟩ => ⟨S3x80000, .f32⟩
  | .local _ .vmem, ⟨2, _⟩ => ⟨S1x80000, .i32⟩
  | .local _ .vmem, ⟨3, _⟩ => ⟨S1x80000, .i32⟩
  | _, _ => ⟨S20000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_call0_v0 : Ref sig .tc := ⟨.hbm, 12, rfl⟩
abbrev main_call0_call0_c : Ref sig .tc := ⟨.hbm, 13, rfl⟩
abbrev main_call0_call0_v0 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_c_4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_5 : Ref sig .tc := ⟨.hbm, 30, rfl⟩
abbrev main_v16 : Ref sig .tc := ⟨.hbm, 31, rfl⟩
abbrev main_v17 : Ref sig .tc := ⟨.hbm, 32, rfl⟩
abbrev main_call2_call0_c : Ref sig .tc := ⟨.hbm, 33, rfl⟩
abbrev main_call2_call0_v0 : Ref sig .tc := ⟨.hbm, 34, rfl⟩
abbrev main_v18 : Ref sig .tc := ⟨.hbm, 35, rfl⟩
abbrev main_c_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_v6 : Ref sig .tc := ⟨.hbm, 43, rfl⟩
abbrev main_call3_v7 : Ref sig .tc := ⟨.hbm, 44, rfl⟩
abbrev main_call3_c : Ref sig .tc := ⟨.hbm, 45, rfl⟩
abbrev main_call3_v8 : Ref sig .tc := ⟨.hbm, 46, rfl⟩
abbrev main_call3_v9 : Ref sig .tc := ⟨.hbm, 47, rfl⟩
abbrev main_call3_v10 : Ref sig .tc := ⟨.hbm, 48, rfl⟩
abbrev main_call3_c_0 : Ref sig .tc := ⟨.hbm, 49, rfl⟩
abbrev main_call3_v11 : Ref sig .tc := ⟨.hbm, 50, rfl⟩
abbrev main_call3_v12 : Ref sig .tc := ⟨.hbm, 51, rfl⟩
abbrev main_v19 : Ref sig .tc := ⟨.hbm, 52, rfl⟩
abbrev main_c_7 : Ref sig .tc := ⟨.hbm, 53, rfl⟩
abbrev main_call4_v0 : Ref sig .tc := ⟨.hbm, 54, rfl⟩
abbrev main_call4_c : Ref sig .tc := ⟨.hbm, 55, rfl⟩
abbrev main_call4_v1 : Ref sig .tc := ⟨.hbm, 56, rfl⟩
abbrev main_call4_c_0 : Ref sig .tc := ⟨.hbm, 57, rfl⟩
abbrev main_call4_v2 : Ref sig .tc := ⟨.hbm, 58, rfl⟩
abbrev main_call4_v3 : Ref sig .tc := ⟨.hbm, 59, rfl⟩
abbrev main_call4_v4 : Ref sig .tc := ⟨.hbm, 60, rfl⟩
abbrev main_call4_c_1 : Ref sig .tc := ⟨.hbm, 61, rfl⟩
abbrev main_call4_v5 : Ref sig .tc := ⟨.hbm, 62, rfl⟩
abbrev main_call4_v6 : Ref sig .tc := ⟨.hbm, 63, rfl⟩
abbrev main_call4_c_2 : Ref sig .tc := ⟨.hbm, 64, rfl⟩
abbrev main_call4_v7 : Ref sig .tc := ⟨.hbm, 65, rfl⟩
abbrev main_call4_v8 : Ref sig .tc := ⟨.hbm, 66, rfl⟩
abbrev main_call4_c_3 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_v12 : Ref sig .tc := ⟨.hbm, 71, rfl⟩
abbrev main_call4_v13 : Ref sig .tc := ⟨.hbm, 72, rfl⟩
abbrev main_call4_v14 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_c_8 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_c_9 : Ref sig .tc := ⟨.hbm, 81, rfl⟩
abbrev main_call5_v0 : Ref sig .tc := ⟨.hbm, 82, rfl⟩
abbrev main_call5_v1 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_c_10 : Ref sig .tc := ⟨.hbm, 89, rfl⟩
abbrev main_v31 : Ref sig .tc := ⟨.hbm, 90, rfl⟩
abbrev main_v32 : Ref sig .tc := ⟨.hbm, 91, rfl⟩
abbrev main_c_11 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37 : Ref sig .tc := ⟨.hbm, 97, rfl⟩
abbrev main_cst : Ref sig .tc := ⟨.hbm, 98, rfl⟩
abbrev main_call6_v0 : Ref sig .tc := ⟨.hbm, 99, rfl⟩
abbrev main_call6_v1 : Ref sig .tc := ⟨.hbm, 100, rfl⟩
abbrev main_call6_v2 : Ref sig .tc := ⟨.hbm, 101, rfl⟩
abbrev main_v38 : Ref sig .tc := ⟨.hbm, 102, rfl⟩
abbrev main_c_12 : Ref sig .tc := ⟨.hbm, 103, rfl⟩
abbrev main_v39 : Ref sig .tc := ⟨.hbm, 104, rfl⟩
abbrev main_v40 : Ref sig .tc := ⟨.hbm, 105, rfl⟩
abbrev main_c_13 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_c_14 : Ref sig .tc := ⟨.hbm, 112, rfl⟩
abbrev main_call7_v0 : Ref sig .tc := ⟨.hbm, 113, rfl⟩
abbrev main_call7_v1 : Ref sig .tc := ⟨.hbm, 114, rfl⟩
abbrev main_v46 : Ref sig .tc := ⟨.hbm, 115, rfl⟩
abbrev main_c_15 : Ref sig .tc := ⟨.hbm, 116, rfl⟩
abbrev main_v47 : Ref sig .tc := ⟨.hbm, 117, rfl⟩
abbrev main_v48 : Ref sig .tc := ⟨.hbm, 118, rfl⟩
abbrev main_c_16 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_c_17 : Ref sig .tc := ⟨.hbm, 125, rfl⟩
abbrev main_call8_v0 : Ref sig .tc := ⟨.hbm, 126, rfl⟩
abbrev main_call8_v1 : Ref sig .tc := ⟨.hbm, 127, rfl⟩
abbrev main_v54 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x80000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  transposes_S20000000x3_S3x20000000_1_0 : S20000000x3.Transposes [1, 0] S3x20000000
  inb_S3x80000_S3x80000_0_0 : ∀ a, (![0, 0] : Fin 2 → Nat) a + S3x80000.size a ≤ S3x80000.size a
  h_S3x80000 : 0 < S3x80000.numel
  shapeCasts_S3x80000_S3x80000 : S3x80000.ShapeCasts S3x80000
  reduces_S3x80000_S80000 : S3x80000.Reduces [0] S80000
  shapeCasts_S80000_S1x80000 : S80000.ShapeCasts S1x80000
  natLt_1_32 : 1 < 32
  inb_S1x80000_S1x80000_0_0 : ∀ a, (![0, 0] : Fin 2 → Nat) a + S1x80000.size a ≤ S1x80000.size a
  h_S1x80000 : 0 < S1x80000.numel
  shapeCasts_S1x20000000_S20000000 : S1x20000000.ShapeCasts S20000000
  bcast_S_S20000000 : S_.BroadcastsInDim S20000000 (![] : Fin 0 → Fin S20000000.rank)
  reducesTo_S20000000_S_d0 : S20000000.ReducesTo [0] S_
  h_S_ : 0 < S_.numel
  bcast_S_S_ : S_.BroadcastsInDim S_ (![] : Fin 0 → Fin S_.rank)
  reduceWindows_S20000000_S20000000_w20000000s1p19999999_0 : S20000000.ReduceWindows (![20000000] : Fin 1 → Nat) ![1] ![19999999] ![0] S20000000
  bcast_S20000000_S20000000x1_0 : S20000000.BroadcastsInDim S20000000x1 (![0] : Fin 1 → Fin S20000000x1.rank)
  bcast_S20000000x1_S20000000x3_0_1 : S20000000x1.BroadcastsInDim S20000000x3 (![0, 1] : Fin 2 → Fin S20000000x3.rank)
  bcast_S_S20000000x3 : S_.BroadcastsInDim S20000000x3 (![] : Fin 0 → Fin S20000000x3.rank)
  scatter_S20000000_S20000000x1_S20000000_n_0_0_1_wf : ScatterDims.WF S20000000 S20000000x1 S20000000 [] [0] [0] 1
  gather_S20000000x3_S20000000x1_S20000000x3_1_0_n_n_0_1_13_wf : GatherDims.WF S20000000x3 S20000000x1 S20000000x3 [1] [0] [] [0] [] 1 ![1, 3]
  gather_S20000000_S20000000x1_S20000000_n_0_n_n_0_1_1_wf : GatherDims.WF S20000000 S20000000x1 S20000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x80000.size a ≤ S3x20000000.size a
  hwx0_0 : ∀ i : grid0.Coords, EltTy.bits .f32 = 32 ∨ (Rect.block (s := S3x20000000) S3x80000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80000.size a ≤ S1x20000000.size a
  hwx0_1 : ∀ i : grid0.Coords, EltTy.bits .i32 = 32 ∨ (Rect.block (s := S1x20000000) S1x80000.size (cc0_transform_1 i) (hinb0_1 i)).WholeWords (EltTy.packing .i32)

variable [Facts₀]

def scatter_S20000000_S20000000x1_S20000000_n_0_0_1 : ScatterDims S20000000 S20000000x1 S20000000 where
  updateWindowDims := []
  insertedWindowDims := [0]
  scatterDimsToOperandDims := [0]
  indexVectorDim := 1
  wf := scatter_S20000000_S20000000x1_S20000000_n_0_0_1_wf
def gather_S20000000x3_S20000000x1_S20000000x3_1_0_n_n_0_1_13 : GatherDims S20000000x3 S20000000x1 S20000000x3 where
  offsetDims := [1]
  collapsedSliceDims := [0]
  operandBatchingDims := []
  startIndicesBatchingDims := []
  startIndexMap := [0]
  indexVectorDim := 1
  sliceSizes := ![1, 3]
  wf := gather_S20000000x3_S20000000x1_S20000000x3_1_0_n_n_0_1_13_wf
def gather_S20000000_S20000000x1_S20000000_n_0_n_n_0_1_1 : GatherDims S20000000 S20000000x1 S20000000 where
  offsetDims := []
  collapsedSliceDims := [0]
  operandBatchingDims := []
  startIndicesBatchingDims := []
  startIndexMap := [0]
  indexVectorDim := 1
  sliceSizes := ![1]
  wf := gather_S20000000_S20000000x1_S20000000_n_0_n_n_0_1_1_wf

abbrev win0_0 : Pipeline.Window sig grid0 :=
  Pipeline.Window.ofSpec (Memref.whole main_v0) S3x80000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x80000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S20000000x3 : Shape := ⟨2, ![20000000, 3]⟩
abbrev S20000000 : Shape := ⟨1, ![20000000]⟩
abbrev S_ : Shape := ⟨0, ![]⟩
abbrev S20000000x1 : Shape := ⟨2, ![20000000, 1]⟩

abbrev nBuf : Space → Nat
  | .hbm => 130
  | .vmem => 0
  | .smem => 0
  | _ => 0

abbrev hbmTy0_0 (i : Nat) : BufTy := match i % 128 with
  | 0 => ⟨S20000000x3, .f32⟩
  | 1 => ⟨S20000000, .i32⟩
  | 2 => ⟨S20000000, .i32⟩
  | 3 => ⟨S20000000x3, .f32⟩
  | 4 => ⟨S_, .f32⟩
  | 5 => ⟨S20000000, .f32⟩
  | 6 => ⟨S20000000, .f32⟩
  | 7 => ⟨S_, .f32⟩
  | 8 => ⟨S20000000, .f32⟩
  | 9 => ⟨S20000000, .i1⟩
  | 10 => ⟨S20000000, .i32⟩
  | 11 => ⟨S_, .i32⟩
  | 12 => ⟨S_, .i32⟩
  | 13 => ⟨S20000000, .i32⟩
  | 14 => ⟨S_, .i32⟩
  | 15 => ⟨S_, .i32⟩
  | 16 => ⟨S20000000, .i32⟩
  | 17 => ⟨S_, .i32⟩
  | 18 => ⟨S20000000, .i32⟩
  | 19 => ⟨S_, .i32⟩
  | 20 => ⟨S_, .i32⟩
  | 21 => ⟨S20000000, .i32⟩
  | 22 => ⟨S20000000, .i32⟩
  | 23 => ⟨S_, .i32⟩
  | 24 => ⟨S20000000, .i32⟩
  | 25 => ⟨S20000000, .i1⟩
  | 26 => ⟨S_, .i32⟩
  | 27 => ⟨S20000000, .i32⟩
  | 28 => ⟨S20000000, .i32⟩
  | 29 => ⟨S20000000, .i32⟩
  | 30 => ⟨S20000000x1, .i32⟩
  | 31 => ⟨S_, .i32⟩
  | 32 => ⟨S20000000, .i32⟩
  | 33 => ⟨S20000000, .i32⟩
  | 34 => ⟨S_, .i32⟩
  | 35 => ⟨S_, .i32⟩
  | 36 => ⟨S20000000, .i32⟩
  | 37 => ⟨S_, .i32⟩
  | 38 => ⟨S20000000, .i32⟩
  | 39 => ⟨S20000000, .i32⟩
  | 40 => ⟨S20000000, .i32⟩
  | 41 => ⟨S_, .i32⟩
  | 42 => ⟨S20000000, .i32⟩
  | 43 => ⟨S20000000, .i1⟩
  | 44 => ⟨S20000000, .i32⟩
  | 45 => ⟨S20000000, .i32⟩
  | 46 => ⟨S_, .i32⟩
  | 47 => ⟨S20000000, .i32⟩
  | 48 => ⟨S20000000, .i1⟩
  | 49 => ⟨S20000000, .i1⟩
  | 50 => ⟨S_, .i32⟩
  | 51 => ⟨S20000000, .i32⟩
  | 52 => ⟨S20000000, .i32⟩
  | 53 => ⟨S20000000, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S20000000, .i32⟩
  | 61 => ⟨S20000000, .i32⟩
  | 62 => ⟨S_, .i32⟩
  | 63 => ⟨S20000000, .i32⟩
  | 64 => ⟨S20000000, .i1⟩
  | 65 => ⟨S_, .i32⟩
  | 66 => ⟨S20000000, .i32⟩
  | 67 => ⟨S20000000, .i1⟩
  | 68 => ⟨S_, .i32⟩
  | 69 => ⟨S_, .i1⟩
  | 70 => ⟨S20000000, .i1⟩
  | 71 => ⟨S20000000, .i1⟩
  | 72 => ⟨S20000000, .i1⟩
  | 73 => ⟨S20000000, .i32⟩
  | 74 => ⟨S20000000, .i32⟩
  | 75 => ⟨S20000000, .i32⟩
  | 76 => ⟨S20000000, .i32⟩
  | 77 => ⟨S20000000, .i32⟩
  | 78 => ⟨S_, .i32⟩
  | 79 => ⟨S_, .i32⟩
  | 80 => ⟨S20000000, .i32⟩
  | 81 => ⟨S20000000, .i1⟩
  | 82 => ⟨S_, .i32⟩
  | 83 => ⟨S_, .i32⟩
  | 84 => ⟨S20000000, .i32⟩
  | 85 => ⟨S20000000, .i32⟩
  | 86 => ⟨S20000000, .i32⟩
  | 87 => ⟨S20000000, .i32⟩
  | 88 => ⟨S20000000, .i1⟩
  | 89 => ⟨S20000000x1, .i1⟩
  | 90 => ⟨S_, .i32⟩
  | 91 => ⟨S20000000, .i32⟩
  | 92 => ⟨S20000000, .i1⟩
  | 93 => ⟨S_, .i32⟩
  | 94 => ⟨S20000000, .i32⟩
  | 95 => ⟨S20000000, .i32⟩
  | 96 => ⟨S20000000, .i32⟩
  | 97 => ⟨S20000000x1, .i32⟩
  | 98 => ⟨S20000000x3, .f32⟩
  | 99 => ⟨S_, .f32⟩
  | 100 => ⟨S_, .f32⟩
  | 101 => ⟨S20000000x3, .i1⟩
  | 102 => ⟨S20000000x3, .f32⟩
  | 103 => ⟨S20000000x3, .f32⟩
  | 104 => ⟨S_, .i32⟩
  | 105 => ⟨S20000000, .i32⟩
  | 106 => ⟨S20000000, .i1⟩
  | 107 => ⟨S_, .i32⟩
  | 108 => ⟨S20000000, .i32⟩
  | 109 => ⟨S20000000, .i32⟩
  | 110 => ⟨S20000000, .i32⟩
  | 111 => ⟨S20000000x1, .i32⟩
  | 112 => ⟨S20000000, .i32⟩
  | 113 => ⟨S_, .i32⟩
  | 114 => ⟨S_, .i32⟩
  | 115 => ⟨S20000000, .i32⟩
  | 116 => ⟨S20000000, .i32⟩
  | 117 => ⟨S_, .i32⟩
  | 118 => ⟨S20000000, .i32⟩
  | 119 => ⟨S20000000, .i1⟩
  | 120 => ⟨S_, .i32⟩
  | 121 => ⟨S20000000, .i32⟩
  | 122 => ⟨S20000000, .i32⟩
  | 123 => ⟨S20000000, .i32⟩
  | 124 => ⟨S20000000x1, .i32⟩
  | 125 => ⟨S20000000, .i32⟩
  | 126 => ⟨S_, .i32⟩
  | 127 => ⟨S_, .i32⟩
  | _ => ⟨S20000000x3, .f32⟩

abbrev hbmTy0_1 (i : Nat) : BufTy := match i % 128 with
  | 0 => ⟨S20000000, .i32⟩
  | 1 => ⟨S20000000, .i32⟩
  | _ => ⟨S20000000x3, .f32⟩

abbrev hbmTy (i : Nat) : BufTy := match i / 128 with
  | 0 => hbmTy0_0 i
  | 1 => hbmTy0_1 i
  | _ => ⟨S20000000x3, .f32⟩

abbrev bufTy : (tb : Table) → Fin (tcTables nBuf tb) → BufTy
  | .hbm, ⟨i, _⟩ => hbmTy i
  | _, _ => ⟨S20000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_call1_v0 : Ref sig .tc := ⟨.hbm, 13, rfl⟩
abbrev main_call1_call0_c : Ref sig .tc := ⟨.hbm, 14, rfl⟩
abbrev main_call1_call0_v0 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_call2_v1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_call3_call0_c : Ref sig .tc := ⟨.hbm, 34, rfl⟩
abbrev main_call3_call0_v0 : Ref sig .tc := ⟨.hbm, 35, rfl⟩
abbrev main_v16 : Ref sig .tc := ⟨.hbm, 36, rfl⟩
abbrev main_c_5 : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_call4_v3 : Ref sig .tc := ⟨.hbm, 41, rfl⟩
abbrev main_call4_v4 : Ref sig .tc := ⟨.hbm, 42, rfl⟩
abbrev main_call4_v5 : Ref sig .tc := ⟨.hbm, 43, rfl⟩
abbrev main_call4_v6 : Ref sig .tc := ⟨.hbm, 44, rfl⟩
abbrev main_call4_v7 : Ref sig .tc := ⟨.hbm, 45, rfl⟩
abbrev main_call4_c : Ref sig .tc := ⟨.hbm, 46, rfl⟩
abbrev main_call4_v8 : Ref sig .tc := ⟨.hbm, 47, rfl⟩
abbrev main_call4_v9 : Ref sig .tc := ⟨.hbm, 48, rfl⟩
abbrev main_call4_v10 : Ref sig .tc := ⟨.hbm, 49, rfl⟩
abbrev main_call4_c_0 : Ref sig .tc := ⟨.hbm, 50, rfl⟩
abbrev main_call4_v11 : Ref sig .tc := ⟨.hbm, 51, rfl⟩
abbrev main_call4_v12 : Ref sig .tc := ⟨.hbm, 52, rfl⟩
abbrev main_v17 : Ref sig .tc := ⟨.hbm, 53, rfl⟩
abbrev main_c_6 : Ref sig .tc := ⟨.hbm, 54, rfl⟩
abbrev main_call5_v0 : Ref sig .tc := ⟨.hbm, 55, rfl⟩
abbrev main_call5_c : Ref sig .tc := ⟨.hbm, 56, rfl⟩
abbrev main_call5_v1 : Ref sig .tc := ⟨.hbm, 57, rfl⟩
abbrev main_call5_c_0 : Ref sig .tc := ⟨.hbm, 58, rfl⟩
abbrev main_call5_v2 : Ref sig .tc := ⟨.hbm, 59, rfl⟩
abbrev main_call5_v3 : Ref sig .tc := ⟨.hbm, 60, rfl⟩
abbrev main_call5_v4 : Ref sig .tc := ⟨.hbm, 61, rfl⟩
abbrev main_call5_c_1 : Ref sig .tc := ⟨.hbm, 62, rfl⟩
abbrev main_call5_v5 : Ref sig .tc := ⟨.hbm, 63, rfl⟩
abbrev main_call5_v6 : Ref sig .tc := ⟨.hbm, 64, rfl⟩
abbrev main_call5_c_2 : Ref sig .tc := ⟨.hbm, 65, rfl⟩
abbrev main_call5_v7 : Ref sig .tc := ⟨.hbm, 66, rfl⟩
abbrev main_call5_v8 : Ref sig .tc := ⟨.hbm, 67, rfl⟩
abbrev main_call5_c_3 : Ref sig .tc := ⟨.hbm, 68, rfl⟩
abbrev main_call5_v9 : Ref sig .tc := ⟨.hbm, 69, rfl⟩
abbrev main_call5_v10 : Ref sig .tc := ⟨.hbm, 70, rfl⟩
abbrev main_call5_v11 : Ref sig .tc := ⟨.hbm, 71, rfl⟩
abbrev main_call5_v12 : Ref sig .tc := ⟨.hbm, 72, rfl⟩
abbrev main_call5_v13 : Ref sig .tc := ⟨.hbm, 73, rfl⟩
abbrev main_call5_v14 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_c_7 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_c_8 : Ref sig .tc := ⟨.hbm, 82, rfl⟩
abbrev main_call6_v0 : Ref sig .tc := ⟨.hbm, 83, rfl⟩
abbrev main_call6_v1 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_c_9 : Ref sig .tc := ⟨.hbm, 90, rfl⟩
abbrev main_v29 : Ref sig .tc := ⟨.hbm, 91, rfl⟩
abbrev main_v30 : Ref sig .tc := ⟨.hbm, 92, rfl⟩
abbrev main_c_10 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_cst_11 : Ref sig .tc := ⟨.hbm, 99, rfl⟩
abbrev main_call7_v0 : Ref sig .tc := ⟨.hbm, 100, rfl⟩
abbrev main_call7_v1 : Ref sig .tc := ⟨.hbm, 101, rfl⟩
abbrev main_call7_v2 : Ref sig .tc := ⟨.hbm, 102, rfl⟩
abbrev main_v36 : Ref sig .tc := ⟨.hbm, 103, rfl⟩
abbrev main_c_12 : Ref sig .tc := ⟨.hbm, 104, rfl⟩
abbrev main_v37 : Ref sig .tc := ⟨.hbm, 105, rfl⟩
abbrev main_v38 : Ref sig .tc := ⟨.hbm, 106, rfl⟩
abbrev main_c_13 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_c_14 : Ref sig .tc := ⟨.hbm, 113, rfl⟩
abbrev main_call8_v0 : Ref sig .tc := ⟨.hbm, 114, rfl⟩
abbrev main_call8_v1 : Ref sig .tc := ⟨.hbm, 115, rfl⟩
abbrev main_v44 : Ref sig .tc := ⟨.hbm, 116, rfl⟩
abbrev main_c_15 : Ref sig .tc := ⟨.hbm, 117, rfl⟩
abbrev main_v45 : Ref sig .tc := ⟨.hbm, 118, rfl⟩
abbrev main_v46 : Ref sig .tc := ⟨.hbm, 119, rfl⟩
abbrev main_c_16 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_c_17 : Ref sig .tc := ⟨.hbm, 126, rfl⟩
abbrev main_call9_v0 : Ref sig .tc := ⟨.hbm, 127, rfl⟩
abbrev main_call9_v1 : Ref sig .tc := ⟨.hbm, 128, rfl⟩
abbrev main_v52 : Ref sig .tc := ⟨.hbm, 129, rfl⟩

abbrev nD : Nat := 1
abbrev τ : Topo := Topo.v7x

variable {F : FTy → Type} [FloatOps F]

class Facts₀ : Prop where
  reducesTo_S20000000x3_S20000000_d1 : S20000000x3.ReducesTo [1] S20000000
  h_S_ : 0 < S_.numel
  bcast_S_S20000000 : S_.BroadcastsInDim S20000000 (![] : Fin 0 → Fin S20000000.rank)
  natLt_1_32 : 1 < 32
  reducesTo_S20000000_S_d0 : S20000000.ReducesTo [0] S_
  bcast_S_S_ : S_.BroadcastsInDim S_ (![] : Fin 0 → Fin S_.rank)
  reduceWindows_S20000000_S20000000_w20000000s1p19999999_0 : S20000000.ReduceWindows (![20000000] : Fin 1 → Nat) ![1] ![19999999] ![0] S20000000
  bcast_S20000000_S20000000x1_0 : S20000000.BroadcastsInDim S20000000x1 (![0] : Fin 1 → Fin S20000000x1.rank)
  bcast_S20000000x1_S20000000x3_0_1 : S20000000x1.BroadcastsInDim S20000000x3 (![0, 1] : Fin 2 → Fin S20000000x3.rank)
  bcast_S_S20000000x3 : S_.BroadcastsInDim S20000000x3 (![] : Fin 0 → Fin S20000000x3.rank)
  scatter_S20000000_S20000000x1_S20000000_n_0_0_1_wf : ScatterDims.WF S20000000 S20000000x1 S20000000 [] [0] [0] 1
  gather_S20000000x3_S20000000x1_S20000000x3_1_0_n_n_0_1_13_wf : GatherDims.WF S20000000x3 S20000000x1 S20000000x3 [1] [0] [] [0] [] 1 ![1, 3]
  gather_S20000000_S20000000x1_S20000000_n_0_n_n_0_1_1_wf : GatherDims.WF S20000000 S20000000x1 S20000000 [] [0] [] [0] [] 1 ![1]

variable [Facts₀]

def scatter_S20000000_S20000000x1_S20000000_n_0_0_1 : ScatterDims S20000000 S20000000x1 S20000000 where
  updateWindowDims := []
  insertedWindowDims := [0]
  scatterDimsToOperandDims := [0]
  indexVectorDim := 1
  wf := scatter_S20000000_S20000000x1_S20000000_n_0_0_1_wf
def gather_S20000000x3_S20000000x1_S20000000x3_1_0_n_n_0_1_13 : GatherDims S20000000x3 S20000000x1 S20000000x3 where
  offsetDims := [1]
  collapsedSliceDims := [0]
  operandBatchingDims := []
  startIndicesBatchingDims := []
  startIndexMap := [0]
  indexVectorDim := 1
  sliceSizes := ![1, 3]
  wf := gather_S20000000x3_S20000000x1_S20000000x3_1_0_n_n_0_1_13_wf
def gather_S20000000_S20000000x1_S20000000_n_0_n_n_0_1_1 : GatherDims S20000000 S20000000x1 S20000000 where
  offsetDims := []
  collapsedSliceDims := [0]
  operandBatchingDims := []
  startIndicesBatchingDims := []
  startIndexMap := [0]
  indexVectorDim := 1
  sliceSizes := ![1]
  wf := gather_S20000000_S20000000x1_S20000000_n_0_n_n_0_1_1_wf

class Facts : Prop extends Facts₀ where

variable [Facts]
-- ==== Proof.FrameBits.lean ====
/-
  The frame of the masked-compaction program: @main transposes the edge vectors to [3, E], runs one
  pipelined kernel over 250 blocks of 80000 edges (each block: the squared length of every edge, its
  root, the comparison with the cutoff, widened to a 32-bit word), and continues with the host's
  compaction — prefix sums, a scatter, three gathers — over the kernel's mask.  Every weakly fair
  execution terminates without a fault; the three argument arrays end as they were launched, because
  no host line writes them and the kernel's two windows are arrays of their own.

  What is stated: the contents of core `c`'s buffers when the kernel is entered (`atEntry`), the block of
  edges a grid point reads (`edgeBlock`), what the kernel body leaves in its output buffer as the one
  piece it stores (`maskPiece`), the body's triple, the per-point data of the pipeline, and the run of
  @main to the library's frame post read after the host's later lines (`run_main`), from which the
  frame claim (`frame`) follows.  Generic in the float instance.
-/
import proofs.«114148_j9569187135587_1_alg».proof.Proof.Gen.Kernel.Launch
import proofs.«114148_j9569187135587_1_alg».proof.Proof.Gen.Kernel.Skeleton
import proofs.«114148_j9569187135587_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.MaskFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- Core `c`'s buffers when the kernel is entered: the launch contents after the one earlier host line,
    the transpose of the edge vectors. -/
abbrev entryVal (c : Dev nD) : Valuation τ sig (Elt F) := StableHlo.after (List.flatten [hostOps0]) (fun b => m (c, b))
/-- The same, read at a TensorCore reference. -/
abbrev atEntry (c : Dev nD) (b : Ref sig .tc) : Buf (Elt F) ((c : Thread nD τ).loc b) := entryVal m c (Proc.devRef .tc b)

/-- The host lines after the kernel, stretch by stretch: the mask's reshape and the count of kept edges,
    then the compaction (each outlined function a stretch of its own). -/
abbrev laterLines : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17]

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor

/-- @main is the earlier line, the kernel's region, the later lines: it reduces to the region continued by them. -/
theorem hmain (𝒱₀ : Variants) : Pipeline.HMainK (Ix := Unit) (Name := ℕ) (U := UR sig nD τ) (Lvl := ℕ) cfgs 0 defs₀ 𝒱₀ m (main (F := F)) (atEntry m)
      (fun _ => Pipeline.chain ((laterLines (F := F)).map StableHlo.seq)) :=
  Pipeline.hmain_around cfgs 0 defs₀ 𝒱₀ m main [hostOps0] laterLines (by simp only [List.Forall]; exact hostOps0_sub)
    (by simp only [List.Forall]; exact hostOps0_fresh) main_chain

/-- The later lines touch unscoped TensorCore buffers only. -/
theorem later_sub : ∀ ops ∈ (laterLines : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)

/-- They allocate nothing. -/
theorem later_fresh : ∀ ops ∈ (laterLines : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop

/-- And none writes the transposed edges or the mask, the kernel's two arrays: each writes its own result buffer. -/
theorem later_keeps : ∀ ops ∈ (laterLines : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_6, List.mem_cons, List.mem_nil_iff, or_false] at hop
    rcases hop with rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_7, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_8, List.mem_cons, List.mem_nil_iff, or_false] at hop
    rcases hop with rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_9, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_10, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_11, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_12, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_13, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_14, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_15, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_16, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_17, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No later line writes an argument array either. -/
theorem later_spares_args : ∀ ops ∈ (laterLines : List (List (HloOp τ sig (Elt F)))), ∀ op ∈ ops,
    ∀ r ∈ [main_arg0, main_arg1, main_arg2], Proc.devRef .tc r ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl
  · simp only [hostOps1, List.mem_cons, List.mem_nil_iff, or_false] at hop
    rcases hop with rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_3, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_5, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_6, List.mem_cons, List.mem_nil_iff, or_false] at hop
    rcases hop with rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_7, List.mem_cons, List.mem_nil_iff, or_false] at hop
    rcases hop with rfl | rfl | rfl | rfl | rfl | rfl | rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_8, List.mem_cons, List.mem_nil_iff, or_false] at hop
    rcases hop with rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_9, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_10, List.mem_cons, List.mem_nil_iff, or_false] at hop
    rcases hop with rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_11, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_12, List.mem_cons, List.mem_nil_iff, or_false] at hop
    rcases hop with rfl | rfl | rfl | rfl | rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_13, List.mem_cons, List.mem_nil_iff, or_false] at hop
    rcases hop with rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_14, List.mem_cons, List.mem_nil_iff, or_false] at hop
    rcases hop with rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_15, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_16, List.mem_cons, List.mem_nil_iff, or_false] at hop
    rcases hop with rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_17, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)

/-- A buffer that no line of any stretch writes is not written by the stretches joined. -/
theorem not_written_joined {b : DevRef τ sig} (opss : List (List (HloOp τ sig (Elt F))))
    (h : ∀ ops ∈ opss, ∀ op ∈ ops, b ∉ op.writes) : ∀ op ∈ opss.flatten, b ∉ op.writes := by
  intro op hop
  obtain ⟨ops, hops, ho⟩ := List.mem_flatten.mp hop
  exact h ops hops op ho

/-- The transpose writes its own result: the kernel finds each argument array as launched. -/
theorem atEntry_arg (c : Dev nD) (r : Ref sig .tc) (hr : r ∈ [main_arg0, main_arg1, main_arg2]) :
    atEntry m c r = m ((c : Thread nD τ).loc r) :=
  StableHlo.after_of_forall_not_mem (b := Proc.devRef .tc r) _ _ (by
    intro op hop
    simp only [hostOps0, List.flatten_cons, List.flatten_nil, List.append_nil, List.mem_cons, List.mem_nil_iff, or_false] at hop
    subst hop
    simp only [List.mem_cons, List.mem_nil_iff, or_false] at hr
    rcases hr with rfl | rfl | rfl <;> simp only [StableHlo.nullary_writes, StableHlo.unary_writes, StableHlo.binary_writes, StableHlo.ternary_writes, StableHlo.reshape_writes, Finset.mem_singleton] <;> exact StableHlo.devRef_ne_of_ne (by decide))

/-- After the later lines an argument array is still as launched: it is no array of the kernel's, and no line writes it. -/
theorem later_arg (dats : (p : Fin 1) → (c : Dev nD) → Dat τ (Elt F) Unit ℕ (UR sig nD τ) ℕ (cfgs p) c) (c : Dev nD)
    (r : Ref sig .tc) (hr : r ∈ [main_arg0, main_arg1, main_arg2]) :
    Pipeline.afterTail₀ cfgs dats 0 (entryVal m) laterLines c r = m ((c : Thread nD τ).loc r) := by
  unfold Pipeline.afterTail₀
  rw [StableHlo.after_of_forall_not_mem (b := Proc.devRef .tc r) _ _
      (not_written_joined _ fun ops hops op hop => later_spares_args ops hops op hop r hr),
    Pipeline.withArrays_of_ne _ c (entryVal m c) _ r (by
      simp only [List.mem_cons, List.mem_nil_iff, or_false] at hr
      rcases hr with rfl | rfl | rfl <;> decide)]
  exact atEntry_arg m c r hr

/-! ## The kernel's blocks -/

/-- Window `w`'s block at grid point `t`, read off its array as the kernel finds it: for the input window, the
    80000 edges of the point, one row per coordinate. -/
def edgeBlock (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The input window's staging buffer holds the point's block of edges at every point, for any pipeline data over the
    entry contents whose body leaves that block in place: the window is fetched whole at every point. -/
theorem input_found {c : Dev nD} (dat : Dat τ (Elt F) Unit ℕ (UR sig nD τ) ℕ cfg0 c) (hA : dat.A 0 = atEntry m c (Pipeline.arrRef spec0 0))
    (hafter : ∀ t, dat.after 0 t = edgeBlock m c 0 t) (t : Fin cfg0.N) (d) : dat.before 0 t d = edgeBlock m c 0 t :=
  (dat.before_in_eq_fetched 0 rfl (fun _ => rfl) (fun _ _ _ => rfl) (fun t => by rw [hafter]; unfold Dat.blockOf edgeBlock; rw [hA]; try rfl) t d).trans
    (by unfold Dat.fetched Dat.blockOf edgeBlock; rw [hA]; try rfl)

/-- The whole input buffer, as the body's load reads it, and the whole output buffer, as its store writes it. -/
abbrev wholeIn : Rect S3x80000 := Rect.unit (s := S3x80000) ![0, 0] S3x80000.size inb_S3x80000_S3x80000_0_0
abbrev wholeOut : Rect S1x80000 := Rect.unit (s := S1x80000) ![0, 0] S1x80000.size inb_S1x80000_S1x80000_0_0

/-- What the body leaves in the output buffer, from the block of edges: its one store, of the mask words computed
    from the block it loaded. -/
def maskPiece (x0 : Vec F S3x80000 .f32) : Vec F S1x80000 .i32 :=
  View.canon [⟨wholeOut, k0_pay1 (View.ld x0 wholeIn)⟩]

/-- That store covers the buffer. -/
theorem store_covers (p0 : Vec F S1x80000 .i32) (y : S1x80000.Idx) :
    ∃ pc ∈ ([⟨wholeOut, p0⟩] : List (View.Piece (Elt F) S1x80000 .i32)), y ∈ pc.1.set :=
  View.cover_of_tiled [⟨wholeOut, p0⟩] S1x80000.size (by rfl) y

/-! ## The body's triple -/

set_option maxHeartbeats 1000000 in
/-- On whole staging buffers, the input's at contents `x0` and the output's at anything, the body runs to its
    continuation holding the input's as it was and the output's at `maskPiece x0`. -/
theorem body_runs (c : Dev nD) (E : Set ℕ) (i : grid0.Coords) (arg1 : Memref sig .tc .vmem S3x80000 .f32) (harg1 : arg1.IsWhole)
    (arg2 : Memref sig .tc .vmem S1x80000 .i32) (harg2 : arg2.IsWhole)
    (x0 : Vec F S3x80000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (maskPiece x0)) -∗ K ⟨⟩))
      ⊢ wp frame (wpE (defs₀ (F := F)) Variants.none c none) E (cc0__mask_kernel i arg1 harg1 arg2 harg2) K := by
  simp only [cc0__mask_kernel_eq_skeleton]; unfold cc0__mask_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-! ## The pipeline's data -/

/-- The data of the one pipeline on core `c`: its arrays as the kernel finds them; after the body at point `t` the
    input's buffer at the point's block of edges and the output's at the mask words of that block; the invariant
    the scoped rest and the generator's register, untouched; nothing owed; full shares. -/
def pipeData (_ : Fin 1) (c : Dev nD) : Dat τ (Elt F) Unit ℕ (UR sig nD τ) ℕ cfg0 c where
  A w := atEntry m c (Pipeline.arrRef spec0 w)
  after w t := match w with
    | ⟨0, _⟩ => edgeBlock m c 0 t
    | ⟨1, _⟩ => maskPiece (edgeBlock m c 0 t)
  Φ _ := Pipeline.ΦA spec0 c
  q _ := fullShare
  owed _ := 0

theorem arrays_eq (c : Dev nD) (w : Fin cfg0.W) : (pipeData m 0 c).A w = atEntry m c (Pipeline.arrRef spec0 w) := by
  dsimp only [pipeData]
theorem after_in (c : Dev nD) (t : Fin cfg0.N) : (pipeData m 0 c).after 0 t = edgeBlock m c 0 t := by dsimp only [pipeData]
theorem after_out (c : Dev nD) (t : Fin cfg0.N) : (pipeData m 0 c).after 1 t = maskPiece (edgeBlock m c 0 t) := by dsimp only [pipeData]

/-- The input's staging buffer holds the point's block of edges when the body is called. -/
theorem before_in (c : Dev nD) (t : Fin cfg0.N) (d) : (pipeData m 0 c).before 0 t d = edgeBlock m c 0 t :=
  input_found m (pipeData m 0 c) (arrays_eq m c 0) (after_in m c) t d

/-! ## The body at a grid point -/

/-- What the body is called with at point `t`, the windows one by one, -/
def bodyPre (c : Dev nD) (t : Fin cfg0.N) : sProp 𝕄 :=
  iprop((pipeData m 0 c).Φ t.castSucc ∗ (pipeData m 0 c).owesAt () t.castSucc
    ∗ (∃ d, owns (c : Thread nD τ) (st0_0 t) fullShare ((pipeData m 0 c).before 0 t d))
    ∗ (∃ d, owns (c : Thread nD τ) (st0_1 t) fullShare ((pipeData m 0 c).before 1 t d)))

/-- and what it returns. -/
def bodyPost (c : Dev nD) (t : Fin cfg0.N) : sProp 𝕄 :=
  iprop((pipeData m 0 c).Φ t.succ ∗ (pipeData m 0 c).owesAt () t.succ
    ∗ owns (c : Thread nD τ) (st0_0 t) fullShare ((pipeData m 0 c).after 0 t)
    ∗ owns (c : Thread nD τ) (st0_1 t) fullShare ((pipeData m 0 c).after 1 t))

/-- At any point the input's buffer holds the block, so the body's triple applies; the invariant and what the core owes
    pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (pipeData m 0 c).Φ t.succ = (pipeData m 0 c).Φ t.castSucc from rfl,
    show (pipeData m 0 c).owesAt () t.succ = (pipeData m 0 c).owesAt () t.castSucc from rfl,
    after_in, after_out]
  iintro ⟨HΦ, Ho, ⟨%d0, H0⟩, ⟨%d1, H1⟩⟩
  iapply (body_runs c Set.univ (grid0.coords t) _ _ _ _ (edgeBlock m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation on the body, at every point. -/
theorem body_obligation (c : Dev nD) : BodyObligation (pipeData (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and in every final state each
    array of the pipeline holds what the point-by-point data give it and every other unscoped buffer what the later
    lines leave there. -/
theorem run_main : θ_run defs (onTc (τ := τ) (main (F := F))) (s₀ m ρ)
    (Pipeline.FramePost cfgs (pipeData m) 0 (Pipeline.afterTail₀ cfgs (pipeData m) 0 (entryVal m) laterLines)) :=
  Pipeline.θ_run_frame_around cfgs (pipeData m) (0 : Fin 1) launch0 defs₀ Variants.none m ρ main
    (hbody := fun c => (body_obligation m c).loose) (hshare := fun c => (pipeData m 0 c).share_full fun _ => rfl)
    (howed := fun _ _ => rfl) (V₀ := entryVal m) (opss := laterLines) (hsub := later_sub) (hfresh := later_fresh) (hkeep := later_keeps)
    (hmain := hmain m Variants.none) (hA := arrays_eq m) (hΦ := fun _ _ => rfl)

/-- An argument array is no array of the pipeline and is unscoped: the run's post speaks of it. -/
theorem arg_in_rest (r : Ref sig .tc) (hr : r ∈ [main_arg0, main_arg1, main_arg2]) : r ∈ Pipeline.restRefs sig (cfgs 0).spec := by
  simp only [List.mem_cons, List.mem_nil_iff, or_false] at hr
  rcases hr with rfl | rfl | rfl <;> exact Pipeline.mem_restRefs_of _ (by decide) (by decide)

/-- The frame: the run ends with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (arg_in_rest main_arg0 (by simp))).trans (later_arg m (pipeData m) c main_arg0 (by simp)),
     ((h c).2 main_arg1 (arg_in_rest main_arg1 (by simp))).trans (later_arg m (pipeData m) c main_arg1 (by simp)),
     ((h c).2 main_arg2 (arg_in_rest main_arg2 (by simp))).trans (later_arg m (pipeData m) c main_arg2 (by simp))⟩) (run_main m ρ)

end Cert.Kernel.MaskFrame

end
-- ==== Proof.FrameIdeal.lean ====
/-
  The frame of the masked-compaction program: @main transposes the edge vectors to [3, E], runs one
  pipelined kernel over 250 blocks of 80000 edges (each block: the squared length of every edge, its
  root, the comparison with the cutoff, widened to a 32-bit word), and continues with the host's
  compaction — prefix sums, a scatter, three gathers — over the kernel's mask.  Every weakly fair
  execution terminates without a fault; the three argument arrays end as they were launched, because
  no host line writes them and the kernel's two windows are arrays of their own.

  What is stated: the contents of core `c`'s buffers when the kernel is entered (`atEntry`), the block of
  edges a grid point reads (`edgeBlock`), what the kernel body leaves in its output buffer as the one
  piece it stores (`maskPiece`), the body's triple, the per-point data of the pipeline, and the run of
  @main to the library's frame post read after the host's later lines (`run_main`), from which the
  frame claim (`frame`) follows.  Generic in the float instance.
-/
import proofs.«114148_j9569187135587_1_alg».proof.Proof.Gen.KernelIdeal.Launch
import proofs.«114148_j9569187135587_1_alg».proof.Proof.Gen.KernelIdeal.Skeleton
import proofs.«114148_j9569187135587_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.MaskFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the kernel -/

/-- Core `c`'s buffers when the kernel is entered: the launch contents after the one earlier host line,
    the transpose of the edge vectors. -/
abbrev entryVal (c : Dev nD) : Valuation τ sig (Elt F) := StableHlo.after (List.flatten [hostOps0]) (fun b => m (c, b))
/-- The same, read at a TensorCore reference. -/
abbrev atEntry (c : Dev nD) (b : Ref sig .tc) : Buf (Elt F) ((c : Thread nD τ).loc b) := entryVal m c (Proc.devRef .tc b)

/-- The host lines after the kernel, stretch by stretch: the mask's reshape and the count of kept edges,
    then the compaction (each outlined function a stretch of its own). -/
abbrev laterLines : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17]

/-- No host line allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor
theorem hostOps1_17_fresh : (hostOps1_17 : List (HloOp τ sig (Elt F))).Forall fun op => op.fresh = ∅ := by
  simp only [List.Forall]; repeat' constructor

/-- @main is the earlier line, the kernel's region, the later lines: it reduces to the region continued by them. -/
theorem hmain (𝒱₀ : Variants) : Pipeline.HMainK (Ix := Unit) (Name := ℕ) (U := UR sig nD τ) (Lvl := ℕ) cfgs 0 defs₀ 𝒱₀ m (main (F := F)) (atEntry m)
      (fun _ => Pipeline.chain ((laterLines (F := F)).map StableHlo.seq)) :=
  Pipeline.hmain_around cfgs 0 defs₀ 𝒱₀ m main [hostOps0] laterLines (by simp only [List.Forall]; exact hostOps0_sub)
    (by simp only [List.Forall]; exact hostOps0_fresh) main_chain

/-- The later lines touch unscoped TensorCore buffers only. -/
theorem later_sub : ∀ ops ∈ (laterLines : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)
  · exact Pipeline.sub_ucRefs op ((List.forall_iff_forall_mem.mp hostOps1_17_sub) op hop)

/-- They allocate nothing. -/
theorem later_fresh : ∀ ops ∈ (laterLines : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop
  · exact (List.forall_iff_forall_mem.mp hostOps1_17_fresh) op hop

/-- And none writes the transposed edges or the mask, the kernel's two arrays: each writes its own result buffer. -/
theorem later_keeps : ∀ ops ∈ (laterLines : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_3, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_6, List.mem_cons, List.mem_nil_iff, or_false] at hop
    rcases hop with rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_7, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_8, List.mem_cons, List.mem_nil_iff, or_false] at hop
    rcases hop with rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_9, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_10, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_11, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_12, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_13, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_14, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_15, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_16, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_17, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No later line writes an argument array either. -/
theorem later_spares_args : ∀ ops ∈ (laterLines : List (List (HloOp τ sig (Elt F)))), ∀ op ∈ ops,
    ∀ r ∈ [main_arg0, main_arg1, main_arg2], Proc.devRef .tc r ∉ op.writes := by
  intro ops hops op hop
  simp only [List.mem_cons, List.mem_nil_iff, or_false] at hops
  rcases hops with rfl | rfl | rfl | rfl | rfl | rfl | rfl | rfl | rfl | rfl | rfl | rfl | rfl | rfl | rfl | rfl | rfl | rfl
  · simp only [hostOps1, List.mem_cons, List.mem_nil_iff, or_false] at hop
    rcases hop with rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_2, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_3, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_5, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_6, List.mem_cons, List.mem_nil_iff, or_false] at hop
    rcases hop with rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_7, List.mem_cons, List.mem_nil_iff, or_false] at hop
    rcases hop with rfl | rfl | rfl | rfl | rfl | rfl | rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_8, List.mem_cons, List.mem_nil_iff, or_false] at hop
    rcases hop with rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_9, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_10, List.mem_cons, List.mem_nil_iff, or_false] at hop
    rcases hop with rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_11, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_12, List.mem_cons, List.mem_nil_iff, or_false] at hop
    rcases hop with rfl | rfl | rfl | rfl | rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_13, List.mem_cons, List.mem_nil_iff, or_false] at hop
    rcases hop with rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_14, List.mem_cons, List.mem_nil_iff, or_false] at hop
    rcases hop with rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_15, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_16, List.mem_cons, List.mem_nil_iff, or_false] at hop
    rcases hop with rfl | rfl | rfl | rfl | rfl | rfl | rfl | rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)
  · simp only [hostOps1_17, List.mem_cons, List.mem_nil_iff, or_false] at hop
    rcases hop with rfl | rfl | rfl
    all_goals intro r hr; simp only [List.mem_cons, List.mem_nil_iff, or_false] at hr; rcases hr with rfl | rfl | rfl <;> simp only [StableHlo.nullary_writes, StableHlo.unary_writes, StableHlo.binary_writes, StableHlo.ternary_writes, StableHlo.reshape_writes, Finset.mem_singleton] <;> exact StableHlo.devRef_ne_of_ne (by decide)

/-- A buffer that no line of any stretch writes is not written by the stretches joined. -/
theorem not_written_joined {b : DevRef τ sig} (opss : List (List (HloOp τ sig (Elt F))))
    (h : ∀ ops ∈ opss, ∀ op ∈ ops, b ∉ op.writes) : ∀ op ∈ opss.flatten, b ∉ op.writes := by
  intro op hop
  obtain ⟨ops, hops, ho⟩ := List.mem_flatten.mp hop
  exact h ops hops op ho

/-- The transpose writes its own result: the kernel finds each argument array as launched. -/
theorem atEntry_arg (c : Dev nD) (r : Ref sig .tc) (hr : r ∈ [main_arg0, main_arg1, main_arg2]) :
    atEntry m c r = m ((c : Thread nD τ).loc r) :=
  StableHlo.after_of_forall_not_mem (b := Proc.devRef .tc r) _ _ (by
    intro op hop
    simp only [hostOps0, List.flatten_cons, List.flatten_nil, List.append_nil, List.mem_cons, List.mem_nil_iff, or_false] at hop
    subst hop
    simp only [List.mem_cons, List.mem_nil_iff, or_false] at hr
    rcases hr with rfl | rfl | rfl <;> simp only [StableHlo.nullary_writes, StableHlo.unary_writes, StableHlo.binary_writes, StableHlo.ternary_writes, StableHlo.reshape_writes, Finset.mem_singleton] <;> exact StableHlo.devRef_ne_of_ne (by decide))

/-- After the later lines an argument array is still as launched: it is no array of the kernel's, and no line writes it. -/
theorem later_arg (dats : (p : Fin 1) → (c : Dev nD) → Dat τ (Elt F) Unit ℕ (UR sig nD τ) ℕ (cfgs p) c) (c : Dev nD)
    (r : Ref sig .tc) (hr : r ∈ [main_arg0, main_arg1, main_arg2]) :
    Pipeline.afterTail₀ cfgs dats 0 (entryVal m) laterLines c r = m ((c : Thread nD τ).loc r) := by
  unfold Pipeline.afterTail₀
  rw [StableHlo.after_of_forall_not_mem (b := Proc.devRef .tc r) _ _
      (not_written_joined _ fun ops hops op hop => later_spares_args ops hops op hop r hr),
    Pipeline.withArrays_of_ne _ c (entryVal m c) _ r (by
      simp only [List.mem_cons, List.mem_nil_iff, or_false] at hr
      rcases hr with rfl | rfl | rfl <;> decide)]
  exact atEntry_arg m c r hr

/-! ## The kernel's blocks -/

/-- Window `w`'s block at grid point `t`, read off its array as the kernel finds it: for the input window, the
    80000 edges of the point, one row per coordinate. -/
def edgeBlock (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The input window's staging buffer holds the point's block of edges at every point, for any pipeline data over the
    entry contents whose body leaves that block in place: the window is fetched whole at every point. -/
theorem input_found {c : Dev nD} (dat : Dat τ (Elt F) Unit ℕ (UR sig nD τ) ℕ cfg0 c) (hA : dat.A 0 = atEntry m c (Pipeline.arrRef spec0 0))
    (hafter : ∀ t, dat.after 0 t = edgeBlock m c 0 t) (t : Fin cfg0.N) (d) : dat.before 0 t d = edgeBlock m c 0 t :=
  (dat.before_in_eq_fetched 0 rfl (fun _ => rfl) (fun _ _ _ => rfl) (fun t => by rw [hafter]; unfold Dat.blockOf edgeBlock; rw [hA]; try rfl) t d).trans
    (by unfold Dat.fetched Dat.blockOf edgeBlock; rw [hA]; try rfl)

/-- The whole input buffer, as the body's load reads it, and the whole output buffer, as its store writes it. -/
abbrev wholeIn : Rect S3x80000 := Rect.unit (s := S3x80000) ![0, 0] S3x80000.size inb_S3x80000_S3x80000_0_0
abbrev wholeOut : Rect S1x80000 := Rect.unit (s := S1x80000) ![0, 0] S1x80000.size inb_S1x80000_S1x80000_0_0

/-- What the body leaves in the output buffer, from the block of edges: its one store, of the mask words computed
    from the block it loaded. -/
def maskPiece (x0 : Vec F S3x80000 .f32) : Vec F S1x80000 .i32 :=
  View.canon [⟨wholeOut, k0_pay1 (View.ld x0 wholeIn)⟩]

/-- That store covers the buffer. -/
theorem store_covers (p0 : Vec F S1x80000 .i32) (y : S1x80000.Idx) :
    ∃ pc ∈ ([⟨wholeOut, p0⟩] : List (View.Piece (Elt F) S1x80000 .i32)), y ∈ pc.1.set :=
  View.cover_of_tiled [⟨wholeOut, p0⟩] S1x80000.size (by rfl) y

/-! ## The body's triple -/

set_option maxHeartbeats 1000000 in
/-- On whole staging buffers, the input's at contents `x0` and the output's at anything, the body runs to its
    continuation holding the input's as it was and the output's at `maskPiece x0`. -/
theorem body_runs (c : Dev nD) (E : Set ℕ) (i : grid0.Coords) (arg1 : Memref sig .tc .vmem S3x80000 .f32) (harg1 : arg1.IsWhole)
    (arg2 : Memref sig .tc .vmem S1x80000 .i32) (harg2 : arg2.IsWhole)
    (x0 : Vec F S3x80000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (maskPiece x0)) -∗ K ⟨⟩))
      ⊢ wp frame (wpE (defs₀ (F := F)) Variants.none c none) E (cc0__mask_kernel i arg1 harg1 arg2 harg2) K := by
  simp only [cc0__mask_kernel_eq_skeleton]; unfold cc0__mask_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-! ## The pipeline's data -/

/-- The data of the one pipeline on core `c`: its arrays as the kernel finds them; after the body at point `t` the
    input's buffer at the point's block of edges and the output's at the mask words of that block; the invariant
    the scoped rest and the generator's register, untouched; nothing owed; full shares. -/
def pipeData (_ : Fin 1) (c : Dev nD) : Dat τ (Elt F) Unit ℕ (UR sig nD τ) ℕ cfg0 c where
  A w := atEntry m c (Pipeline.arrRef spec0 w)
  after w t := match w with
    | ⟨0, _⟩ => edgeBlock m c 0 t
    | ⟨1, _⟩ => maskPiece (edgeBlock m c 0 t)
  Φ _ := Pipeline.ΦA spec0 c
  q _ := fullShare
  owed _ := 0

theorem arrays_eq (c : Dev nD) (w : Fin cfg0.W) : (pipeData m 0 c).A w = atEntry m c (Pipeline.arrRef spec0 w) := by
  dsimp only [pipeData]
theorem after_in (c : Dev nD) (t : Fin cfg0.N) : (pipeData m 0 c).after 0 t = edgeBlock m c 0 t := by dsimp only [pipeData]
theorem after_out (c : Dev nD) (t : Fin cfg0.N) : (pipeData m 0 c).after 1 t = maskPiece (edgeBlock m c 0 t) := by dsimp only [pipeData]

/-- The input's staging buffer holds the point's block of edges when the body is called. -/
theorem before_in (c : Dev nD) (t : Fin cfg0.N) (d) : (pipeData m 0 c).before 0 t d = edgeBlock m c 0 t :=
  input_found m (pipeData m 0 c) (arrays_eq m c 0) (after_in m c) t d

/-! ## The body at a grid point -/

/-- What the body is called with at point `t`, the windows one by one, -/
def bodyPre (c : Dev nD) (t : Fin cfg0.N) : sProp 𝕄 :=
  iprop((pipeData m 0 c).Φ t.castSucc ∗ (pipeData m 0 c).owesAt () t.castSucc
    ∗ (∃ d, owns (c : Thread nD τ) (st0_0 t) fullShare ((pipeData m 0 c).before 0 t d))
    ∗ (∃ d, owns (c : Thread nD τ) (st0_1 t) fullShare ((pipeData m 0 c).before 1 t d)))

/-- and what it returns. -/
def bodyPost (c : Dev nD) (t : Fin cfg0.N) : sProp 𝕄 :=
  iprop((pipeData m 0 c).Φ t.succ ∗ (pipeData m 0 c).owesAt () t.succ
    ∗ owns (c : Thread nD τ) (st0_0 t) fullShare ((pipeData m 0 c).after 0 t)
    ∗ owns (c : Thread nD τ) (st0_1 t) fullShare ((pipeData m 0 c).after 1 t))

/-- At any point the input's buffer holds the block, so the body's triple applies; the invariant and what the core owes
    pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (pipeData m 0 c).Φ t.succ = (pipeData m 0 c).Φ t.castSucc from rfl,
    show (pipeData m 0 c).owesAt () t.succ = (pipeData m 0 c).owesAt () t.castSucc from rfl,
    after_in, after_out]
  iintro ⟨HΦ, Ho, ⟨%d0, H0⟩, ⟨%d1, H1⟩⟩
  iapply (body_runs c Set.univ (grid0.coords t) _ _ _ _ (edgeBlock m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation on the body, at every point. -/
theorem body_obligation (c : Dev nD) : BodyObligation (pipeData (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates, and in every final state each
    array of the pipeline holds what the point-by-point data give it and every other unscoped buffer what the later
    lines leave there. -/
theorem run_main : θ_run defs (onTc (τ := τ) (main (F := F))) (s₀ m ρ)
    (Pipeline.FramePost cfgs (pipeData m) 0 (Pipeline.afterTail₀ cfgs (pipeData m) 0 (entryVal m) laterLines)) :=
  Pipeline.θ_run_frame_around cfgs (pipeData m) (0 : Fin 1) launch0 defs₀ Variants.none m ρ main
    (hbody := fun c => (body_obligation m c).loose) (hshare := fun c => (pipeData m 0 c).share_full fun _ => rfl)
    (howed := fun _ _ => rfl) (V₀ := entryVal m) (opss := laterLines) (hsub := later_sub) (hfresh := later_fresh) (hkeep := later_keeps)
    (hmain := hmain m Variants.none) (hA := arrays_eq m) (hΦ := fun _ _ => rfl)

/-- An argument array is no array of the pipeline and is unscoped: the run's post speaks of it. -/
theorem arg_in_rest (r : Ref sig .tc) (hr : r ∈ [main_arg0, main_arg1, main_arg2]) : r ∈ Pipeline.restRefs sig (cfgs 0).spec := by
  simp only [List.mem_cons, List.mem_nil_iff, or_false] at hr
  rcases hr with rfl | rfl | rfl <;> exact Pipeline.mem_restRefs_of _ (by decide) (by decide)

/-- The frame: the run ends with the three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (arg_in_rest main_arg0 (by simp))).trans (later_arg m (pipeData m) c main_arg0 (by simp)),
     ((h c).2 main_arg1 (arg_in_rest main_arg1 (by simp))).trans (later_arg m (pipeData m) c main_arg1 (by simp)),
     ((h c).2 main_arg2 (arg_in_rest main_arg2 (by simp))).trans (later_arg m (pipeData m) c main_arg2 (by simp))⟩) (run_main m ρ)

end Cert.KernelIdeal.MaskFrame

end
-- ==== Proof.RefRun.lean ====
/-
  The reference program's run and frame.

  The reference is a host program: @main is a straight line of tensor operations, some of them written through
  module-local functions (@norm, @cumsum, @clip, @cumsum_1, @floor_divide, @remainder, @_where_3, @_where_4 and
  @_where_5 twice), each of which is its body substituted at the call over the call's own buffers. Below the
  operations are listed in the order they run — 127 of them — cut into nineteen consecutive pieces: the prefix up to
  the mask `norm ≤ 1.6`, then one piece per stretch of @main's own statements and one per call. @main equals the
  straight line of their concatenation (`main_eq`), so every weakly fair execution from a memory with zero counters
  terminates with each buffer at the operations' fold over the launch contents (`run`); no operation writes an
  argument buffer (`kept_arg0`, `kept_arg1`, `kept_arg2`), hence the arguments end as they started (`frame`).
  Everything here is about which operation writes which buffer; no operation is evaluated.
-/
import proofs.«114148_j9569187135587_1_alg».proof.ReferenceIdeal
import proofs.«114148_j9569187135587_1_alg».proof.Proof.Gen.ReferenceIdeal
import Idealize.ShloMosaic.Lib.StableHlo.Run
import Idealize.ShloMosaic.Adequacy

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## The operations, piece by piece -/

/-- The call of @norm (the squares, the zero, the row sums, the square root), the threshold 1.6, its broadcast, and the comparison `norm ≤ 1.6`: the mask. -/
abbrev rops_head : List (HloOp τ sig (Elt F)) :=
  [ StableHlo.TRef.binary (.of main_arg0 : StableHlo.TRef sig ⟨S20000000x3, .f32⟩) (.of main_arg0 : StableHlo.TRef sig ⟨S20000000x3, .f32⟩) (.of main_call0_v0 : StableHlo.TRef sig ⟨S20000000x3, .f32⟩) mulf,
    StableHlo.TRef.nullary (.of main_call0_cst : StableHlo.TRef sig ⟨S_, .f32⟩) (constant S_ .f32 0x00000000#32),
    StableHlo.TRef.binary (.of main_call0_v0 : StableHlo.TRef sig ⟨S20000000x3, .f32⟩) (.of main_call0_cst : StableHlo.TRef sig ⟨S_, .f32⟩) (.of main_call0_v1 : StableHlo.TRef sig ⟨S20000000, .f32⟩) (fun x v => Host.reduceAdd x v reducesTo_S20000000x3_S20000000_d1 h_S_),
    StableHlo.TRef.unary (.of main_call0_v1 : StableHlo.TRef sig ⟨S20000000, .f32⟩) (.of main_v0 : StableHlo.TRef sig ⟨S20000000, .f32⟩) Host.sqrt,
    StableHlo.nullary main_cst (constant S_ .f32 0x3FCCCCCD#32),
    StableHlo.unary main_cst main_v1 (broadcastInDim S20000000 ![] bcast_S_S20000000 : (⟨S_, .f32⟩ : BufTy).Contents (Elt F) → (⟨S20000000, .f32⟩ : BufTy).Contents (Elt F)),
    StableHlo.binary main_v0 main_v1 main_v2 (cmpf .ole : (⟨S20000000, .f32⟩ : BufTy).Contents (Elt F) → (⟨S20000000, .f32⟩ : BufTy).Contents (Elt F) → (⟨S20000000, .i1⟩ : BufTy).Contents (Elt F)) ]

/-- The mask as integers, the zero, and their sum: how many rows pass. -/
abbrev rops_0 : List (HloOp τ sig (Elt F)) :=
  [ StableHlo.unary main_v2 main_v3 ((extui 32 · natLt_1_32) : (⟨S20000000, .i1⟩ : BufTy).Contents (Elt F) → (⟨S20000000, .i32⟩ : BufTy).Contents (Elt F)),
    StableHlo.nullary main_c (constantI S_ 32 0#32),
    StableHlo.binary main_v3 main_c main_v4 ((fun x v => Host.reduce IntOp.addi x v reducesTo_S20000000_S_d0 h_S_) : (⟨S20000000, .i32⟩ : BufTy).Contents (Elt F) → (⟨S_, .i32⟩ : BufTy).Contents (Elt F) → (⟨S_, .i32⟩ : BufTy).Contents (Elt F)) ]

/-- The call of @cumsum on the mask: the mask as integers, then @cumsum_0's zero, its rank-zero broadcast and the running sum (a reduce-window over all earlier positions). -/
abbrev rops_1 : List (HloOp τ sig (Elt F)) :=
  [ StableHlo.TRef.unary (.of main_v2 : StableHlo.TRef sig ⟨S20000000, .i1⟩) (.of main_call1_v0 : StableHlo.TRef sig ⟨S20000000, .i32⟩) (extui 32 · natLt_1_32),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_call1_v0 : StableHlo.TRef sig ⟨S20000000, .i32⟩) (.of main_call1_call0_v0 : StableHlo.TRef sig ⟨S_, .i32⟩) (.of main_v5 : StableHlo.TRef sig ⟨S20000000, .i32⟩) (fun x v => Host.reduceWindow IntOp.addi ![20000000] ![1] ![19999999] ![0] x v reduceWindows_S20000000_S20000000_w20000000s1p19999999_0 h_S_) ]

/-- A zero, the all-zero vector and another zero (the lower clip bound). -/
abbrev rops_2 : List (HloOp τ sig (Elt F)) :=
  [ StableHlo.nullary main_c_0 (constantI S_ 32 0#32),
    StableHlo.unary main_c_0 main_v6 (broadcastInDim S20000000 ![] bcast_S_S20000000 : (⟨S_, .i32⟩ : BufTy).Contents (Elt F) → (⟨S20000000, .i32⟩ : BufTy).Contents (Elt F)),
    StableHlo.nullary main_c_1 (constantI S_ 32 0#32) ]

/-- The call of @clip: the bound converted to its own type, broadcast, and the maximum with the running sum. -/
abbrev rops_3 : List (HloOp τ sig (Elt F)) :=
  [ StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S20000000, .i32⟩) (broadcastInDim S20000000 ![] bcast_S_S20000000),
    StableHlo.TRef.binary (.of main_call2_v1 : StableHlo.TRef sig ⟨S20000000, .i32⟩) (.of main_v5 : StableHlo.TRef sig ⟨S20000000, .i32⟩) (.of main_v7 : StableHlo.TRef sig ⟨S20000000, .i32⟩) maxsi ]

/-- The index normalised (negative indices wrapped by the length), made a column, and a vector of ones scattered (added) into the all-zero vector at those indices. -/
abbrev rops_4 : List (HloOp τ sig (Elt F)) :=
  [ StableHlo.nullary main_c_2 (constantI S_ 32 0#32),
    StableHlo.unary main_c_2 main_v8 (broadcastInDim S20000000 ![] bcast_S_S20000000 : (⟨S_, .i32⟩ : BufTy).Contents (Elt F) → (⟨S20000000, .i32⟩ : BufTy).Contents (Elt F)),
    StableHlo.binary main_v7 main_v8 main_v9 (cmpi .slt : (⟨S20000000, .i32⟩ : BufTy).Contents (Elt F) → (⟨S20000000, .i32⟩ : BufTy).Contents (Elt F) → (⟨S20000000, .i1⟩ : BufTy).Contents (Elt F)),
    StableHlo.nullary main_c_3 (constantI S_ 32 20000000#32),
    StableHlo.unary main_c_3 main_v10 (broadcastInDim S20000000 ![] bcast_S_S20000000 : (⟨S_, .i32⟩ : BufTy).Contents (Elt F) → (⟨S20000000, .i32⟩ : BufTy).Contents (Elt F)),
    StableHlo.binary main_v7 main_v10 main_v11 (addi : (⟨S20000000, .i32⟩ : BufTy).Contents (Elt F) → (⟨S20000000, .i32⟩ : BufTy).Contents (Elt F) → (⟨S20000000, .i32⟩ : BufTy).Contents (Elt F)),
    StableHlo.ternary main_v9 main_v11 main_v7 main_v12 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    StableHlo.unary main_v12 main_v13 (broadcastInDim S20000000x1 ![0] bcast_S20000000_S20000000x1_0 : (⟨S20000000, .i32⟩ : BufTy).Contents (Elt F) → (⟨S20000000x1, .i32⟩ : BufTy).Contents (Elt F)),
    StableHlo.nullary main_c_4 (constantI S_ 32 1#32),
    StableHlo.unary main_c_4 main_v14 (broadcastInDim S20000000 ![] bcast_S_S20000000 : (⟨S_, .i32⟩ : BufTy).Contents (Elt F) → (⟨S20000000, .i32⟩ : BufTy).Contents (Elt F)),
    StableHlo.ternary main_v6 main_v13 main_v14 main_v15 ((fun x i u => Host.scatter scatter_S20000000_S20000000x1_S20000000_n_0_0_1 IntOp.addi x i u) : (⟨S20000000, .i32⟩ : BufTy).Contents (Elt F) → (⟨S20000000x1, .i32⟩ : BufTy).Contents (Elt F) → (⟨S20000000, .i32⟩ : BufTy).Contents (Elt F) → (⟨S20000000, .i32⟩ : BufTy).Contents (Elt F)) ]

/-- The call of @cumsum_1 on the scattered counts: @cumsum_0's zero, its broadcast and the running sum. -/
abbrev rops_5 : List (HloOp τ sig (Elt F)) :=
  [ StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_),
    StableHlo.TRef.binary (.of main_v15 : StableHlo.TRef sig ⟨S20000000, .i32⟩) (.of main_call3_call0_v0 : StableHlo.TRef sig ⟨S_, .i32⟩) (.of main_v16 : StableHlo.TRef sig ⟨S20000000, .i32⟩) (fun x v => Host.reduceWindow IntOp.addi ![20000000] ![1] ![19999999] ![0] x v reduceWindows_S20000000_S20000000_w20000000s1p19999999_0 h_S_) ]

/-- The constant one (the divisor). -/
abbrev rops_6 : List (HloOp τ sig (Elt F)) :=
  [ StableHlo.nullary main_c_5 (constantI S_ 32 1#32) ]

/-- The call of @floor_divide by one: quotient, the signs, the remainder, the correction test, the quotient less one, and @_where's select. -/
abbrev rops_7 : List (HloOp τ sig (Elt F)) :=
  [ StableHlo.TRef.unary (.of main_c_5 : StableHlo.TRef sig ⟨S_, .i32⟩) (.of main_call4_v0 : StableHlo.TRef sig ⟨S20000000, .i32⟩) (broadcastInDim S20000000 ![] bcast_S_S20000000),
    StableHlo.TRef.binary (.of main_v16 : StableHlo.TRef sig ⟨S20000000, .i32⟩) (.of main_call4_v0 : StableHlo.TRef sig ⟨S20000000, .i32⟩) (.of main_call4_v1 : StableHlo.TRef sig ⟨S20000000, .i32⟩) Host.divsi,
    StableHlo.TRef.unary (.of main_v16 : StableHlo.TRef sig ⟨S20000000, .i32⟩) (.of main_call4_v2 : StableHlo.TRef sig ⟨S20000000, .i32⟩) signi,
    StableHlo.TRef.unary (.of main_c_5 : StableHlo.TRef sig ⟨S_, .i32⟩) (.of main_call4_v3 : StableHlo.TRef sig ⟨S_, .i32⟩) signi,
    StableHlo.TRef.unary (.of main_call4_v3 : StableHlo.TRef sig ⟨S_, .i32⟩) (.of main_call4_v4 : StableHlo.TRef sig ⟨S20000000, .i32⟩) (broadcastInDim S20000000 ![] bcast_S_S20000000),
    StableHlo.TRef.binary (.of main_call4_v2 : StableHlo.TRef sig ⟨S20000000, .i32⟩) (.of main_call4_v4 : StableHlo.TRef sig ⟨S20000000, .i32⟩) (.of main_call4_v5 : StableHlo.TRef sig ⟨S20000000, .i1⟩) (cmpi .ne),
    StableHlo.TRef.unary (.of main_c_5 : StableHlo.TRef sig ⟨S_, .i32⟩) (.of main_call4_v6 : StableHlo.TRef sig ⟨S20000000, .i32⟩) (broadcastInDim S20000000 ![] bcast_S_S20000000),
    StableHlo.TRef.binary (.of main_v16 : StableHlo.TRef sig ⟨S20000000, .i32⟩) (.of main_call4_v6 : StableHlo.TRef sig ⟨S20000000, .i32⟩) (.of main_call4_v7 : StableHlo.TRef sig ⟨S20000000, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v8 : StableHlo.TRef sig ⟨S20000000, .i32⟩) (broadcastInDim S20000000 ![] bcast_S_S20000000),
    StableHlo.TRef.binary (.of main_call4_v7 : StableHlo.TRef sig ⟨S20000000, .i32⟩) (.of main_call4_v8 : StableHlo.TRef sig ⟨S20000000, .i32⟩) (.of main_call4_v9 : StableHlo.TRef sig ⟨S20000000, .i1⟩) (cmpi .ne),
    StableHlo.TRef.binary (.of main_call4_v5 : StableHlo.TRef sig ⟨S20000000, .i1⟩) (.of main_call4_v9 : StableHlo.TRef sig ⟨S20000000, .i1⟩) (.of main_call4_v10 : StableHlo.TRef sig ⟨S20000000, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v11 : StableHlo.TRef sig ⟨S20000000, .i32⟩) (broadcastInDim S20000000 ![] bcast_S_S20000000),
    StableHlo.TRef.binary (.of main_call4_v1 : StableHlo.TRef sig ⟨S20000000, .i32⟩) (.of main_call4_v11 : StableHlo.TRef sig ⟨S20000000, .i32⟩) (.of main_call4_v12 : StableHlo.TRef sig ⟨S20000000, .i32⟩) subi,
    StableHlo.TRef.ternary (.of main_call4_v10 : StableHlo.TRef sig ⟨S20000000, .i1⟩) (.of main_call4_v12 : StableHlo.TRef sig ⟨S20000000, .i32⟩) (.of main_call4_v1 : StableHlo.TRef sig ⟨S20000000, .i32⟩) (.of main_v17 : StableHlo.TRef sig ⟨S20000000, .i32⟩) select ]

/-- The constant 20000000 (the modulus). -/
abbrev rops_8 : List (HloOp τ sig (Elt F)) :=
  [ StableHlo.nullary main_c_6 (constantI S_ 32 20000000#32) ]

/-- The call of @remainder by 20000000: the zero-divisor guard (@_where_2's select), the remainder, its sign tests against the divisor's, the sum with the divisor, and the select. -/
abbrev rops_9 : List (HloOp τ sig (Elt F)) :=
  [ StableHlo.TRef.unary (.of main_c_6 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S20000000, .i32⟩) (broadcastInDim S20000000 ![] bcast_S_S20000000),
    StableHlo.TRef.binary (.of main_v17 : StableHlo.TRef sig ⟨S20000000, .i32⟩) (.of main_call5_v3 : StableHlo.TRef sig ⟨S20000000, .i32⟩) (.of main_call5_v4 : StableHlo.TRef sig ⟨S20000000, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S20000000, .i32⟩) (broadcastInDim S20000000 ![] bcast_S_S20000000),
    StableHlo.TRef.binary (.of main_call5_v4 : StableHlo.TRef sig ⟨S20000000, .i32⟩) (.of main_call5_v5 : StableHlo.TRef sig ⟨S20000000, .i32⟩) (.of main_call5_v6 : StableHlo.TRef sig ⟨S20000000, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S20000000, .i32⟩) (broadcastInDim S20000000 ![] bcast_S_S20000000),
    StableHlo.TRef.binary (.of main_call5_v4 : StableHlo.TRef sig ⟨S20000000, .i32⟩) (.of main_call5_v7 : StableHlo.TRef sig ⟨S20000000, .i32⟩) (.of main_call5_v8 : StableHlo.TRef sig ⟨S20000000, .i1⟩) (cmpi .slt),
    StableHlo.TRef.nullary (.of main_call5_c_3 : StableHlo.TRef sig ⟨S_, .i32⟩) (constantI S_ 32 0#32),
    StableHlo.TRef.binary (.of main_call5_v2 : StableHlo.TRef sig ⟨S_, .i32⟩) (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S20000000, .i1⟩) (broadcastInDim S20000000 ![] bcast_S_S20000000),
    StableHlo.TRef.binary (.of main_call5_v8 : StableHlo.TRef sig ⟨S20000000, .i1⟩) (.of main_call5_v10 : StableHlo.TRef sig ⟨S20000000, .i1⟩) (.of main_call5_v11 : StableHlo.TRef sig ⟨S20000000, .i1⟩) (cmpi .ne),
    StableHlo.TRef.binary (.of main_call5_v11 : StableHlo.TRef sig ⟨S20000000, .i1⟩) (.of main_call5_v6 : StableHlo.TRef sig ⟨S20000000, .i1⟩) (.of main_call5_v12 : StableHlo.TRef sig ⟨S20000000, .i1⟩) andi,
    StableHlo.TRef.unary (.of main_call5_v2 : StableHlo.TRef sig ⟨S_, .i32⟩) (.of main_call5_v13 : StableHlo.TRef sig ⟨S20000000, .i32⟩) (broadcastInDim S20000000 ![] bcast_S_S20000000),
    StableHlo.TRef.binary (.of main_call5_v4 : StableHlo.TRef sig ⟨S20000000, .i32⟩) (.of main_call5_v13 : StableHlo.TRef sig ⟨S20000000, .i32⟩) (.of main_call5_v14 : StableHlo.TRef sig ⟨S20000000, .i32⟩) addi,
    StableHlo.TRef.ternary (.of main_call5_v12 : StableHlo.TRef sig ⟨S20000000, .i1⟩) (.of main_call5_v14 : StableHlo.TRef sig ⟨S20000000, .i32⟩) (.of main_call5_v4 : StableHlo.TRef sig ⟨S20000000, .i32⟩) (.of main_v18 : StableHlo.TRef sig ⟨S20000000, .i32⟩) select ]

/-- An iota, the mask's count again (as integers, summed from zero), its broadcast, the test `iota ≥ count`, and a zero. -/
abbrev rops_10 : List (HloOp τ sig (Elt F)) :=
  [ StableHlo.nullary main_v19 (iotaInDim S20000000 32 0),
    StableHlo.unary main_v2 main_v20 ((extui 32 · natLt_1_32) : (⟨S20000000, .i1⟩ : BufTy).Contents (Elt F) → (⟨S20000000, .i32⟩ : BufTy).Contents (Elt F)),
    StableHlo.nullary main_c_7 (constantI S_ 32 0#32),
    StableHlo.binary main_v20 main_c_7 main_v21 ((fun x v => Host.reduce IntOp.addi x v reducesTo_S20000000_S_d0 h_S_) : (⟨S20000000, .i32⟩ : BufTy).Contents (Elt F) → (⟨S_, .i32⟩ : BufTy).Contents (Elt F) → (⟨S_, .i32⟩ : BufTy).Contents (Elt F)),
    StableHlo.unary main_v21 main_v22 (broadcastInDim S20000000 ![] bcast_S_S20000000 : (⟨S_, .i32⟩ : BufTy).Contents (Elt F) → (⟨S20000000, .i32⟩ : BufTy).Contents (Elt F)),
    StableHlo.binary main_v19 main_v22 main_v23 (cmpi .sge : (⟨S20000000, .i32⟩ : BufTy).Contents (Elt F) → (⟨S20000000, .i32⟩ : BufTy).Contents (Elt F) → (⟨S20000000, .i1⟩ : BufTy).Contents (Elt F)),
    StableHlo.nullary main_c_8 (constantI S_ 32 0#32) ]

/-- The call of @_where_3: the zero converted, broadcast, and the select between it and the remainders. -/
abbrev rops_11 : List (HloOp τ sig (Elt F)) :=
  [ StableHlo.TRef.unary (.of main_c_8 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S20000000, .i32⟩) (broadcastInDim S20000000 ![] bcast_S_S20000000),
    StableHlo.TRef.ternary (.of main_v23 : StableHlo.TRef sig ⟨S20000000, .i1⟩) (.of main_call6_v1 : StableHlo.TRef sig ⟨S20000000, .i32⟩) (.of main_v18 : StableHlo.TRef sig ⟨S20000000, .i32⟩) (.of main_v24 : StableHlo.TRef sig ⟨S20000000, .i32⟩) select ]

/-- An iota, the count broadcast, the test `iota < count` and its column; the gather index normalised and made a column; the rows of the first argument gathered; the float zero. -/
abbrev rops_12 : List (HloOp τ sig (Elt F)) :=
  [ StableHlo.nullary main_v25 (iotaInDim S20000000 32 0),
    StableHlo.unary main_v4 main_v26 (broadcastInDim S20000000 ![] bcast_S_S20000000 : (⟨S_, .i32⟩ : BufTy).Contents (Elt F) → (⟨S20000000, .i32⟩ : BufTy).Contents (Elt F)),
    StableHlo.binary main_v25 main_v26 main_v27 (cmpi .slt : (⟨S20000000, .i32⟩ : BufTy).Contents (Elt F) → (⟨S20000000, .i32⟩ : BufTy).Contents (Elt F) → (⟨S20000000, .i1⟩ : BufTy).Contents (Elt F)),
    StableHlo.unary main_v27 main_v28 (broadcastInDim S20000000x1 ![0] bcast_S20000000_S20000000x1_0 : (⟨S20000000, .i1⟩ : BufTy).Contents (Elt F) → (⟨S20000000x1, .i1⟩ : BufTy).Contents (Elt F)),
    StableHlo.nullary main_c_9 (constantI S_ 32 0#32),
    StableHlo.unary main_c_9 main_v29 (broadcastInDim S20000000 ![] bcast_S_S20000000 : (⟨S_, .i32⟩ : BufTy).Contents (Elt F) → (⟨S20000000, .i32⟩ : BufTy).Contents (Elt F)),
    StableHlo.binary main_v24 main_v29 main_v30 (cmpi .slt : (⟨S20000000, .i32⟩ : BufTy).Contents (Elt F) → (⟨S20000000, .i32⟩ : BufTy).Contents (Elt F) → (⟨S20000000, .i1⟩ : BufTy).Contents (Elt F)),
    StableHlo.nullary main_c_10 (constantI S_ 32 20000000#32),
    StableHlo.unary main_c_10 main_v31 (broadcastInDim S20000000 ![] bcast_S_S20000000 : (⟨S_, .i32⟩ : BufTy).Contents (Elt F) → (⟨S20000000, .i32⟩ : BufTy).Contents (Elt F)),
    StableHlo.binary main_v24 main_v31 main_v32 (addi : (⟨S20000000, .i32⟩ : BufTy).Contents (Elt F) → (⟨S20000000, .i32⟩ : BufTy).Contents (Elt F) → (⟨S20000000, .i32⟩ : BufTy).Contents (Elt F)),
    StableHlo.ternary main_v30 main_v32 main_v24 main_v33 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    StableHlo.unary main_v33 main_v34 (broadcastInDim S20000000x1 ![0] bcast_S20000000_S20000000x1_0 : (⟨S20000000, .i32⟩ : BufTy).Contents (Elt F) → (⟨S20000000x1, .i32⟩ : BufTy).Contents (Elt F)),
    StableHlo.binary main_arg0 main_v34 main_v35 ((fun x i => Host.gather gather_S20000000x3_S20000000x1_S20000000x3_1_0_n_n_0_1_13 x i) : (⟨S20000000x3, .f32⟩ : BufTy).Contents (Elt F) → (⟨S20000000x1, .i32⟩ : BufTy).Contents (Elt F) → (⟨S20000000x3, .f32⟩ : BufTy).Contents (Elt F)),
    StableHlo.nullary main_cst_11 (constant S_ .f32 0x00000000#32) ]

/-- The call of @_where_4: the zero converted, the column test broadcast across the three columns, the zero broadcast, and the select. -/
abbrev rops_13 : List (HloOp τ sig (Elt F)) :=
  [ StableHlo.TRef.unary (.of main_cst_11 : StableHlo.TRef sig ⟨S_, .f32⟩) (.of main_call7_v0 : StableHlo.TRef sig ⟨S_, .f32⟩) id,
    StableHlo.TRef.unary (.of main_v28 : StableHlo.TRef sig ⟨S20000000x1, .i1⟩) (.of main_call7_v1 : StableHlo.TRef sig ⟨S20000000x3, .i1⟩) (broadcastInDim S20000000x3 ![0, 1] bcast_S20000000x1_S20000000x3_0_1),
    StableHlo.TRef.unary (.of main_call7_v0 : StableHlo.TRef sig ⟨S_, .f32⟩) (.of main_call7_v2 : StableHlo.TRef sig ⟨S20000000x3, .f32⟩) (broadcastInDim S20000000x3 ![] bcast_S_S20000000x3),
    StableHlo.TRef.ternary (.of main_call7_v1 : StableHlo.TRef sig ⟨S20000000x3, .i1⟩) (.of main_v35 : StableHlo.TRef sig ⟨S20000000x3, .f32⟩) (.of main_call7_v2 : StableHlo.TRef sig ⟨S20000000x3, .f32⟩) (.of main_v36 : StableHlo.TRef sig ⟨S20000000x3, .f32⟩) select ]

/-- The gather index normalised and made a column once more, the second argument gathered, and the constant -1. -/
abbrev rops_14 : List (HloOp τ sig (Elt F)) :=
  [ StableHlo.nullary main_c_12 (constantI S_ 32 0#32),
    StableHlo.unary main_c_12 main_v37 (broadcastInDim S20000000 ![] bcast_S_S20000000 : (⟨S_, .i32⟩ : BufTy).Contents (Elt F) → (⟨S20000000, .i32⟩ : BufTy).Contents (Elt F)),
    StableHlo.binary main_v24 main_v37 main_v38 (cmpi .slt : (⟨S20000000, .i32⟩ : BufTy).Contents (Elt F) → (⟨S20000000, .i32⟩ : BufTy).Contents (Elt F) → (⟨S20000000, .i1⟩ : BufTy).Contents (Elt F)),
    StableHlo.nullary main_c_13 (constantI S_ 32 20000000#32),
    StableHlo.unary main_c_13 main_v39 (broadcastInDim S20000000 ![] bcast_S_S20000000 : (⟨S_, .i32⟩ : BufTy).Contents (Elt F) → (⟨S20000000, .i32⟩ : BufTy).Contents (Elt F)),
    StableHlo.binary main_v24 main_v39 main_v40 (addi : (⟨S20000000, .i32⟩ : BufTy).Contents (Elt F) → (⟨S20000000, .i32⟩ : BufTy).Contents (Elt F) → (⟨S20000000, .i32⟩ : BufTy).Contents (Elt F)),
    StableHlo.ternary main_v38 main_v40 main_v24 main_v41 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    StableHlo.unary main_v41 main_v42 (broadcastInDim S20000000x1 ![0] bcast_S20000000_S20000000x1_0 : (⟨S20000000, .i32⟩ : BufTy).Contents (Elt F) → (⟨S20000000x1, .i32⟩ : BufTy).Contents (Elt F)),
    StableHlo.binary main_arg1 main_v42 main_v43 ((fun x i => Host.gather gather_S20000000_S20000000x1_S20000000_n_0_n_n_0_1_1 x i) : (⟨S20000000, .i32⟩ : BufTy).Contents (Elt F) → (⟨S20000000x1, .i32⟩ : BufTy).Contents (Elt F) → (⟨S20000000, .i32⟩ : BufTy).Contents (Elt F)),
    StableHlo.nullary main_c_14 (constantI S_ 32 4294967295#32) ]

/-- The call of @_where_5: the -1 converted, broadcast, and the select under `iota < count`. -/
abbrev rops_15 : List (HloOp τ sig (Elt F)) :=
  [ StableHlo.TRef.unary (.of main_c_14 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S20000000, .i32⟩) (broadcastInDim S20000000 ![] bcast_S_S20000000),
    StableHlo.TRef.ternary (.of main_v27 : StableHlo.TRef sig ⟨S20000000, .i1⟩) (.of main_v43 : StableHlo.TRef sig ⟨S20000000, .i32⟩) (.of main_call8_v1 : StableHlo.TRef sig ⟨S20000000, .i32⟩) (.of main_v44 : StableHlo.TRef sig ⟨S20000000, .i32⟩) select ]

/-- The same for the third argument: the index normalised, made a column, the argument gathered, and the constant -1. -/
abbrev rops_16 : List (HloOp τ sig (Elt F)) :=
  [ StableHlo.nullary main_c_15 (constantI S_ 32 0#32),
    StableHlo.unary main_c_15 main_v45 (broadcastInDim S20000000 ![] bcast_S_S20000000 : (⟨S_, .i32⟩ : BufTy).Contents (Elt F) → (⟨S20000000, .i32⟩ : BufTy).Contents (Elt F)),
    StableHlo.binary main_v24 main_v45 main_v46 (cmpi .slt : (⟨S20000000, .i32⟩ : BufTy).Contents (Elt F) → (⟨S20000000, .i32⟩ : BufTy).Contents (Elt F) → (⟨S20000000, .i1⟩ : BufTy).Contents (Elt F)),
    StableHlo.nullary main_c_16 (constantI S_ 32 20000000#32),
    StableHlo.unary main_c_16 main_v47 (broadcastInDim S20000000 ![] bcast_S_S20000000 : (⟨S_, .i32⟩ : BufTy).Contents (Elt F) → (⟨S20000000, .i32⟩ : BufTy).Contents (Elt F)),
    StableHlo.binary main_v24 main_v47 main_v48 (addi : (⟨S20000000, .i32⟩ : BufTy).Contents (Elt F) → (⟨S20000000, .i32⟩ : BufTy).Contents (Elt F) → (⟨S20000000, .i32⟩ : BufTy).Contents (Elt F)),
    StableHlo.ternary main_v46 main_v48 main_v24 main_v49 (select : (⟨S20000000, .i1⟩ : BufTy).Contents (Elt F) → (⟨S20000000, .i32⟩ : BufTy).Contents (Elt F) → (⟨S20000000, .i32⟩ : BufTy).Contents (Elt F) → (⟨S20000000, .i32⟩ : BufTy).Contents (Elt F)),
    StableHlo.unary main_v49 main_v50 (broadcastInDim S20000000x1 ![0] bcast_S20000000_S20000000x1_0 : (⟨S20000000, .i32⟩ : BufTy).Contents (Elt F) → (⟨S20000000x1, .i32⟩ : BufTy).Contents (Elt F)),
    StableHlo.binary main_arg2 main_v50 main_v51 ((fun x i => Host.gather gather_S20000000_S20000000x1_S20000000_n_0_n_n_0_1_1 x i) : (⟨S20000000, .i32⟩ : BufTy).Contents (Elt F) → (⟨S20000000x1, .i32⟩ : BufTy).Contents (Elt F) → (⟨S20000000, .i32⟩ : BufTy).Contents (Elt F)),
    StableHlo.nullary main_c_17 (constantI S_ 32 4294967295#32) ]

/-- The call of @_where_5 again: the -1 converted, broadcast, and the select under `iota < count`. -/
abbrev rops_17 : List (HloOp τ sig (Elt F)) :=
  [ StableHlo.TRef.unary (.of main_c_17 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S20000000, .i32⟩) (broadcastInDim S20000000 ![] bcast_S_S20000000),
    StableHlo.TRef.ternary (.of main_v27 : StableHlo.TRef sig ⟨S20000000, .i1⟩) (.of main_v51 : StableHlo.TRef sig ⟨S20000000, .i32⟩) (.of main_call9_v1 : StableHlo.TRef sig ⟨S20000000, .i32⟩) (.of main_v52 : StableHlo.TRef sig ⟨S20000000, .i32⟩) select ]

/-- The nineteen pieces in order: their concatenation is @main's operations as they run. -/
abbrev opss : List (List (HloOp τ sig (Elt F))) :=
  [rops_head, rops_0, rops_1, rops_2, rops_3, rops_4, rops_5, rops_6, rops_7, rops_8, rops_9, rops_10, rops_11, rops_12, rops_13, rops_14, rops_15, rops_16, rops_17]

/-! ## @main is the straight line -/

-- 127 binds re-associated: the rewriting under the chain recurses once per statement
set_option maxRecDepth 16384 in
set_option maxHeartbeats 4000000 in
/-- @main is that straight line: the two windows and the functions' definitions unfolded at their calls and the
    records at their fields, both sides are one chain of steps once sequencing is reassociated. -/
theorem main_eq (c : Dev nD) : main (F := F) c = StableHlo.seq (opss (F := F)).flatten := by
  simp only [main, main_part0, main_part1, fn_norm.body, fn_cumsum_0.body, fn_cumsum.body, fn_clip.body, fn_cumsum_1.body, fn_where.body, fn_floor_divide.body, fn_where_2.body, fn_remainder.body, fn_where_3.body, fn_where_4.body, fn_where_5.body, StableHlo.seq, bind_assoc, pure_bind,
    opss, List.flatten_cons, List.flatten_nil, List.append_nil, List.cons_append, List.nil_append]

/-! ## What the operations touch -/

/-- A property of every element of every list of a list of lists holds of every element of their concatenation. -/
theorem forall_flatten {α : Type} {P : α → Prop} {ls : List (List α)} (h : ls.Forall fun l => l.Forall P) :
    ∀ a ∈ ls.flatten, P a := by
  intro a ha
  obtain ⟨l, hl, hal⟩ := List.mem_flatten.mp ha
  exact (List.forall_iff_forall_mem.mp ((List.forall_iff_forall_mem.mp h) l hl)) a hal

/-- The operation writes none of the three argument buffers. -/
def Keeps (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes

/-- An operation whose one written buffer is none of the arguments writes no argument buffer: distinct references are
    distinct device buffers. -/
theorem keeps_of {op : HloOp τ sig (Elt F)} {y : Ref sig .tc} (hw : op.writes = {Proc.devRef .tc y})
    (hy : y ∉ [main_arg0, main_arg1, main_arg2]) : Keeps op := by
  have hne : ∀ r ∈ [main_arg0, main_arg1, main_arg2], Proc.devRef (τ := τ) .tc r ∉ op.writes := fun r hr hm => by
    rw [hw, Finset.mem_singleton] at hm
    exact hy (Proc.devRef_injective _ hm ▸ hr)
  exact ⟨hne _ (by simp), hne _ (by simp), hne _ (by simp)⟩

theorem rops_head_sub : (rops_head : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub ..,
    StableHlo.nullary_bufs_sub .., StableHlo.unary_bufs_sub .., StableHlo.binary_bufs_sub ..⟩
theorem rops_head_fresh : (rops_head : List (HloOp τ sig (Elt F))).Forall fun op => op.fresh = ∅ :=
  ⟨rfl, rfl, rfl, rfl, rfl, rfl, rfl⟩
theorem rops_head_keeps : (rops_head : List (HloOp τ sig (Elt F))).Forall Keeps :=
  ⟨keeps_of (StableHlo.binary_writes ..) (by decide),
    keeps_of (StableHlo.nullary_writes ..) (by decide),
    keeps_of (StableHlo.binary_writes ..) (by decide),
    keeps_of (StableHlo.unary_writes ..) (by decide),
    keeps_of (StableHlo.nullary_writes ..) (by decide),
    keeps_of (StableHlo.unary_writes ..) (by decide),
    keeps_of (StableHlo.binary_writes ..) (by decide)⟩

theorem rops_0_sub : (rops_0 : List (HloOp τ sig (Elt F))).Forall fun op => op.bufs ⊆ StableHlo.tcRefs τ sig :=
  ⟨StableHlo.unary_bufs_sub .., StableHlo.nullary_bufs_sub .., StableHlo.binary_bufs_sub ..⟩
theorem rops_0_fresh : (rops_0 : List (HloOp τ sig (Elt F))).Forall fun op => op.fresh = ∅ :=
  ⟨rfl, rfl, rfl⟩
theorem rops_0_keeps : (rops_0 : List (HloOp τ sig (Elt F))).Forall Keeps :=
  ⟨keeps_of (StableHlo.unary_writes ..) (by decide),
    keeps_of (StableHlo.nullary_writes ..) (by decide),
    keeps_of (StableHlo.binary_writes ..) (by decide)⟩

theorem rops_1_sub : (rops_1 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub ..⟩
theorem rops_1_fresh : (rops_1 : List (HloOp τ sig (Elt F))).Forall fun op => op.fresh = ∅ :=
  ⟨rfl, rfl, rfl, rfl⟩
theorem rops_1_keeps : (rops_1 : List (HloOp τ sig (Elt F))).Forall Keeps :=
  ⟨keeps_of (StableHlo.unary_writes ..) (by decide),
    keeps_of (StableHlo.nullary_writes ..) (by decide),
    keeps_of (StableHlo.unary_writes ..) (by decide),
    keeps_of (StableHlo.binary_writes ..) (by decide)⟩

theorem rops_2_sub : (rops_2 : List (HloOp τ sig (Elt F))).Forall fun op => op.bufs ⊆ StableHlo.tcRefs τ sig :=
  ⟨StableHlo.nullary_bufs_sub .., StableHlo.unary_bufs_sub .., StableHlo.nullary_bufs_sub ..⟩
theorem rops_2_fresh : (rops_2 : List (HloOp τ sig (Elt F))).Forall fun op => op.fresh = ∅ :=
  ⟨rfl, rfl, rfl⟩
theorem rops_2_keeps : (rops_2 : List (HloOp τ sig (Elt F))).Forall Keeps :=
  ⟨keeps_of (StableHlo.nullary_writes ..) (by decide),
    keeps_of (StableHlo.unary_writes ..) (by decide),
    keeps_of (StableHlo.nullary_writes ..) (by decide)⟩

theorem rops_3_sub : (rops_3 : List (HloOp τ sig (Elt F))).Forall fun op => op.bufs ⊆ StableHlo.tcRefs τ sig :=
  ⟨StableHlo.unary_bufs_sub .., StableHlo.unary_bufs_sub .., StableHlo.binary_bufs_sub ..⟩
theorem rops_3_fresh : (rops_3 : List (HloOp τ sig (Elt F))).Forall fun op => op.fresh = ∅ :=
  ⟨rfl, rfl, rfl⟩
theorem rops_3_keeps : (rops_3 : List (HloOp τ sig (Elt F))).Forall Keeps :=
  ⟨keeps_of (StableHlo.unary_writes ..) (by decide),
    keeps_of (StableHlo.unary_writes ..) (by decide),
    keeps_of (StableHlo.binary_writes ..) (by decide)⟩

theorem rops_4_sub : (rops_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.nullary_bufs_sub .., StableHlo.unary_bufs_sub .., StableHlo.ternary_bufs_sub ..⟩
theorem rops_4_fresh : (rops_4 : List (HloOp τ sig (Elt F))).Forall fun op => op.fresh = ∅ :=
  ⟨rfl, rfl, rfl, rfl, rfl, rfl, rfl, rfl, rfl, rfl, rfl⟩
theorem rops_4_keeps : (rops_4 : List (HloOp τ sig (Elt F))).Forall Keeps :=
  ⟨keeps_of (StableHlo.nullary_writes ..) (by decide),
    keeps_of (StableHlo.unary_writes ..) (by decide),
    keeps_of (StableHlo.binary_writes ..) (by decide),
    keeps_of (StableHlo.nullary_writes ..) (by decide),
    keeps_of (StableHlo.unary_writes ..) (by decide),
    keeps_of (StableHlo.binary_writes ..) (by decide),
    keeps_of (StableHlo.ternary_writes ..) (by decide),
    keeps_of (StableHlo.unary_writes ..) (by decide),
    keeps_of (StableHlo.nullary_writes ..) (by decide),
    keeps_of (StableHlo.unary_writes ..) (by decide),
    keeps_of (StableHlo.ternary_writes ..) (by decide)⟩

theorem rops_5_sub : (rops_5 : List (HloOp τ sig (Elt F))).Forall fun op => op.bufs ⊆ StableHlo.tcRefs τ sig :=
  ⟨StableHlo.nullary_bufs_sub .., StableHlo.unary_bufs_sub .., StableHlo.binary_bufs_sub ..⟩
theorem rops_5_fresh : (rops_5 : List (HloOp τ sig (Elt F))).Forall fun op => op.fresh = ∅ :=
  ⟨rfl, rfl, rfl⟩
theorem rops_5_keeps : (rops_5 : List (HloOp τ sig (Elt F))).Forall Keeps :=
  ⟨keeps_of (StableHlo.nullary_writes ..) (by decide),
    keeps_of (StableHlo.unary_writes ..) (by decide),
    keeps_of (StableHlo.binary_writes ..) (by decide)⟩

theorem rops_6_sub : (rops_6 : List (HloOp τ sig (Elt F))).Forall fun op => op.bufs ⊆ StableHlo.tcRefs τ sig :=
  StableHlo.nullary_bufs_sub ..
theorem rops_6_fresh : (rops_6 : List (HloOp τ sig (Elt F))).Forall fun op => op.fresh = ∅ :=
  rfl
theorem rops_6_keeps : (rops_6 : List (HloOp τ sig (Elt F))).Forall Keeps :=
  keeps_of (StableHlo.nullary_writes ..) (by decide)

theorem rops_7_sub : (rops_7 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.binary_bufs_sub ..,
    StableHlo.nullary_bufs_sub .., StableHlo.unary_bufs_sub .., StableHlo.binary_bufs_sub .., StableHlo.binary_bufs_sub ..,
    StableHlo.nullary_bufs_sub .., StableHlo.unary_bufs_sub .., StableHlo.binary_bufs_sub .., StableHlo.ternary_bufs_sub ..⟩
theorem rops_7_fresh : (rops_7 : List (HloOp τ sig (Elt F))).Forall fun op => op.fresh = ∅ :=
  ⟨rfl, rfl, rfl, rfl, rfl, rfl, rfl, rfl, rfl, rfl, rfl, rfl, rfl, rfl, rfl, rfl⟩
theorem rops_7_keeps : (rops_7 : List (HloOp τ sig (Elt F))).Forall Keeps :=
  ⟨keeps_of (StableHlo.unary_writes ..) (by decide),
    keeps_of (StableHlo.binary_writes ..) (by decide),
    keeps_of (StableHlo.unary_writes ..) (by decide),
    keeps_of (StableHlo.unary_writes ..) (by decide),
    keeps_of (StableHlo.unary_writes ..) (by decide),
    keeps_of (StableHlo.binary_writes ..) (by decide),
    keeps_of (StableHlo.unary_writes ..) (by decide),
    keeps_of (StableHlo.binary_writes ..) (by decide),
    keeps_of (StableHlo.nullary_writes ..) (by decide),
    keeps_of (StableHlo.unary_writes ..) (by decide),
    keeps_of (StableHlo.binary_writes ..) (by decide),
    keeps_of (StableHlo.binary_writes ..) (by decide),
    keeps_of (StableHlo.nullary_writes ..) (by decide),
    keeps_of (StableHlo.unary_writes ..) (by decide),
    keeps_of (StableHlo.binary_writes ..) (by decide),
    keeps_of (StableHlo.ternary_writes ..) (by decide)⟩

theorem rops_8_sub : (rops_8 : List (HloOp τ sig (Elt F))).Forall fun op => op.bufs ⊆ StableHlo.tcRefs τ sig :=
  StableHlo.nullary_bufs_sub ..
theorem rops_8_fresh : (rops_8 : List (HloOp τ sig (Elt F))).Forall fun op => op.fresh = ∅ :=
  rfl
theorem rops_8_keeps : (rops_8 : List (HloOp τ sig (Elt F))).Forall Keeps :=
  keeps_of (StableHlo.nullary_writes ..) (by decide)

theorem rops_9_sub : (rops_9 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub ..,
    StableHlo.ternary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.binary_bufs_sub .., StableHlo.unary_bufs_sub ..,
    StableHlo.binary_bufs_sub .., StableHlo.binary_bufs_sub .., StableHlo.unary_bufs_sub .., StableHlo.binary_bufs_sub ..,
    StableHlo.ternary_bufs_sub ..⟩
theorem rops_9_fresh : (rops_9 : List (HloOp τ sig (Elt F))).Forall fun op => op.fresh = ∅ :=
  ⟨rfl, rfl, rfl, rfl, rfl, rfl, rfl, rfl, rfl, rfl, rfl, rfl, rfl, rfl, rfl, rfl,
    rfl, rfl, rfl, rfl, rfl⟩
theorem rops_9_keeps : (rops_9 : List (HloOp τ sig (Elt F))).Forall Keeps :=
  ⟨keeps_of (StableHlo.unary_writes ..) (by decide),
    keeps_of (StableHlo.nullary_writes ..) (by decide),
    keeps_of (StableHlo.binary_writes ..) (by decide),
    keeps_of (StableHlo.nullary_writes ..) (by decide),
    keeps_of (StableHlo.ternary_writes ..) (by decide),
    keeps_of (StableHlo.unary_writes ..) (by decide),
    keeps_of (StableHlo.binary_writes ..) (by decide),
    keeps_of (StableHlo.nullary_writes ..) (by decide),
    keeps_of (StableHlo.unary_writes ..) (by decide),
    keeps_of (StableHlo.binary_writes ..) (by decide),
    keeps_of (StableHlo.nullary_writes ..) (by decide),
    keeps_of (StableHlo.unary_writes ..) (by decide),
    keeps_of (StableHlo.binary_writes ..) (by decide),
    keeps_of (StableHlo.nullary_writes ..) (by decide),
    keeps_of (StableHlo.binary_writes ..) (by decide),
    keeps_of (StableHlo.unary_writes ..) (by decide),
    keeps_of (StableHlo.binary_writes ..) (by decide),
    keeps_of (StableHlo.binary_writes ..) (by decide),
    keeps_of (StableHlo.unary_writes ..) (by decide),
    keeps_of (StableHlo.binary_writes ..) (by decide),
    keeps_of (StableHlo.ternary_writes ..) (by decide)⟩

theorem rops_10_sub : (rops_10 : List (HloOp τ sig (Elt F))).Forall fun op => op.bufs ⊆ StableHlo.tcRefs τ sig :=
  ⟨StableHlo.nullary_bufs_sub .., StableHlo.unary_bufs_sub .., StableHlo.nullary_bufs_sub .., StableHlo.binary_bufs_sub ..,
    StableHlo.unary_bufs_sub .., StableHlo.binary_bufs_sub .., StableHlo.nullary_bufs_sub ..⟩
theorem rops_10_fresh : (rops_10 : List (HloOp τ sig (Elt F))).Forall fun op => op.fresh = ∅ :=
  ⟨rfl, rfl, rfl, rfl, rfl, rfl, rfl⟩
theorem rops_10_keeps : (rops_10 : List (HloOp τ sig (Elt F))).Forall Keeps :=
  ⟨keeps_of (StableHlo.nullary_writes ..) (by decide),
    keeps_of (StableHlo.unary_writes ..) (by decide),
    keeps_of (StableHlo.nullary_writes ..) (by decide),
    keeps_of (StableHlo.binary_writes ..) (by decide),
    keeps_of (StableHlo.unary_writes ..) (by decide),
    keeps_of (StableHlo.binary_writes ..) (by decide),
    keeps_of (StableHlo.nullary_writes ..) (by decide)⟩

theorem rops_11_sub : (rops_11 : List (HloOp τ sig (Elt F))).Forall fun op => op.bufs ⊆ StableHlo.tcRefs τ sig :=
  ⟨StableHlo.unary_bufs_sub .., StableHlo.unary_bufs_sub .., StableHlo.ternary_bufs_sub ..⟩
theorem rops_11_fresh : (rops_11 : List (HloOp τ sig (Elt F))).Forall fun op => op.fresh = ∅ :=
  ⟨rfl, rfl, rfl⟩
theorem rops_11_keeps : (rops_11 : List (HloOp τ sig (Elt F))).Forall Keeps :=
  ⟨keeps_of (StableHlo.unary_writes ..) (by decide),
    keeps_of (StableHlo.unary_writes ..) (by decide),
    keeps_of (StableHlo.ternary_writes ..) (by decide)⟩

theorem rops_12_sub : (rops_12 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub .., StableHlo.nullary_bufs_sub ..⟩
theorem rops_12_fresh : (rops_12 : List (HloOp τ sig (Elt F))).Forall fun op => op.fresh = ∅ :=
  ⟨rfl, rfl, rfl, rfl, rfl, rfl, rfl, rfl, rfl, rfl, rfl, rfl, rfl, rfl⟩
theorem rops_12_keeps : (rops_12 : List (HloOp τ sig (Elt F))).Forall Keeps :=
  ⟨keeps_of (StableHlo.nullary_writes ..) (by decide),
    keeps_of (StableHlo.unary_writes ..) (by decide),
    keeps_of (StableHlo.binary_writes ..) (by decide),
    keeps_of (StableHlo.unary_writes ..) (by decide),
    keeps_of (StableHlo.nullary_writes ..) (by decide),
    keeps_of (StableHlo.unary_writes ..) (by decide),
    keeps_of (StableHlo.binary_writes ..) (by decide),
    keeps_of (StableHlo.nullary_writes ..) (by decide),
    keeps_of (StableHlo.unary_writes ..) (by decide),
    keeps_of (StableHlo.binary_writes ..) (by decide),
    keeps_of (StableHlo.ternary_writes ..) (by decide),
    keeps_of (StableHlo.unary_writes ..) (by decide),
    keeps_of (StableHlo.binary_writes ..) (by decide),
    keeps_of (StableHlo.nullary_writes ..) (by decide)⟩

theorem rops_13_sub : (rops_13 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem rops_13_fresh : (rops_13 : List (HloOp τ sig (Elt F))).Forall fun op => op.fresh = ∅ :=
  ⟨rfl, rfl, rfl, rfl⟩
theorem rops_13_keeps : (rops_13 : List (HloOp τ sig (Elt F))).Forall Keeps :=
  ⟨keeps_of (StableHlo.unary_writes ..) (by decide),
    keeps_of (StableHlo.unary_writes ..) (by decide),
    keeps_of (StableHlo.unary_writes ..) (by decide),
    keeps_of (StableHlo.ternary_writes ..) (by decide)⟩

theorem rops_14_sub : (rops_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub .., StableHlo.nullary_bufs_sub ..⟩
theorem rops_14_fresh : (rops_14 : List (HloOp τ sig (Elt F))).Forall fun op => op.fresh = ∅ :=
  ⟨rfl, rfl, rfl, rfl, rfl, rfl, rfl, rfl, rfl, rfl⟩
theorem rops_14_keeps : (rops_14 : List (HloOp τ sig (Elt F))).Forall Keeps :=
  ⟨keeps_of (StableHlo.nullary_writes ..) (by decide),
    keeps_of (StableHlo.unary_writes ..) (by decide),
    keeps_of (StableHlo.binary_writes ..) (by decide),
    keeps_of (StableHlo.nullary_writes ..) (by decide),
    keeps_of (StableHlo.unary_writes ..) (by decide),
    keeps_of (StableHlo.binary_writes ..) (by decide),
    keeps_of (StableHlo.ternary_writes ..) (by decide),
    keeps_of (StableHlo.unary_writes ..) (by decide),
    keeps_of (StableHlo.binary_writes ..) (by decide),
    keeps_of (StableHlo.nullary_writes ..) (by decide)⟩

theorem rops_15_sub : (rops_15 : List (HloOp τ sig (Elt F))).Forall fun op => op.bufs ⊆ StableHlo.tcRefs τ sig :=
  ⟨StableHlo.unary_bufs_sub .., StableHlo.unary_bufs_sub .., StableHlo.ternary_bufs_sub ..⟩
theorem rops_15_fresh : (rops_15 : List (HloOp τ sig (Elt F))).Forall fun op => op.fresh = ∅ :=
  ⟨rfl, rfl, rfl⟩
theorem rops_15_keeps : (rops_15 : List (HloOp τ sig (Elt F))).Forall Keeps :=
  ⟨keeps_of (StableHlo.unary_writes ..) (by decide),
    keeps_of (StableHlo.unary_writes ..) (by decide),
    keeps_of (StableHlo.ternary_writes ..) (by decide)⟩

theorem rops_16_sub : (rops_16 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub .., StableHlo.nullary_bufs_sub ..⟩
theorem rops_16_fresh : (rops_16 : List (HloOp τ sig (Elt F))).Forall fun op => op.fresh = ∅ :=
  ⟨rfl, rfl, rfl, rfl, rfl, rfl, rfl, rfl, rfl, rfl⟩
theorem rops_16_keeps : (rops_16 : List (HloOp τ sig (Elt F))).Forall Keeps :=
  ⟨keeps_of (StableHlo.nullary_writes ..) (by decide),
    keeps_of (StableHlo.unary_writes ..) (by decide),
    keeps_of (StableHlo.binary_writes ..) (by decide),
    keeps_of (StableHlo.nullary_writes ..) (by decide),
    keeps_of (StableHlo.unary_writes ..) (by decide),
    keeps_of (StableHlo.binary_writes ..) (by decide),
    keeps_of (StableHlo.ternary_writes ..) (by decide),
    keeps_of (StableHlo.unary_writes ..) (by decide),
    keeps_of (StableHlo.binary_writes ..) (by decide),
    keeps_of (StableHlo.nullary_writes ..) (by decide)⟩

theorem rops_17_sub : (rops_17 : List (HloOp τ sig (Elt F))).Forall fun op => op.bufs ⊆ StableHlo.tcRefs τ sig :=
  ⟨StableHlo.unary_bufs_sub .., StableHlo.unary_bufs_sub .., StableHlo.ternary_bufs_sub ..⟩
theorem rops_17_fresh : (rops_17 : List (HloOp τ sig (Elt F))).Forall fun op => op.fresh = ∅ :=
  ⟨rfl, rfl, rfl⟩
theorem rops_17_keeps : (rops_17 : List (HloOp τ sig (Elt F))).Forall Keeps :=
  ⟨keeps_of (StableHlo.unary_writes ..) (by decide),
    keeps_of (StableHlo.unary_writes ..) (by decide),
    keeps_of (StableHlo.ternary_writes ..) (by decide)⟩

/-! ## The run -/

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : ((opss (F := F)).flatten).Forall fun op => op.bufs ⊆ StableHlo.tcRefs τ sig :=
  List.forall_iff_forall_mem.mpr (forall_flatten (ls := opss (F := F))
    ⟨rops_head_sub, rops_0_sub, rops_1_sub, rops_2_sub, rops_3_sub, rops_4_sub, rops_5_sub, rops_6_sub, rops_7_sub, rops_8_sub, rops_9_sub, rops_10_sub, rops_11_sub, rops_12_sub, rops_13_sub, rops_14_sub, rops_15_sub, rops_16_sub, rops_17_sub⟩)

/-- Every operation determines its results. -/
theorem ops_fresh : ∀ op ∈ (opss (F := F)).flatten, op.fresh = ∅ :=
  forall_flatten (ls := opss (F := F))
    ⟨rops_head_fresh, rops_0_fresh, rops_1_fresh, rops_2_fresh, rops_3_fresh, rops_4_fresh, rops_5_fresh, rops_6_fresh, rops_7_fresh, rops_8_fresh, rops_9_fresh, rops_10_fresh, rops_11_fresh, rops_12_fresh, rops_13_fresh, rops_14_fresh, rops_15_fresh, rops_16_fresh, rops_17_fresh⟩

/-- No operation writes an argument buffer. -/
theorem ops_keeps : ∀ op ∈ (opss (F := F)).flatten, Keeps op :=
  forall_flatten (ls := opss (F := F))
    ⟨rops_head_keeps, rops_0_keeps, rops_1_keeps, rops_2_keeps, rops_3_keeps, rops_4_keeps, rops_5_keeps, rops_6_keeps, rops_7_keeps, rops_8_keeps, rops_9_keeps, rops_10_keeps, rops_11_keeps, rops_12_keeps, rops_13_keeps, rops_14_keeps, rops_15_keeps, rops_16_keeps, rops_17_keeps⟩

/-- At the compiled mesh, for any float values, from any memory with zero counters: every weakly fair execution of
    @main on the TensorCores terminates, and every final state has each TensorCore buffer at the operations' fold
    over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after (opss (F := F)).flatten (StableHlo.launchContents m c) (Proc.devRef .tc b) :=
  StableHlo.run_seq scopedRefs_eq scopedSems_eq defs main (fun _ => (opss (F := F)).flatten) main_eq (fun _ => ops_sub) m ρ
    (fun _ => ops_fresh)

/-- The fold leaves the first argument's buffer as it was: no operation writes it. -/
theorem kept_arg0 (V : Valuation τ sig (Elt F)) : StableHlo.after (opss (F := F)).flatten V (Proc.devRef .tc main_arg0) = V (Proc.devRef .tc main_arg0) :=
  StableHlo.after_of_forall_not_mem _ V fun op hop => (ops_keeps op hop).1
/-- The same for the second argument. -/
theorem kept_arg1 (V : Valuation τ sig (Elt F)) : StableHlo.after (opss (F := F)).flatten V (Proc.devRef .tc main_arg1) = V (Proc.devRef .tc main_arg1) :=
  StableHlo.after_of_forall_not_mem _ V fun op hop => (ops_keeps op hop).2.1
/-- The same for the third argument. -/
theorem kept_arg2 (V : Valuation τ sig (Elt F)) : StableHlo.after (opss (F := F)).flatten V (Proc.devRef .tc main_arg2) = V (Proc.devRef .tc main_arg2) :=
  StableHlo.after_of_forall_not_mem _ V fun op hop => (ops_keeps op hop).2.2

/-- The frame: every weakly fair execution of @main terminates with the three argument buffers as they were at
    launch (each ends at the fold over the launch contents, and the fold keeps them). -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_arg0).trans (kept_arg0 _), (h c main_arg1).trans (kept_arg1 _),
      (h c main_arg2).trans (kept_arg2 _)⟩)
    (run m ρ)

end Cert.ReferenceIdeal.RefRun

end
-- ==== Proof.Tails.lean ====
/-
  The two idealized programs' host tails agree.

  After its region the kernel program runs a straight line of host operations; the reference program is such a line
  throughout. Past the point where each has made its 1-bit mask (the kernel's by comparing its region's result with
  zero, the reference's by comparing the row norms with 1.6) the two lines are the same operations, over buffers
  numbered differently: the count of the mask, its running sum, the scatter of ones and the second running sum, the
  floor division and the remainder that turn it into compaction indices, and the three gathers under
  `iota < count`. Here: if the masks hold the same contents and the three arguments do, then the three outputs and
  the count do. The proof walks the lines in eighteen stages, the pieces the lines are already cut into; at each cut
  it keeps the equations between the buffers that are still read later (at most eight), and within a stage each side's
  buffer is its operations' pure term over the stage's inputs, the two terms the same tree. No operation is
  evaluated: the reductions, the gathers and the scatter stay folded.
-/
import proofs.«114148_j9569187135587_1_alg».proof.Proof.RefRun
import proofs.«114148_j9569187135587_1_alg».proof.Proof.Gen.KernelIdeal.Launch
import Idealize.ShloMosaic.Lib.StableHlo.Run
import Idealize.ShloMosaic.Lib.Pipeline.Frame

noncomputable section

namespace Cert.Tails

open Idealize.ShloMosaic Idealize.ShloMosaic.TcCoe Idealize.SL.Sem

variable {F : FTy → Type} [FloatOps F]

/-- The kernel program's host operations after its region, line by line as its launch module lists them. -/
abbrev kLines : List (List (HloOp Cert.KernelIdeal.τ Cert.KernelIdeal.sig (Elt F))) :=
  [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17]

/-- The kernel program's first four host operations after its region: the kernel's 1×N result reshaped to a
    vector, the zero, its broadcast, and the comparison `≠ 0` — the kernel's mask. -/
abbrev kHead : List (HloOp Cert.KernelIdeal.τ Cert.KernelIdeal.sig (Elt F)) :=
  [ StableHlo.reshape Cert.KernelIdeal.main_v1 Cert.KernelIdeal.main_v2 rfl Cert.KernelIdeal.Gen.shapeCasts_S1x20000000_S20000000,
    StableHlo.nullary Cert.KernelIdeal.main_c (constantI Cert.KernelIdeal.S_ 32 0#32),
    StableHlo.unary Cert.KernelIdeal.main_c Cert.KernelIdeal.main_v3 (broadcastInDim Cert.KernelIdeal.S20000000 ![] Cert.KernelIdeal.Gen.bcast_S_S20000000 : (⟨Cert.KernelIdeal.S_, .i32⟩ : BufTy).Contents (Elt F) → (⟨Cert.KernelIdeal.S20000000, .i32⟩ : BufTy).Contents (Elt F)),
    StableHlo.binary Cert.KernelIdeal.main_v2 Cert.KernelIdeal.main_v3 Cert.KernelIdeal.main_v4 (cmpi .ne : (⟨Cert.KernelIdeal.S20000000, .i32⟩ : BufTy).Contents (Elt F) → (⟨Cert.KernelIdeal.S20000000, .i32⟩ : BufTy).Contents (Elt F) → (⟨Cert.KernelIdeal.S20000000, .i1⟩ : BufTy).Contents (Elt F)) ]

/-- The kernel program's three operations after its mask: the mask as integers, the zero, and their sum. -/
abbrev kRest : List (HloOp Cert.KernelIdeal.τ Cert.KernelIdeal.sig (Elt F)) :=
  [ StableHlo.unary Cert.KernelIdeal.main_v4 Cert.KernelIdeal.main_v5 ((extui 32 · Cert.KernelIdeal.Gen.natLt_1_32) : (⟨Cert.KernelIdeal.S20000000, .i1⟩ : BufTy).Contents (Elt F) → (⟨Cert.KernelIdeal.S20000000, .i32⟩ : BufTy).Contents (Elt F)),
    StableHlo.nullary Cert.KernelIdeal.main_c_0 (constantI Cert.KernelIdeal.S_ 32 0#32),
    StableHlo.binary Cert.KernelIdeal.main_v5 Cert.KernelIdeal.main_c_0 Cert.KernelIdeal.main_v6 ((fun x v => Host.reduce IntOp.addi x v Cert.KernelIdeal.Gen.reducesTo_S20000000_S_d0 Cert.KernelIdeal.Gen.h_S_) : (⟨Cert.KernelIdeal.S20000000, .i32⟩ : BufTy).Contents (Elt F) → (⟨Cert.KernelIdeal.S_, .i32⟩ : BufTy).Contents (Elt F) → (⟨Cert.KernelIdeal.S_, .i32⟩ : BufTy).Contents (Elt F)) ]

/-! ## Stage by stage

Each stage: for ANY two valuations that agree on the buffers the rest of the lines still read, the valuations after
the stage's operations agree on the buffers read after it. -/

-- the reductions, gathers and scatter over the 20,000,000-element arrays are compared as applications, never opened
attribute [local irreducible] Host.reduce Host.reduceWindow Host.gather Host.scatter Host.divsi Host.remsi

/-- Past the two masks: the masks agree by hypothesis, and neither prefix writes an argument buffer, so the
    arguments still agree. -/
theorem stage_head (Wk : Valuation Cert.KernelIdeal.τ Cert.KernelIdeal.sig (Elt F)) (Wr : Valuation Cert.ReferenceIdeal.τ Cert.ReferenceIdeal.sig (Elt F))
      (hmask : (StableHlo.after kHead Wk (Proc.devRef .tc Cert.KernelIdeal.main_v4) : IVec Cert.KernelIdeal.S20000000 1) = StableHlo.after Cert.ReferenceIdeal.RefRun.rops_head Wr (Proc.devRef .tc Cert.ReferenceIdeal.main_v2))
      (h0 : (Wk (Proc.devRef .tc Cert.KernelIdeal.main_arg0) : FVec F Cert.KernelIdeal.S20000000x3 .f32) = Wr (Proc.devRef .tc Cert.ReferenceIdeal.main_arg0))
      (h1 : (Wk (Proc.devRef .tc Cert.KernelIdeal.main_arg1) : IVec Cert.KernelIdeal.S20000000 32) = Wr (Proc.devRef .tc Cert.ReferenceIdeal.main_arg1))
      (h2 : (Wk (Proc.devRef .tc Cert.KernelIdeal.main_arg2) : IVec Cert.KernelIdeal.S20000000 32) = Wr (Proc.devRef .tc Cert.ReferenceIdeal.main_arg2)) :
    ((StableHlo.after kHead Wk (Proc.devRef .tc Cert.KernelIdeal.main_arg2) : (⟨Cert.KernelIdeal.S20000000, .i32⟩ : BufTy).Contents (Elt F)) = StableHlo.after Cert.ReferenceIdeal.RefRun.rops_head Wr (Proc.devRef .tc Cert.ReferenceIdeal.main_arg2))
      ∧ ((StableHlo.after kHead Wk (Proc.devRef .tc Cert.KernelIdeal.main_arg1) : (⟨Cert.KernelIdeal.S20000000, .i32⟩ : BufTy).Contents (Elt F)) = StableHlo.after Cert.ReferenceIdeal.RefRun.rops_head Wr (Proc.devRef .tc Cert.ReferenceIdeal.main_arg1))
      ∧ ((StableHlo.after kHead Wk (Proc.devRef .tc Cert.KernelIdeal.main_arg0) : (⟨Cert.KernelIdeal.S20000000x3, .f32⟩ : BufTy).Contents (Elt F)) = StableHlo.after Cert.ReferenceIdeal.RefRun.rops_head Wr (Proc.devRef .tc Cert.ReferenceIdeal.main_arg0))
      ∧ ((StableHlo.after kHead Wk (Proc.devRef .tc Cert.KernelIdeal.main_v4) : (⟨Cert.KernelIdeal.S20000000, .i1⟩ : BufTy).Contents (Elt F)) = StableHlo.after Cert.ReferenceIdeal.RefRun.rops_head Wr (Proc.devRef .tc Cert.ReferenceIdeal.main_v2)) := by
  refine ⟨?_, ?_, ?_, ?_⟩
  · after_results_simp
    exact h2
  · after_results_simp
    exact h1
  · after_results_simp
    exact h0
  · exact hmask

/-- The count: the mask as integers summed from zero. Both sides compute it from their mask alike. -/
theorem stage_0 (Vk : Valuation Cert.KernelIdeal.τ Cert.KernelIdeal.sig (Elt F)) (Vr : Valuation Cert.ReferenceIdeal.τ Cert.ReferenceIdeal.sig (Elt F))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2)) :
    ((StableHlo.after kRest Vk (Proc.devRef .tc Cert.KernelIdeal.main_v6) : (⟨Cert.KernelIdeal.S_, .i32⟩ : BufTy).Contents (Elt F)) = StableHlo.after Cert.ReferenceIdeal.RefRun.rops_0 Vr (Proc.devRef .tc Cert.ReferenceIdeal.main_v4))
      ∧ ((StableHlo.after kRest Vk (Proc.devRef .tc Cert.KernelIdeal.main_arg2) : (⟨Cert.KernelIdeal.S20000000, .i32⟩ : BufTy).Contents (Elt F)) = StableHlo.after Cert.ReferenceIdeal.RefRun.rops_0 Vr (Proc.devRef .tc Cert.ReferenceIdeal.main_arg2))
      ∧ ((StableHlo.after kRest Vk (Proc.devRef .tc Cert.KernelIdeal.main_arg1) : (⟨Cert.KernelIdeal.S20000000, .i32⟩ : BufTy).Contents (Elt F)) = StableHlo.after Cert.ReferenceIdeal.RefRun.rops_0 Vr (Proc.devRef .tc Cert.ReferenceIdeal.main_arg1))
      ∧ ((StableHlo.after kRest Vk (Proc.devRef .tc Cert.KernelIdeal.main_arg0) : (⟨Cert.KernelIdeal.S20000000x3, .f32⟩ : BufTy).Contents (Elt F)) = StableHlo.after Cert.ReferenceIdeal.RefRun.rops_0 Vr (Proc.devRef .tc Cert.ReferenceIdeal.main_arg0))
      ∧ ((StableHlo.after kRest Vk (Proc.devRef .tc Cert.KernelIdeal.main_v4) : (⟨Cert.KernelIdeal.S20000000, .i1⟩ : BufTy).Contents (Elt F)) = StableHlo.after Cert.ReferenceIdeal.RefRun.rops_0 Vr (Proc.devRef .tc Cert.ReferenceIdeal.main_v2)) := by
  refine ⟨?_, ?_, ?_, ?_, ?_⟩ <;>
    (after_results_simp
     first
       | done
       | (simp only [h_main_arg2, h_main_arg1, h_main_arg0, h_main_v2]; first | done | rfl)
       | rfl)

/-- @cumsum of the mask: the running sum, the same function of the mask on both sides. -/
theorem stage_1 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2)) :
    ((StableHlo.after Cert.KernelIdeal.Gen.hostOps1_1 Vk (Proc.devRef .tc Cert.KernelIdeal.main_v6) : (⟨Cert.KernelIdeal.S_, .i32⟩ : BufTy).Contents (Elt F)) = StableHlo.after Cert.ReferenceIdeal.RefRun.rops_1 Vr (Proc.devRef .tc Cert.ReferenceIdeal.main_v4))
      ∧ ((StableHlo.after Cert.KernelIdeal.Gen.hostOps1_1 Vk (Proc.devRef .tc Cert.KernelIdeal.main_arg2) : (⟨Cert.KernelIdeal.S20000000, .i32⟩ : BufTy).Contents (Elt F)) = StableHlo.after Cert.ReferenceIdeal.RefRun.rops_1 Vr (Proc.devRef .tc Cert.ReferenceIdeal.main_arg2))
      ∧ ((StableHlo.after Cert.KernelIdeal.Gen.hostOps1_1 Vk (Proc.devRef .tc Cert.KernelIdeal.main_arg1) : (⟨Cert.KernelIdeal.S20000000, .i32⟩ : BufTy).Contents (Elt F)) = StableHlo.after Cert.ReferenceIdeal.RefRun.rops_1 Vr (Proc.devRef .tc Cert.ReferenceIdeal.main_arg1))
      ∧ ((StableHlo.after Cert.KernelIdeal.Gen.hostOps1_1 Vk (Proc.devRef .tc Cert.KernelIdeal.main_arg0) : (⟨Cert.KernelIdeal.S20000000x3, .f32⟩ : BufTy).Contents (Elt F)) = StableHlo.after Cert.ReferenceIdeal.RefRun.rops_1 Vr (Proc.devRef .tc Cert.ReferenceIdeal.main_arg0))
      ∧ ((StableHlo.after Cert.KernelIdeal.Gen.hostOps1_1 Vk (Proc.devRef .tc Cert.KernelIdeal.main_v4) : (⟨Cert.KernelIdeal.S20000000, .i1⟩ : BufTy).Contents (Elt F)) = StableHlo.after Cert.ReferenceIdeal.RefRun.rops_1 Vr (Proc.devRef .tc Cert.ReferenceIdeal.main_v2))
      ∧ ((StableHlo.after Cert.KernelIdeal.Gen.hostOps1_1 Vk (Proc.devRef .tc Cert.KernelIdeal.main_v7) : (⟨Cert.KernelIdeal.S20000000, .i32⟩ : BufTy).Contents (Elt F)) = StableHlo.after Cert.ReferenceIdeal.RefRun.rops_1 Vr (Proc.devRef .tc Cert.ReferenceIdeal.main_v5)) := by
  refine ⟨?_, ?_, ?_, ?_, ?_, ?_⟩ <;>
    (after_results_simp
     first
       | done
       | (simp only [h_main_v4, h_main_arg2, h_main_arg1, h_main_arg0, h_main_v2]; first | done | rfl)
       | rfl)

/-- The zero vector and the lower clip bound: constants, the same on both sides. -/
theorem stage_2 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2))
    (h_main_v5 : (Vk (Proc.devRef .tc Cert.KernelIdeal.main_v7) : (⟨Cert.KernelIdeal.S20000000, .i32⟩ : BufTy).Contents (Elt F)) = Vr (Proc.devRef .tc Cert.ReferenceIdeal.main_v5)) :
    ((StableHlo.after Cert.KernelIdeal.Gen.hostOps1_2 Vk (Proc.devRef .tc Cert.KernelIdeal.main_v6) : (⟨Cert.KernelIdeal.S_, .i32⟩ : BufTy).Contents (Elt F)) = StableHlo.after Cert.ReferenceIdeal.RefRun.rops_2 Vr (Proc.devRef .tc Cert.ReferenceIdeal.main_v4))
      ∧ ((StableHlo.after Cert.KernelIdeal.Gen.hostOps1_2 Vk (Proc.devRef .tc Cert.KernelIdeal.main_arg2) : (⟨Cert.KernelIdeal.S20000000, .i32⟩ : BufTy).Contents (Elt F)) = StableHlo.after Cert.ReferenceIdeal.RefRun.rops_2 Vr (Proc.devRef .tc Cert.ReferenceIdeal.main_arg2))
      ∧ ((StableHlo.after Cert.KernelIdeal.Gen.hostOps1_2 Vk (Proc.devRef .tc Cert.KernelIdeal.main_arg1) : (⟨Cert.KernelIdeal.S20000000, .i32⟩ : BufTy).Contents (Elt F)) = StableHlo.after Cert.ReferenceIdeal.RefRun.rops_2 Vr (Proc.devRef .tc Cert.ReferenceIdeal.main_arg1))
      ∧ ((StableHlo.after Cert.KernelIdeal.Gen.hostOps1_2 Vk (Proc.devRef .tc Cert.KernelIdeal.main_arg0) : (⟨Cert.KernelIdeal.S20000000x3, .f32⟩ : BufTy).Contents (Elt F)) = StableHlo.after Cert.ReferenceIdeal.RefRun.rops_2 Vr (Proc.devRef .tc Cert.ReferenceIdeal.main_arg0))
      ∧ ((StableHlo.after Cert.KernelIdeal.Gen.hostOps1_2 Vk (Proc.devRef .tc Cert.KernelIdeal.main_v4) : (⟨Cert.KernelIdeal.S20000000, .i1⟩ : BufTy).Contents (Elt F)) = StableHlo.after Cert.ReferenceIdeal.RefRun.rops_2 Vr (Proc.devRef .tc Cert.ReferenceIdeal.main_v2))
      ∧ ((StableHlo.after Cert.KernelIdeal.Gen.hostOps1_2 Vk (Proc.devRef .tc Cert.KernelIdeal.main_v8) : (⟨Cert.KernelIdeal.S20000000, .i32⟩ : BufTy).Contents (Elt F)) = StableHlo.after Cert.ReferenceIdeal.RefRun.rops_2 Vr (Proc.devRef .tc Cert.ReferenceIdeal.main_v6))
      ∧ ((StableHlo.after Cert.KernelIdeal.Gen.hostOps1_2 Vk (Proc.devRef .tc Cert.KernelIdeal.main_v7) : (⟨Cert.KernelIdeal.S20000000, .i32⟩ : BufTy).Contents (Elt F)) = StableHlo.after Cert.ReferenceIdeal.RefRun.rops_2 Vr (Proc.devRef .tc Cert.ReferenceIdeal.main_v5))
      ∧ ((StableHlo.after Cert.KernelIdeal.Gen.hostOps1_2 Vk (Proc.devRef .tc Cert.KernelIdeal.main_c_2) : (⟨Cert.KernelIdeal.S_, .i32⟩ : BufTy).Contents (Elt F)) = StableHlo.after Cert.ReferenceIdeal.RefRun.rops_2 Vr (Proc.devRef .tc Cert.ReferenceIdeal.main_c_1)) := by
  refine ⟨?_, ?_, ?_, ?_, ?_, ?_, ?_, ?_⟩ <;>
    (after_results_simp
     first
       | done
       | (simp only [h_main_v4, h_main_arg2, h_main_arg1, h_main_arg0, h_main_v2, h_main_v5]; first | done | rfl)
       | rfl)

/-- @clip: the running sum clipped below at zero. -/
theorem stage_3 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2))
    (h_main_v6 : (Vk (Proc.devRef .tc Cert.KernelIdeal.main_v8) : (⟨Cert.KernelIdeal.S20000000, .i32⟩ : BufTy).Contents (Elt F)) = Vr (Proc.devRef .tc Cert.ReferenceIdeal.main_v6))
    (h_main_v5 : (Vk (Proc.devRef .tc Cert.KernelIdeal.main_v7) : (⟨Cert.KernelIdeal.S20000000, .i32⟩ : BufTy).Contents (Elt F)) = Vr (Proc.devRef .tc Cert.ReferenceIdeal.main_v5))
    (h_main_c_1 : (Vk (Proc.devRef .tc Cert.KernelIdeal.main_c_2) : (⟨Cert.KernelIdeal.S_, .i32⟩ : BufTy).Contents (Elt F)) = Vr (Proc.devRef .tc Cert.ReferenceIdeal.main_c_1)) :
    ((StableHlo.after Cert.KernelIdeal.Gen.hostOps1_3 Vk (Proc.devRef .tc Cert.KernelIdeal.main_v6) : (⟨Cert.KernelIdeal.S_, .i32⟩ : BufTy).Contents (Elt F)) = StableHlo.after Cert.ReferenceIdeal.RefRun.rops_3 Vr (Proc.devRef .tc Cert.ReferenceIdeal.main_v4))
      ∧ ((StableHlo.after Cert.KernelIdeal.Gen.hostOps1_3 Vk (Proc.devRef .tc Cert.KernelIdeal.main_arg2) : (⟨Cert.KernelIdeal.S20000000, .i32⟩ : BufTy).Contents (Elt F)) = StableHlo.after Cert.ReferenceIdeal.RefRun.rops_3 Vr (Proc.devRef .tc Cert.ReferenceIdeal.main_arg2))
      ∧ ((StableHlo.after Cert.KernelIdeal.Gen.hostOps1_3 Vk (Proc.devRef .tc Cert.KernelIdeal.main_arg1) : (⟨Cert.KernelIdeal.S20000000, .i32⟩ : BufTy).Contents (Elt F)) = StableHlo.after Cert.ReferenceIdeal.RefRun.rops_3 Vr (Proc.devRef .tc Cert.ReferenceIdeal.main_arg1))
      ∧ ((StableHlo.after Cert.KernelIdeal.Gen.hostOps1_3 Vk (Proc.devRef .tc Cert.KernelIdeal.main_arg0) : (⟨Cert.KernelIdeal.S20000000x3, .f32⟩ : BufTy).Contents (Elt F)) = StableHlo.after Cert.ReferenceIdeal.RefRun.rops_3 Vr (Proc.devRef .tc Cert.ReferenceIdeal.main_arg0))
      ∧ ((StableHlo.after Cert.KernelIdeal.Gen.hostOps1_3 Vk (Proc.devRef .tc Cert.KernelIdeal.main_v4) : (⟨Cert.KernelIdeal.S20000000, .i1⟩ : BufTy).Contents (Elt F)) = StableHlo.after Cert.ReferenceIdeal.RefRun.rops_3 Vr (Proc.devRef .tc Cert.ReferenceIdeal.main_v2))
      ∧ ((StableHlo.after Cert.KernelIdeal.Gen.hostOps1_3 Vk (Proc.devRef .tc Cert.KernelIdeal.main_v8) : (⟨Cert.KernelIdeal.S20000000, .i32⟩ : BufTy).Contents (Elt F)) = StableHlo.after Cert.ReferenceIdeal.RefRun.rops_3 Vr (Proc.devRef .tc Cert.ReferenceIdeal.main_v6))
      ∧ ((StableHlo.after Cert.KernelIdeal.Gen.hostOps1_3 Vk (Proc.devRef .tc Cert.KernelIdeal.main_v9) : (⟨Cert.KernelIdeal.S20000000, .i32⟩ : BufTy).Contents (Elt F)) = StableHlo.after Cert.ReferenceIdeal.RefRun.rops_3 Vr (Proc.devRef .tc Cert.ReferenceIdeal.main_v7)) := by
  refine ⟨?_, ?_, ?_, ?_, ?_, ?_, ?_⟩ <;>
    (after_results_simp
     first
       | done
       | (simp only [h_main_v4, h_main_arg2, h_main_arg1, h_main_arg0, h_main_v2, h_main_v6, h_main_v5, h_main_c_1]; first | done | rfl)
       | rfl)

/-- The clipped running sums wrapped into range and a vector of ones scattered (added) at them into the zero vector. -/
theorem stage_4 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2))
    (h_main_v6 : (Vk (Proc.devRef .tc Cert.KernelIdeal.main_v8) : (⟨Cert.KernelIdeal.S20000000, .i32⟩ : BufTy).Contents (Elt F)) = Vr (Proc.devRef .tc Cert.ReferenceIdeal.main_v6))
    (h_main_v7 : (Vk (Proc.devRef .tc Cert.KernelIdeal.main_v9) : (⟨Cert.KernelIdeal.S20000000, .i32⟩ : BufTy).Contents (Elt F)) = Vr (Proc.devRef .tc Cert.ReferenceIdeal.main_v7)) :
    ((StableHlo.after Cert.KernelIdeal.Gen.hostOps1_4 Vk (Proc.devRef .tc Cert.KernelIdeal.main_v6) : (⟨Cert.KernelIdeal.S_, .i32⟩ : BufTy).Contents (Elt F)) = StableHlo.after Cert.ReferenceIdeal.RefRun.rops_4 Vr (Proc.devRef .tc Cert.ReferenceIdeal.main_v4))
      ∧ ((StableHlo.after Cert.KernelIdeal.Gen.hostOps1_4 Vk (Proc.devRef .tc Cert.KernelIdeal.main_arg2) : (⟨Cert.KernelIdeal.S20000000, .i32⟩ : BufTy).Contents (Elt F)) = StableHlo.after Cert.ReferenceIdeal.RefRun.rops_4 Vr (Proc.devRef .tc Cert.ReferenceIdeal.main_arg2))
      ∧ ((StableHlo.after Cert.KernelIdeal.Gen.hostOps1_4 Vk (Proc.devRef .tc Cert.KernelIdeal.main_arg1) : (⟨Cert.KernelIdeal.S20000000, .i32⟩ : BufTy).Contents (Elt F)) = StableHlo.after Cert.ReferenceIdeal.RefRun.rops_4 Vr (Proc.devRef .tc Cert.ReferenceIdeal.main_arg1))
      ∧ ((StableHlo.after Cert.KernelIdeal.Gen.hostOps1_4 Vk (Proc.devRef .tc Cert.KernelIdeal.main_arg0) : (⟨Cert.KernelIdeal.S20000000x3, .f32⟩ : BufTy).Contents (Elt F)) = StableHlo.after Cert.ReferenceIdeal.RefRun.rops_4 Vr (Proc.devRef .tc Cert.ReferenceIdeal.main_arg0))
      ∧ ((StableHlo.after Cert.KernelIdeal.Gen.hostOps1_4 Vk (Proc.devRef .tc Cert.KernelIdeal.main_v4) : (⟨Cert.KernelIdeal.S20000000, .i1⟩ : BufTy).Contents (Elt F)) = StableHlo.after Cert.ReferenceIdeal.RefRun.rops_4 Vr (Proc.devRef .tc Cert.ReferenceIdeal.main_v2))
      ∧ ((StableHlo.after Cert.KernelIdeal.Gen.hostOps1_4 Vk (Proc.devRef .tc Cert.KernelIdeal.main_v17) : (⟨Cert.KernelIdeal.S20000000, .i32⟩ : BufTy).Contents (Elt F)) = StableHlo.after Cert.ReferenceIdeal.RefRun.rops_4 Vr (Proc.devRef .tc Cert.ReferenceIdeal.main_v15)) := by
  refine ⟨?_, ?_, ?_, ?_, ?_, ?_⟩ <;>
    (after_results_simp
     first
       | done
       | (simp only [h_main_v4, h_main_arg2, h_main_arg1, h_main_arg0, h_main_v2, h_main_v6, h_main_v7]; first | done | rfl)
       | rfl)

/-- @cumsum_1: the running sum of the scattered counts. -/
theorem stage_5 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2))
    (h_main_v15 : (Vk (Proc.devRef .tc Cert.KernelIdeal.main_v17) : (⟨Cert.KernelIdeal.S20000000, .i32⟩ : BufTy).Contents (Elt F)) = Vr (Proc.devRef .tc Cert.ReferenceIdeal.main_v15)) :
    ((StableHlo.after Cert.KernelIdeal.Gen.hostOps1_5 Vk (Proc.devRef .tc Cert.KernelIdeal.main_v6) : (⟨Cert.KernelIdeal.S_, .i32⟩ : BufTy).Contents (Elt F)) = StableHlo.after Cert.ReferenceIdeal.RefRun.rops_5 Vr (Proc.devRef .tc Cert.ReferenceIdeal.main_v4))
      ∧ ((StableHlo.after Cert.KernelIdeal.Gen.hostOps1_5 Vk (Proc.devRef .tc Cert.KernelIdeal.main_arg2) : (⟨Cert.KernelIdeal.S20000000, .i32⟩ : BufTy).Contents (Elt F)) = StableHlo.after Cert.ReferenceIdeal.RefRun.rops_5 Vr (Proc.devRef .tc Cert.ReferenceIdeal.main_arg2))
      ∧ ((StableHlo.after Cert.KernelIdeal.Gen.hostOps1_5 Vk (Proc.devRef .tc Cert.KernelIdeal.main_arg1) : (⟨Cert.KernelIdeal.S20000000, .i32⟩ : BufTy).Contents (Elt F)) = StableHlo.after Cert.ReferenceIdeal.RefRun.rops_5 Vr (Proc.devRef .tc Cert.ReferenceIdeal.main_arg1))
      ∧ ((StableHlo.after Cert.KernelIdeal.Gen.hostOps1_5 Vk (Proc.devRef .tc Cert.KernelIdeal.main_arg0) : (⟨Cert.KernelIdeal.S20000000x3, .f32⟩ : BufTy).Contents (Elt F)) = StableHlo.after Cert.ReferenceIdeal.RefRun.rops_5 Vr (Proc.devRef .tc Cert.ReferenceIdeal.main_arg0))
      ∧ ((StableHlo.after Cert.KernelIdeal.Gen.hostOps1_5 Vk (Proc.devRef .tc Cert.KernelIdeal.main_v4) : (⟨Cert.KernelIdeal.S20000000, .i1⟩ : BufTy).Contents (Elt F)) = StableHlo.after Cert.ReferenceIdeal.RefRun.rops_5 Vr (Proc.devRef .tc Cert.ReferenceIdeal.main_v2))
      ∧ ((StableHlo.after Cert.KernelIdeal.Gen.hostOps1_5 Vk (Proc.devRef .tc Cert.KernelIdeal.main_v18) : (⟨Cert.KernelIdeal.S20000000, .i32⟩ : BufTy).Contents (Elt F)) = StableHlo.after Cert.ReferenceIdeal.RefRun.rops_5 Vr (Proc.devRef .tc Cert.ReferenceIdeal.main_v16)) := by
  refine ⟨?_, ?_, ?_, ?_, ?_, ?_⟩ <;>
    (after_results_simp
     first
       | done
       | (simp only [h_main_v4, h_main_arg2, h_main_arg1, h_main_arg0, h_main_v2, h_main_v15]; first | done | rfl)
       | rfl)

/-- The constant one. -/
theorem stage_6 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2))
    (h_main_v16 : (Vk (Proc.devRef .tc Cert.KernelIdeal.main_v18) : (⟨Cert.KernelIdeal.S20000000, .i32⟩ : BufTy).Contents (Elt F)) = Vr (Proc.devRef .tc Cert.ReferenceIdeal.main_v16)) :
    ((StableHlo.after Cert.KernelIdeal.Gen.hostOps1_6 Vk (Proc.devRef .tc Cert.KernelIdeal.main_v6) : (⟨Cert.KernelIdeal.S_, .i32⟩ : BufTy).Contents (Elt F)) = StableHlo.after Cert.ReferenceIdeal.RefRun.rops_6 Vr (Proc.devRef .tc Cert.ReferenceIdeal.main_v4))
      ∧ ((StableHlo.after Cert.KernelIdeal.Gen.hostOps1_6 Vk (Proc.devRef .tc Cert.KernelIdeal.main_arg2) : (⟨Cert.KernelIdeal.S20000000, .i32⟩ : BufTy).Contents (Elt F)) = StableHlo.after Cert.ReferenceIdeal.RefRun.rops_6 Vr (Proc.devRef .tc Cert.ReferenceIdeal.main_arg2))
      ∧ ((StableHlo.after Cert.KernelIdeal.Gen.hostOps1_6 Vk (Proc.devRef .tc Cert.KernelIdeal.main_arg1) : (⟨Cert.KernelIdeal.S20000000, .i32⟩ : BufTy).Contents (Elt F)) = StableHlo.after Cert.ReferenceIdeal.RefRun.rops_6 Vr (Proc.devRef .tc Cert.ReferenceIdeal.main_arg1))
      ∧ ((StableHlo.after Cert.KernelIdeal.Gen.hostOps1_6 Vk (Proc.devRef .tc Cert.KernelIdeal.main_arg0) : (⟨Cert.KernelIdeal.S20000000x3, .f32⟩ : BufTy).Contents (Elt F)) = StableHlo.after Cert.ReferenceIdeal.RefRun.rops_6 Vr (Proc.devRef .tc Cert.ReferenceIdeal.main_arg0))
      ∧ ((StableHlo.after Cert.KernelIdeal.Gen.hostOps1_6 Vk (Proc.devRef .tc Cert.KernelIdeal.main_v4) : (⟨Cert.KernelIdeal.S20000000, .i1⟩ : BufTy).Contents (Elt F)) = StableHlo.after Cert.ReferenceIdeal.RefRun.rops_6 Vr (Proc.devRef .tc Cert.ReferenceIdeal.main_v2))
      ∧ ((StableHlo.after Cert.KernelIdeal.Gen.hostOps1_6 Vk (Proc.devRef .tc Cert.KernelIdeal.main_v18) : (⟨Cert.KernelIdeal.S20000000, .i32⟩ : BufTy).Contents (Elt F)) = StableHlo.after Cert.ReferenceIdeal.RefRun.rops_6 Vr (Proc.devRef .tc Cert.ReferenceIdeal.main_v16))
      ∧ ((StableHlo.after Cert.KernelIdeal.Gen.hostOps1_6 Vk (Proc.devRef .tc Cert.KernelIdeal.main_c_6) : (⟨Cert.KernelIdeal.S_, .i32⟩ : BufTy).Contents (Elt F)) = StableHlo.after Cert.ReferenceIdeal.RefRun.rops_6 Vr (Proc.devRef .tc Cert.ReferenceIdeal.main_c_5)) := by
  refine ⟨?_, ?_, ?_, ?_, ?_, ?_, ?_⟩ <;>
    (after_results_simp
     first
       | done
       | (simp only [h_main_v4, h_main_arg2, h_main_arg1, h_main_arg0, h_main_v2, h_main_v16]; first | done | rfl)
       | rfl)

/-- @floor_divide by one. -/
theorem stage_7 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2))
    (h_main_v16 : (Vk (Proc.devRef .tc Cert.KernelIdeal.main_v18) : (⟨Cert.KernelIdeal.S20000000, .i32⟩ : BufTy).Contents (Elt F)) = Vr (Proc.devRef .tc Cert.ReferenceIdeal.main_v16))
    (h_main_c_5 : (Vk (Proc.devRef .tc Cert.KernelIdeal.main_c_6) : (⟨Cert.KernelIdeal.S_, .i32⟩ : BufTy).Contents (Elt F)) = Vr (Proc.devRef .tc Cert.ReferenceIdeal.main_c_5)) :
    ((StableHlo.after Cert.KernelIdeal.Gen.hostOps1_7 Vk (Proc.devRef .tc Cert.KernelIdeal.main_v6) : (⟨Cert.KernelIdeal.S_, .i32⟩ : BufTy).Contents (Elt F)) = StableHlo.after Cert.ReferenceIdeal.RefRun.rops_7 Vr (Proc.devRef .tc Cert.ReferenceIdeal.main_v4))
      ∧ ((StableHlo.after Cert.KernelIdeal.Gen.hostOps1_7 Vk (Proc.devRef .tc Cert.KernelIdeal.main_arg2) : (⟨Cert.KernelIdeal.S20000000, .i32⟩ : BufTy).Contents (Elt F)) = StableHlo.after Cert.ReferenceIdeal.RefRun.rops_7 Vr (Proc.devRef .tc Cert.ReferenceIdeal.main_arg2))
      ∧ ((StableHlo.after Cert.KernelIdeal.Gen.hostOps1_7 Vk (Proc.devRef .tc Cert.KernelIdeal.main_arg1) : (⟨Cert.KernelIdeal.S20000000, .i32⟩ : BufTy).Contents (Elt F)) = StableHlo.after Cert.ReferenceIdeal.RefRun.rops_7 Vr (Proc.devRef .tc Cert.ReferenceIdeal.main_arg1))
      ∧ ((StableHlo.after Cert.KernelIdeal.Gen.hostOps1_7 Vk (Proc.devRef .tc Cert.KernelIdeal.main_arg0) : (⟨Cert.KernelIdeal.S20000000x3, .f32⟩ : BufTy).Contents (Elt F)) = StableHlo.after Cert.ReferenceIdeal.RefRun.rops_7 Vr (Proc.devRef .tc Cert.ReferenceIdeal.main_arg0))
      ∧ ((StableHlo.after Cert.KernelIdeal.Gen.hostOps1_7 Vk (Proc.devRef .tc Cert.KernelIdeal.main_v4) : (⟨Cert.KernelIdeal.S20000000, .i1⟩ : BufTy).Contents (Elt F)) = StableHlo.after Cert.ReferenceIdeal.RefRun.rops_7 Vr (Proc.devRef .tc Cert.ReferenceIdeal.main_v2))
      ∧ ((StableHlo.after Cert.KernelIdeal.Gen.hostOps1_7 Vk (Proc.devRef .tc Cert.KernelIdeal.main_v19) : (⟨Cert.KernelIdeal.S20000000, .i32⟩ : BufTy).Contents (Elt F)) = StableHlo.after Cert.ReferenceIdeal.RefRun.rops_7 Vr (Proc.devRef .tc Cert.ReferenceIdeal.main_v17)) := by
  refine ⟨?_, ?_, ?_, ?_, ?_, ?_⟩ <;>
    (after_results_simp
     first
       | done
       | (simp only [h_main_v4, h_main_arg2, h_main_arg1, h_main_arg0, h_main_v2, h_main_v16, h_main_c_5]; first | done | rfl)
       | rfl)

/-- The constant 20000000. -/
theorem stage_8 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2))
    (h_main_v17 : (Vk (Proc.devRef .tc Cert.KernelIdeal.main_v19) : (⟨Cert.KernelIdeal.S20000000, .i32⟩ : BufTy).Contents (Elt F)) = Vr (Proc.devRef .tc Cert.ReferenceIdeal.main_v17)) :
    ((StableHlo.after Cert.KernelIdeal.Gen.hostOps1_8 Vk (Proc.devRef .tc Cert.KernelIdeal.main_v6) : (⟨Cert.KernelIdeal.S_, .i32⟩ : BufTy).Contents (Elt F)) = StableHlo.after Cert.ReferenceIdeal.RefRun.rops_8 Vr (Proc.devRef .tc Cert.ReferenceIdeal.main_v4))
      ∧ ((StableHlo.after Cert.KernelIdeal.Gen.hostOps1_8 Vk (Proc.devRef .tc Cert.KernelIdeal.main_arg2) : (⟨Cert.KernelIdeal.S20000000, .i32⟩ : BufTy).Contents (Elt F)) = StableHlo.after Cert.ReferenceIdeal.RefRun.rops_8 Vr (Proc.devRef .tc Cert.ReferenceIdeal.main_arg2))
      ∧ ((StableHlo.after Cert.KernelIdeal.Gen.hostOps1_8 Vk (Proc.devRef .tc Cert.KernelIdeal.main_arg1) : (⟨Cert.KernelIdeal.S20000000, .i32⟩ : BufTy).Contents (Elt F)) = StableHlo.after Cert.ReferenceIdeal.RefRun.rops_8 Vr (Proc.devRef .tc Cert.ReferenceIdeal.main_arg1))
      ∧ ((StableHlo.after Cert.KernelIdeal.Gen.hostOps1_8 Vk (Proc.devRef .tc Cert.KernelIdeal.main_arg0) : (⟨Cert.KernelIdeal.S20000000x3, .f32⟩ : BufTy).Contents (Elt F)) = StableHlo.after Cert.ReferenceIdeal.RefRun.rops_8 Vr (Proc.devRef .tc Cert.ReferenceIdeal.main_arg0))
      ∧ ((StableHlo.after Cert.KernelIdeal.Gen.hostOps1_8 Vk (Proc.devRef .tc Cert.KernelIdeal.main_v4) : (⟨Cert.KernelIdeal.S20000000, .i1⟩ : BufTy).Contents (Elt F)) = StableHlo.after Cert.ReferenceIdeal.RefRun.rops_8 Vr (Proc.devRef .tc Cert.ReferenceIdeal.main_v2))
      ∧ ((StableHlo.after Cert.KernelIdeal.Gen.hostOps1_8 Vk (Proc.devRef .tc Cert.KernelIdeal.main_v19) : (⟨Cert.KernelIdeal.S20000000, .i32⟩ : BufTy).Contents (Elt F)) = StableHlo.after Cert.ReferenceIdeal.RefRun.rops_8 Vr (Proc.devRef .tc Cert.ReferenceIdeal.main_v17))
      ∧ ((StableHlo.after Cert.KernelIdeal.Gen.hostOps1_8 Vk (Proc.devRef .tc Cert.KernelIdeal.main_c_7) : (⟨Cert.KernelIdeal.S_, .i32⟩ : BufTy).Contents (Elt F)) = StableHlo.after Cert.ReferenceIdeal.RefRun.rops_8 Vr (Proc.devRef .tc Cert.ReferenceIdeal.main_c_6)) := by
  refine ⟨?_, ?_, ?_, ?_, ?_, ?_, ?_⟩ <;>
    (after_results_simp
     first
       | done
       | (simp only [h_main_v4, h_main_arg2, h_main_arg1, h_main_arg0, h_main_v2, h_main_v17]; first | done | rfl)
       | rfl)

/-- @remainder by 20000000. -/
theorem stage_9 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v2 : (Vk (Proc.devRef .tc Cert.KernelIdeal.main_v4) : (⟨Cert.KernelIdeal.S20000000, .i1⟩ : BufTy).Contents (Elt F)) = Vr (Proc.devRef .tc Cert.ReferenceIdeal.main_v2))
    (h_main_v17 : (Vk (Proc.devRef .tc Cert.KernelIdeal.main_v19) : (⟨Cert.KernelIdeal.S20000000, .i32⟩ : BufTy).Contents (Elt F)) = Vr (Proc.devRef .tc Cert.ReferenceIdeal.main_v17))
    (h_main_c_6 : (Vk (Proc.devRef .tc Cert.KernelIdeal.main_c_7) : (⟨Cert.KernelIdeal.S_, .i32⟩ : BufTy).Contents (Elt F)) = Vr (Proc.devRef .tc Cert.ReferenceIdeal.main_c_6)) :
    ((StableHlo.after Cert.KernelIdeal.Gen.hostOps1_9 Vk (Proc.devRef .tc Cert.KernelIdeal.main_v6) : (⟨Cert.KernelIdeal.S_, .i32⟩ : BufTy).Contents (Elt F)) = StableHlo.after Cert.ReferenceIdeal.RefRun.rops_9 Vr (Proc.devRef .tc Cert.ReferenceIdeal.main_v4))
      ∧ ((StableHlo.after Cert.KernelIdeal.Gen.hostOps1_9 Vk (Proc.devRef .tc Cert.KernelIdeal.main_arg2) : (⟨Cert.KernelIdeal.S20000000, .i32⟩ : BufTy).Contents (Elt F)) = StableHlo.after Cert.ReferenceIdeal.RefRun.rops_9 Vr (Proc.devRef .tc Cert.ReferenceIdeal.main_arg2))
      ∧ ((StableHlo.after Cert.KernelIdeal.Gen.hostOps1_9 Vk (Proc.devRef .tc Cert.KernelIdeal.main_arg1) : (⟨Cert.KernelIdeal.S20000000, .i32⟩ : BufTy).Contents (Elt F)) = StableHlo.after Cert.ReferenceIdeal.RefRun.rops_9 Vr (Proc.devRef .tc Cert.ReferenceIdeal.main_arg1))
      ∧ ((StableHlo.after Cert.KernelIdeal.Gen.hostOps1_9 Vk (Proc.devRef .tc Cert.KernelIdeal.main_arg0) : (⟨Cert.KernelIdeal.S20000000x3, .f32⟩ : BufTy).Contents (Elt F)) = StableHlo.after Cert.ReferenceIdeal.RefRun.rops_9 Vr (Proc.devRef .tc Cert.ReferenceIdeal.main_arg0))
      ∧ ((StableHlo.after Cert.KernelIdeal.Gen.hostOps1_9 Vk (Proc.devRef .tc Cert.KernelIdeal.main_v20) : (⟨Cert.KernelIdeal.S20000000, .i32⟩ : BufTy).Contents (Elt F)) = StableHlo.after Cert.ReferenceIdeal.RefRun.rops_9 Vr (Proc.devRef .tc Cert.ReferenceIdeal.main_v18))
      ∧ ((StableHlo.after Cert.KernelIdeal.Gen.hostOps1_9 Vk (Proc.devRef .tc Cert.KernelIdeal.main_v4) : (⟨Cert.KernelIdeal.S20000000, .i1⟩ : BufTy).Contents (Elt F)) = StableHlo.after Cert.ReferenceIdeal.RefRun.rops_9 Vr (Proc.devRef .tc Cert.ReferenceIdeal.main_v2)) := by
  refine ⟨?_, ?_, ?_, ?_, ?_, ?_⟩ <;>
    (after_results_simp
     first
       | done
       | (simp only [h_main_v4, h_main_arg2, h_main_arg1, h_main_arg0, h_main_v2, h_main_v17, h_main_c_6]; first | done | rfl)
       | rfl)

/-- The test `iota ≥ count` (the count recomputed from the mask) and a zero. -/
theorem stage_10 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v18 : (Vk (Proc.devRef .tc Cert.KernelIdeal.main_v20) : (⟨Cert.KernelIdeal.S20000000, .i32⟩ : BufTy).Contents (Elt F)) = Vr (Proc.devRef .tc Cert.ReferenceIdeal.main_v18))
    (h_main_v2 : (Vk (Proc.devRef .tc Cert.KernelIdeal.main_v4) : (⟨Cert.KernelIdeal.S20000000, .i1⟩ : BufTy).Contents (Elt F)) = Vr (Proc.devRef .tc Cert.ReferenceIdeal.main_v2)) :
    ((StableHlo.after Cert.KernelIdeal.Gen.hostOps1_10 Vk (Proc.devRef .tc Cert.KernelIdeal.main_v6) : (⟨Cert.KernelIdeal.S_, .i32⟩ : BufTy).Contents (Elt F)) = StableHlo.after Cert.ReferenceIdeal.RefRun.rops_10 Vr (Proc.devRef .tc Cert.ReferenceIdeal.main_v4))
      ∧ ((StableHlo.after Cert.KernelIdeal.Gen.hostOps1_10 Vk (Proc.devRef .tc Cert.KernelIdeal.main_arg2) : (⟨Cert.KernelIdeal.S20000000, .i32⟩ : BufTy).Contents (Elt F)) = StableHlo.after Cert.ReferenceIdeal.RefRun.rops_10 Vr (Proc.devRef .tc Cert.ReferenceIdeal.main_arg2))
      ∧ ((StableHlo.after Cert.KernelIdeal.Gen.hostOps1_10 Vk (Proc.devRef .tc Cert.KernelIdeal.main_arg1) : (⟨Cert.KernelIdeal.S20000000, .i32⟩ : BufTy).Contents (Elt F)) = StableHlo.after Cert.ReferenceIdeal.RefRun.rops_10 Vr (Proc.devRef .tc Cert.ReferenceIdeal.main_arg1))
      ∧ ((StableHlo.after Cert.KernelIdeal.Gen.hostOps1_10 Vk (Proc.devRef .tc Cert.KernelIdeal.main_arg0) : (⟨Cert.KernelIdeal.S20000000x3, .f32⟩ : BufTy).Contents (Elt F)) = StableHlo.after Cert.ReferenceIdeal.RefRun.rops_10 Vr (Proc.devRef .tc Cert.ReferenceIdeal.main_arg0))
      ∧ ((StableHlo.after Cert.KernelIdeal.Gen.hostOps1_10 Vk (Proc.devRef .tc Cert.KernelIdeal.main_v25) : (⟨Cert.KernelIdeal.S20000000, .i1⟩ : BufTy).Contents (Elt F)) = StableHlo.after Cert.ReferenceIdeal.RefRun.rops_10 Vr (Proc.devRef .tc Cert.ReferenceIdeal.main_v23))
      ∧ ((StableHlo.after Cert.KernelIdeal.Gen.hostOps1_10 Vk (Proc.devRef .tc Cert.KernelIdeal.main_v20) : (⟨Cert.KernelIdeal.S20000000, .i32⟩ : BufTy).Contents (Elt F)) = StableHlo.after Cert.ReferenceIdeal.RefRun.rops_10 Vr (Proc.devRef .tc Cert.ReferenceIdeal.main_v18))
      ∧ ((StableHlo.after Cert.KernelIdeal.Gen.hostOps1_10 Vk (Proc.devRef .tc Cert.KernelIdeal.main_c_9) : (⟨Cert.KernelIdeal.S_, .i32⟩ : BufTy).Contents (Elt F)) = StableHlo.after Cert.ReferenceIdeal.RefRun.rops_10 Vr (Proc.devRef .tc Cert.ReferenceIdeal.main_c_8)) := by
  refine ⟨?_, ?_, ?_, ?_, ?_, ?_, ?_⟩ <;>
    (after_results_simp
     first
       | done
       | (simp only [h_main_v4, h_main_arg2, h_main_arg1, h_main_arg0, h_main_v18, h_main_v2]; first | done | rfl)
       | rfl)

/-- @_where_3: zero where `iota ≥ count`, else the remainders — the compaction indices. -/
theorem stage_11 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0))
    (h_main_v23 : (Vk (Proc.devRef .tc Cert.KernelIdeal.main_v25) : (⟨Cert.KernelIdeal.S20000000, .i1⟩ : BufTy).Contents (Elt F)) = Vr (Proc.devRef .tc Cert.ReferenceIdeal.main_v23))
    (h_main_v18 : (Vk (Proc.devRef .tc Cert.KernelIdeal.main_v20) : (⟨Cert.KernelIdeal.S20000000, .i32⟩ : BufTy).Contents (Elt F)) = Vr (Proc.devRef .tc Cert.ReferenceIdeal.main_v18))
    (h_main_c_8 : (Vk (Proc.devRef .tc Cert.KernelIdeal.main_c_9) : (⟨Cert.KernelIdeal.S_, .i32⟩ : BufTy).Contents (Elt F)) = Vr (Proc.devRef .tc Cert.ReferenceIdeal.main_c_8)) :
    ((StableHlo.after Cert.KernelIdeal.Gen.hostOps1_11 Vk (Proc.devRef .tc Cert.KernelIdeal.main_v6) : (⟨Cert.KernelIdeal.S_, .i32⟩ : BufTy).Contents (Elt F)) = StableHlo.after Cert.ReferenceIdeal.RefRun.rops_11 Vr (Proc.devRef .tc Cert.ReferenceIdeal.main_v4))
      ∧ ((StableHlo.after Cert.KernelIdeal.Gen.hostOps1_11 Vk (Proc.devRef .tc Cert.KernelIdeal.main_arg2) : (⟨Cert.KernelIdeal.S20000000, .i32⟩ : BufTy).Contents (Elt F)) = StableHlo.after Cert.ReferenceIdeal.RefRun.rops_11 Vr (Proc.devRef .tc Cert.ReferenceIdeal.main_arg2))
      ∧ ((StableHlo.after Cert.KernelIdeal.Gen.hostOps1_11 Vk (Proc.devRef .tc Cert.KernelIdeal.main_v26) : (⟨Cert.KernelIdeal.S20000000, .i32⟩ : BufTy).Contents (Elt F)) = StableHlo.after Cert.ReferenceIdeal.RefRun.rops_11 Vr (Proc.devRef .tc Cert.ReferenceIdeal.main_v24))
      ∧ ((StableHlo.after Cert.KernelIdeal.Gen.hostOps1_11 Vk (Proc.devRef .tc Cert.KernelIdeal.main_arg1) : (⟨Cert.KernelIdeal.S20000000, .i32⟩ : BufTy).Contents (Elt F)) = StableHlo.after Cert.ReferenceIdeal.RefRun.rops_11 Vr (Proc.devRef .tc Cert.ReferenceIdeal.main_arg1))
      ∧ ((StableHlo.after Cert.KernelIdeal.Gen.hostOps1_11 Vk (Proc.devRef .tc Cert.KernelIdeal.main_arg0) : (⟨Cert.KernelIdeal.S20000000x3, .f32⟩ : BufTy).Contents (Elt F)) = StableHlo.after Cert.ReferenceIdeal.RefRun.rops_11 Vr (Proc.devRef .tc Cert.ReferenceIdeal.main_arg0)) := by
  refine ⟨?_, ?_, ?_, ?_, ?_⟩ <;>
    (after_results_simp
     first
       | done
       | (simp only [h_main_v4, h_main_arg2, h_main_arg1, h_main_arg0, h_main_v23, h_main_v18, h_main_c_8]; first | done | rfl)
       | rfl)

/-- The test `iota < count` and its column; the indices wrapped into range; the first argument's rows gathered at them; the float zero. -/
theorem stage_12 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_v24 : (Vk (Proc.devRef .tc Cert.KernelIdeal.main_v26) : (⟨Cert.KernelIdeal.S20000000, .i32⟩ : BufTy).Contents (Elt F)) = Vr (Proc.devRef .tc Cert.ReferenceIdeal.main_v24))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_arg0 : (Vk (Proc.devRef .tc Cert.KernelIdeal.main_arg0) : (⟨Cert.KernelIdeal.S20000000x3, .f32⟩ : BufTy).Contents (Elt F)) = Vr (Proc.devRef .tc Cert.ReferenceIdeal.main_arg0)) :
    ((StableHlo.after Cert.KernelIdeal.Gen.hostOps1_12 Vk (Proc.devRef .tc Cert.KernelIdeal.main_v6) : (⟨Cert.KernelIdeal.S_, .i32⟩ : BufTy).Contents (Elt F)) = StableHlo.after Cert.ReferenceIdeal.RefRun.rops_12 Vr (Proc.devRef .tc Cert.ReferenceIdeal.main_v4))
      ∧ ((StableHlo.after Cert.KernelIdeal.Gen.hostOps1_12 Vk (Proc.devRef .tc Cert.KernelIdeal.main_v29) : (⟨Cert.KernelIdeal.S20000000, .i1⟩ : BufTy).Contents (Elt F)) = StableHlo.after Cert.ReferenceIdeal.RefRun.rops_12 Vr (Proc.devRef .tc Cert.ReferenceIdeal.main_v27))
      ∧ ((StableHlo.after Cert.KernelIdeal.Gen.hostOps1_12 Vk (Proc.devRef .tc Cert.KernelIdeal.main_arg2) : (⟨Cert.KernelIdeal.S20000000, .i32⟩ : BufTy).Contents (Elt F)) = StableHlo.after Cert.ReferenceIdeal.RefRun.rops_12 Vr (Proc.devRef .tc Cert.ReferenceIdeal.main_arg2))
      ∧ ((StableHlo.after Cert.KernelIdeal.Gen.hostOps1_12 Vk (Proc.devRef .tc Cert.KernelIdeal.main_v26) : (⟨Cert.KernelIdeal.S20000000, .i32⟩ : BufTy).Contents (Elt F)) = StableHlo.after Cert.ReferenceIdeal.RefRun.rops_12 Vr (Proc.devRef .tc Cert.ReferenceIdeal.main_v24))
      ∧ ((StableHlo.after Cert.KernelIdeal.Gen.hostOps1_12 Vk (Proc.devRef .tc Cert.KernelIdeal.main_arg1) : (⟨Cert.KernelIdeal.S20000000, .i32⟩ : BufTy).Contents (Elt F)) = StableHlo.after Cert.ReferenceIdeal.RefRun.rops_12 Vr (Proc.devRef .tc Cert.ReferenceIdeal.main_arg1))
      ∧ ((StableHlo.after Cert.KernelIdeal.Gen.hostOps1_12 Vk (Proc.devRef .tc Cert.KernelIdeal.main_v37) : (⟨Cert.KernelIdeal.S20000000x3, .f32⟩ : BufTy).Contents (Elt F)) = StableHlo.after Cert.ReferenceIdeal.RefRun.rops_12 Vr (Proc.devRef .tc Cert.ReferenceIdeal.main_v35))
      ∧ ((StableHlo.after Cert.KernelIdeal.Gen.hostOps1_12 Vk (Proc.devRef .tc Cert.KernelIdeal.main_v30) : (⟨Cert.KernelIdeal.S20000000x1, .i1⟩ : BufTy).Contents (Elt F)) = StableHlo.after Cert.ReferenceIdeal.RefRun.rops_12 Vr (Proc.devRef .tc Cert.ReferenceIdeal.main_v28))
      ∧ ((StableHlo.after Cert.KernelIdeal.Gen.hostOps1_12 Vk (Proc.devRef .tc Cert.KernelIdeal.main_cst) : (⟨Cert.KernelIdeal.S_, .f32⟩ : BufTy).Contents (Elt F)) = StableHlo.after Cert.ReferenceIdeal.RefRun.rops_12 Vr (Proc.devRef .tc Cert.ReferenceIdeal.main_cst_11)) := by
  refine ⟨?_, ?_, ?_, ?_, ?_, ?_, ?_, ?_⟩ <;>
    (after_results_simp
     first
       | done
       | (simp only [h_main_v4, h_main_arg2, h_main_v24, h_main_arg1, h_main_arg0]; first | done | rfl)
       | rfl)

/-- @_where_4: the gathered rows where `iota < count`, else zero — the first output. -/
theorem stage_13 (Vk : Valuation Cert.KernelIdeal.τ Cert.KernelIdeal.sig (Elt F)) (Vr : Valuation Cert.ReferenceIdeal.τ Cert.ReferenceIdeal.sig (Elt F))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_v27 : (Vk (Proc.devRef .tc Cert.KernelIdeal.main_v29) : (⟨Cert.KernelIdeal.S20000000, .i1⟩ : BufTy).Contents (Elt F)) = Vr (Proc.devRef .tc Cert.ReferenceIdeal.main_v27))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_v24 : (Vk (Proc.devRef .tc Cert.KernelIdeal.main_v26) : (⟨Cert.KernelIdeal.S20000000, .i32⟩ : BufTy).Contents (Elt F)) = Vr (Proc.devRef .tc Cert.ReferenceIdeal.main_v24))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1))
    (h_main_v35 : (Vk (Proc.devRef .tc Cert.KernelIdeal.main_v37) : (⟨Cert.KernelIdeal.S20000000x3, .f32⟩ : BufTy).Contents (Elt F)) = Vr (Proc.devRef .tc Cert.ReferenceIdeal.main_v35))
    (h_main_v28 : (Vk (Proc.devRef .tc Cert.KernelIdeal.main_v30) : (⟨Cert.KernelIdeal.S20000000x1, .i1⟩ : BufTy).Contents (Elt F)) = Vr (Proc.devRef .tc Cert.ReferenceIdeal.main_v28))
    (h_main_cst_11 : (Vk (Proc.devRef .tc Cert.KernelIdeal.main_cst) : (⟨Cert.KernelIdeal.S_, .f32⟩ : BufTy).Contents (Elt F)) = Vr (Proc.devRef .tc Cert.ReferenceIdeal.main_cst_11)) :
    ((StableHlo.after Cert.KernelIdeal.Gen.hostOps1_13 Vk (Proc.devRef .tc Cert.KernelIdeal.main_v38) : (⟨Cert.KernelIdeal.S20000000x3, .f32⟩ : BufTy).Contents (Elt F)) = StableHlo.after Cert.ReferenceIdeal.RefRun.rops_13 Vr (Proc.devRef .tc Cert.ReferenceIdeal.main_v36))
      ∧ ((StableHlo.after Cert.KernelIdeal.Gen.hostOps1_13 Vk (Proc.devRef .tc Cert.KernelIdeal.main_v6) : (⟨Cert.KernelIdeal.S_, .i32⟩ : BufTy).Contents (Elt F)) = StableHlo.after Cert.ReferenceIdeal.RefRun.rops_13 Vr (Proc.devRef .tc Cert.ReferenceIdeal.main_v4))
      ∧ ((StableHlo.after Cert.KernelIdeal.Gen.hostOps1_13 Vk (Proc.devRef .tc Cert.KernelIdeal.main_v29) : (⟨Cert.KernelIdeal.S20000000, .i1⟩ : BufTy).Contents (Elt F)) = StableHlo.after Cert.ReferenceIdeal.RefRun.rops_13 Vr (Proc.devRef .tc Cert.ReferenceIdeal.main_v27))
      ∧ ((StableHlo.after Cert.KernelIdeal.Gen.hostOps1_13 Vk (Proc.devRef .tc Cert.KernelIdeal.main_arg2) : (⟨Cert.KernelIdeal.S20000000, .i32⟩ : BufTy).Contents (Elt F)) = StableHlo.after Cert.ReferenceIdeal.RefRun.rops_13 Vr (Proc.devRef .tc Cert.ReferenceIdeal.main_arg2))
      ∧ ((StableHlo.after Cert.KernelIdeal.Gen.hostOps1_13 Vk (Proc.devRef .tc Cert.KernelIdeal.main_v26) : (⟨Cert.KernelIdeal.S20000000, .i32⟩ : BufTy).Contents (Elt F)) = StableHlo.after Cert.ReferenceIdeal.RefRun.rops_13 Vr (Proc.devRef .tc Cert.ReferenceIdeal.main_v24))
      ∧ ((StableHlo.after Cert.KernelIdeal.Gen.hostOps1_13 Vk (Proc.devRef .tc Cert.KernelIdeal.main_arg1) : (⟨Cert.KernelIdeal.S20000000, .i32⟩ : BufTy).Contents (Elt F)) = StableHlo.after Cert.ReferenceIdeal.RefRun.rops_13 Vr (Proc.devRef .tc Cert.ReferenceIdeal.main_arg1)) := by
  refine ⟨?_, ?_, ?_, ?_, ?_, ?_⟩ <;>
    (after_results_simp
     first
       | done
       | (simp only [h_main_v4, h_main_v27, h_main_arg2, h_main_v24, h_main_arg1, h_main_v35, h_main_v28, h_main_cst_11]; first | done | rfl)
       | rfl)

/-- The second argument gathered at the wrapped indices, and the constant -1. -/
theorem stage_14 (Vk : Valuation Cert.KernelIdeal.τ Cert.KernelIdeal.sig (Elt F)) (Vr : Valuation Cert.ReferenceIdeal.τ Cert.ReferenceIdeal.sig (Elt F))
    (h_main_v36 : (Vk (Proc.devRef .tc Cert.KernelIdeal.main_v38) : (⟨Cert.KernelIdeal.S20000000x3, .f32⟩ : BufTy).Contents (Elt F)) = Vr (Proc.devRef .tc Cert.ReferenceIdeal.main_v36))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_v27 : (Vk (Proc.devRef .tc Cert.KernelIdeal.main_v29) : (⟨Cert.KernelIdeal.S20000000, .i1⟩ : BufTy).Contents (Elt F)) = Vr (Proc.devRef .tc Cert.ReferenceIdeal.main_v27))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_v24 : (Vk (Proc.devRef .tc Cert.KernelIdeal.main_v26) : (⟨Cert.KernelIdeal.S20000000, .i32⟩ : BufTy).Contents (Elt F)) = Vr (Proc.devRef .tc Cert.ReferenceIdeal.main_v24))
    (h_main_arg1 : (Vk (Proc.devRef .tc Cert.KernelIdeal.main_arg1) : (⟨Cert.KernelIdeal.S20000000, .i32⟩ : BufTy).Contents (Elt F)) = Vr (Proc.devRef .tc Cert.ReferenceIdeal.main_arg1)) :
    ((StableHlo.after Cert.KernelIdeal.Gen.hostOps1_14 Vk (Proc.devRef .tc Cert.KernelIdeal.main_v38) : (⟨Cert.KernelIdeal.S20000000x3, .f32⟩ : BufTy).Contents (Elt F)) = StableHlo.after Cert.ReferenceIdeal.RefRun.rops_14 Vr (Proc.devRef .tc Cert.ReferenceIdeal.main_v36))
      ∧ ((StableHlo.after Cert.KernelIdeal.Gen.hostOps1_14 Vk (Proc.devRef .tc Cert.KernelIdeal.main_v6) : (⟨Cert.KernelIdeal.S_, .i32⟩ : BufTy).Contents (Elt F)) = StableHlo.after Cert.ReferenceIdeal.RefRun.rops_14 Vr (Proc.devRef .tc Cert.ReferenceIdeal.main_v4))
      ∧ ((StableHlo.after Cert.KernelIdeal.Gen.hostOps1_14 Vk (Proc.devRef .tc Cert.KernelIdeal.main_v29) : (⟨Cert.KernelIdeal.S20000000, .i1⟩ : BufTy).Contents (Elt F)) = StableHlo.after Cert.ReferenceIdeal.RefRun.rops_14 Vr (Proc.devRef .tc Cert.ReferenceIdeal.main_v27))
      ∧ ((StableHlo.after Cert.KernelIdeal.Gen.hostOps1_14 Vk (Proc.devRef .tc Cert.KernelIdeal.main_arg2) : (⟨Cert.KernelIdeal.S20000000, .i32⟩ : BufTy).Contents (Elt F)) = StableHlo.after Cert.ReferenceIdeal.RefRun.rops_14 Vr (Proc.devRef .tc Cert.ReferenceIdeal.main_arg2))
      ∧ ((StableHlo.after Cert.KernelIdeal.Gen.hostOps1_14 Vk (Proc.devRef .tc Cert.KernelIdeal.main_v26) : (⟨Cert.KernelIdeal.S20000000, .i32⟩ : BufTy).Contents (Elt F)) = StableHlo.after Cert.ReferenceIdeal.RefRun.rops_14 Vr (Proc.devRef .tc Cert.ReferenceIdeal.main_v24))
      ∧ ((StableHlo.after Cert.KernelIdeal.Gen.hostOps1_14 Vk (Proc.devRef .tc Cert.KernelIdeal.main_v45) : (⟨Cert.KernelIdeal.S20000000, .i32⟩ : BufTy).Contents (Elt F)) = StableHlo.after Cert.ReferenceIdeal.RefRun.rops_14 Vr (Proc.devRef .tc Cert.ReferenceIdeal.main_v43))
      ∧ ((StableHlo.after Cert.KernelIdeal.Gen.hostOps1_14 Vk (Proc.devRef .tc Cert.KernelIdeal.main_c_14) : (⟨Cert.KernelIdeal.S_, .i32⟩ : BufTy).Contents (Elt F)) = StableHlo.after Cert.ReferenceIdeal.RefRun.rops_14 Vr (Proc.devRef .tc Cert.ReferenceIdeal.main_c_14)) := by
  refine ⟨?_, ?_, ?_, ?_, ?_, ?_, ?_⟩ <;>
    (after_results_simp
     first
       | done
       | (simp only [h_main_v36, h_main_v4, h_main_v27, h_main_arg2, h_main_v24, h_main_arg1]; first | done | rfl)
       | rfl)

/-- @_where_5: the gathered second argument where `iota < count`, else -1 — the second output. -/
theorem stage_15 (Vk : Valuation Cert.KernelIdeal.τ Cert.KernelIdeal.sig (Elt F)) (Vr : Valuation Cert.ReferenceIdeal.τ Cert.ReferenceIdeal.sig (Elt F))
    (h_main_v36 : (Vk (Proc.devRef .tc Cert.KernelIdeal.main_v38) : (⟨Cert.KernelIdeal.S20000000x3, .f32⟩ : BufTy).Contents (Elt F)) = Vr (Proc.devRef .tc Cert.ReferenceIdeal.main_v36))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_v27 : (Vk (Proc.devRef .tc Cert.KernelIdeal.main_v29) : (⟨Cert.KernelIdeal.S20000000, .i1⟩ : BufTy).Contents (Elt F)) = Vr (Proc.devRef .tc Cert.ReferenceIdeal.main_v27))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_v24 : (Vk (Proc.devRef .tc Cert.KernelIdeal.main_v26) : (⟨Cert.KernelIdeal.S20000000, .i32⟩ : BufTy).Contents (Elt F)) = Vr (Proc.devRef .tc Cert.ReferenceIdeal.main_v24))
    (h_main_v43 : (Vk (Proc.devRef .tc Cert.KernelIdeal.main_v45) : (⟨Cert.KernelIdeal.S20000000, .i32⟩ : BufTy).Contents (Elt F)) = Vr (Proc.devRef .tc Cert.ReferenceIdeal.main_v43))
    (h_main_c_14 : (Vk (Proc.devRef .tc Cert.KernelIdeal.main_c_14) : (⟨Cert.KernelIdeal.S_, .i32⟩ : BufTy).Contents (Elt F)) = Vr (Proc.devRef .tc Cert.ReferenceIdeal.main_c_14)) :
    ((StableHlo.after Cert.KernelIdeal.Gen.hostOps1_15 Vk (Proc.devRef .tc Cert.KernelIdeal.main_v38) : (⟨Cert.KernelIdeal.S20000000x3, .f32⟩ : BufTy).Contents (Elt F)) = StableHlo.after Cert.ReferenceIdeal.RefRun.rops_15 Vr (Proc.devRef .tc Cert.ReferenceIdeal.main_v36))
      ∧ ((StableHlo.after Cert.KernelIdeal.Gen.hostOps1_15 Vk (Proc.devRef .tc Cert.KernelIdeal.main_v46) : (⟨Cert.KernelIdeal.S20000000, .i32⟩ : BufTy).Contents (Elt F)) = StableHlo.after Cert.ReferenceIdeal.RefRun.rops_15 Vr (Proc.devRef .tc Cert.ReferenceIdeal.main_v44))
      ∧ ((StableHlo.after Cert.KernelIdeal.Gen.hostOps1_15 Vk (Proc.devRef .tc Cert.KernelIdeal.main_v6) : (⟨Cert.KernelIdeal.S_, .i32⟩ : BufTy).Contents (Elt F)) = StableHlo.after Cert.ReferenceIdeal.RefRun.rops_15 Vr (Proc.devRef .tc Cert.ReferenceIdeal.main_v4))
      ∧ ((StableHlo.after Cert.KernelIdeal.Gen.hostOps1_15 Vk (Proc.devRef .tc Cert.KernelIdeal.main_v29) : (⟨Cert.KernelIdeal.S20000000, .i1⟩ : BufTy).Contents (Elt F)) = StableHlo.after Cert.ReferenceIdeal.RefRun.rops_15 Vr (Proc.devRef .tc Cert.ReferenceIdeal.main_v27))
      ∧ ((StableHlo.after Cert.KernelIdeal.Gen.hostOps1_15 Vk (Proc.devRef .tc Cert.KernelIdeal.main_arg2) : (⟨Cert.KernelIdeal.S20000000, .i32⟩ : BufTy).Contents (Elt F)) = StableHlo.after Cert.ReferenceIdeal.RefRun.rops_15 Vr (Proc.devRef .tc Cert.ReferenceIdeal.main_arg2))
      ∧ ((StableHlo.after Cert.KernelIdeal.Gen.hostOps1_15 Vk (Proc.devRef .tc Cert.KernelIdeal.main_v26) : (⟨Cert.KernelIdeal.S20000000, .i32⟩ : BufTy).Contents (Elt F)) = StableHlo.after Cert.ReferenceIdeal.RefRun.rops_15 Vr (Proc.devRef .tc Cert.ReferenceIdeal.main_v24)) := by
  refine ⟨?_, ?_, ?_, ?_, ?_, ?_⟩ <;>
    (after_results_simp
     first
       | done
       | (simp only [h_main_v36, h_main_v4, h_main_v27, h_main_arg2, h_main_v24, h_main_v43, h_main_c_14]; first | done | rfl)
       | rfl)

/-- The third argument gathered at the wrapped indices, and the constant -1. -/
theorem stage_16 (Vk : Valuation Cert.KernelIdeal.τ Cert.KernelIdeal.sig (Elt F)) (Vr : Valuation Cert.ReferenceIdeal.τ Cert.ReferenceIdeal.sig (Elt F))
    (h_main_v36 : (Vk (Proc.devRef .tc Cert.KernelIdeal.main_v38) : (⟨Cert.KernelIdeal.S20000000x3, .f32⟩ : BufTy).Contents (Elt F)) = Vr (Proc.devRef .tc Cert.ReferenceIdeal.main_v36))
    (h_main_v44 : (Vk (Proc.devRef .tc Cert.KernelIdeal.main_v46) : (⟨Cert.KernelIdeal.S20000000, .i32⟩ : BufTy).Contents (Elt F)) = Vr (Proc.devRef .tc Cert.ReferenceIdeal.main_v44))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_v27 : (Vk (Proc.devRef .tc Cert.KernelIdeal.main_v29) : (⟨Cert.KernelIdeal.S20000000, .i1⟩ : BufTy).Contents (Elt F)) = Vr (Proc.devRef .tc Cert.ReferenceIdeal.main_v27))
    (h_main_arg2 : (Vk (Proc.devRef .tc Cert.KernelIdeal.main_arg2) : (⟨Cert.KernelIdeal.S20000000, .i32⟩ : BufTy).Contents (Elt F)) = Vr (Proc.devRef .tc Cert.ReferenceIdeal.main_arg2))
    (h_main_v24 : (Vk (Proc.devRef .tc Cert.KernelIdeal.main_v26) : (⟨Cert.KernelIdeal.S20000000, .i32⟩ : BufTy).Contents (Elt F)) = Vr (Proc.devRef .tc Cert.ReferenceIdeal.main_v24)) :
    ((StableHlo.after Cert.KernelIdeal.Gen.hostOps1_16 Vk (Proc.devRef .tc Cert.KernelIdeal.main_v38) : (⟨Cert.KernelIdeal.S20000000x3, .f32⟩ : BufTy).Contents (Elt F)) = StableHlo.after Cert.ReferenceIdeal.RefRun.rops_16 Vr (Proc.devRef .tc Cert.ReferenceIdeal.main_v36))
      ∧ ((StableHlo.after Cert.KernelIdeal.Gen.hostOps1_16 Vk (Proc.devRef .tc Cert.KernelIdeal.main_v46) : (⟨Cert.KernelIdeal.S20000000, .i32⟩ : BufTy).Contents (Elt F)) = StableHlo.after Cert.ReferenceIdeal.RefRun.rops_16 Vr (Proc.devRef .tc Cert.ReferenceIdeal.main_v44))
      ∧ ((StableHlo.after Cert.KernelIdeal.Gen.hostOps1_16 Vk (Proc.devRef .tc Cert.KernelIdeal.main_v6) : (⟨Cert.KernelIdeal.S_, .i32⟩ : BufTy).Contents (Elt F)) = StableHlo.after Cert.ReferenceIdeal.RefRun.rops_16 Vr (Proc.devRef .tc Cert.ReferenceIdeal.main_v4))
      ∧ ((StableHlo.after Cert.KernelIdeal.Gen.hostOps1_16 Vk (Proc.devRef .tc Cert.KernelIdeal.main_v29) : (⟨Cert.KernelIdeal.S20000000, .i1⟩ : BufTy).Contents (Elt F)) = StableHlo.after Cert.ReferenceIdeal.RefRun.rops_16 Vr (Proc.devRef .tc Cert.ReferenceIdeal.main_v27))
      ∧ ((StableHlo.after Cert.KernelIdeal.Gen.hostOps1_16 Vk (Proc.devRef .tc Cert.KernelIdeal.main_v53) : (⟨Cert.KernelIdeal.S20000000, .i32⟩ : BufTy).Contents (Elt F)) = StableHlo.after Cert.ReferenceIdeal.RefRun.rops_16 Vr (Proc.devRef .tc Cert.ReferenceIdeal.main_v51))
      ∧ ((StableHlo.after Cert.KernelIdeal.Gen.hostOps1_16 Vk (Proc.devRef .tc Cert.KernelIdeal.main_c_17) : (⟨Cert.KernelIdeal.S_, .i32⟩ : BufTy).Contents (Elt F)) = StableHlo.after Cert.ReferenceIdeal.RefRun.rops_16 Vr (Proc.devRef .tc Cert.ReferenceIdeal.main_c_17)) := by
  refine ⟨?_, ?_, ?_, ?_, ?_, ?_⟩ <;>
    (after_results_simp
     first
       | done
       | (simp only [h_main_v36, h_main_v44, h_main_v4, h_main_v27, h_main_arg2, h_main_v24]; first | done | rfl)
       | rfl)

/-- @_where_5 again: the gathered third argument where `iota < count`, else -1 — the third output. -/
theorem stage_17 (Vk : Valuation Cert.KernelIdeal.τ Cert.KernelIdeal.sig (Elt F)) (Vr : Valuation Cert.ReferenceIdeal.τ Cert.ReferenceIdeal.sig (Elt F))
    (h_main_v36 : (Vk (Proc.devRef .tc Cert.KernelIdeal.main_v38) : (⟨Cert.KernelIdeal.S20000000x3, .f32⟩ : BufTy).Contents (Elt F)) = Vr (Proc.devRef .tc Cert.ReferenceIdeal.main_v36))
    (h_main_v44 : (Vk (Proc.devRef .tc Cert.KernelIdeal.main_v46) : (⟨Cert.KernelIdeal.S20000000, .i32⟩ : BufTy).Contents (Elt F)) = Vr (Proc.devRef .tc Cert.ReferenceIdeal.main_v44))
    (h_main_v4 : (Vk (Proc.devRef .tc Cert.KernelIdeal.main_v6) : (⟨Cert.KernelIdeal.S_, .i32⟩ : BufTy).Contents (Elt F)) = Vr (Proc.devRef .tc Cert.ReferenceIdeal.main_v4))
    (h_main_v27 : (Vk (Proc.devRef .tc Cert.KernelIdeal.main_v29) : (⟨Cert.KernelIdeal.S20000000, .i1⟩ : BufTy).Contents (Elt F)) = Vr (Proc.devRef .tc Cert.ReferenceIdeal.main_v27))
    (h_main_v51 : (Vk (Proc.devRef .tc Cert.KernelIdeal.main_v53) : (⟨Cert.KernelIdeal.S20000000, .i32⟩ : BufTy).Contents (Elt F)) = Vr (Proc.devRef .tc Cert.ReferenceIdeal.main_v51))
    (h_main_c_17 : (Vk (Proc.devRef .tc Cert.KernelIdeal.main_c_17) : (⟨Cert.KernelIdeal.S_, .i32⟩ : BufTy).Contents (Elt F)) = Vr (Proc.devRef .tc Cert.ReferenceIdeal.main_c_17)) :
    ((StableHlo.after Cert.KernelIdeal.Gen.hostOps1_17 Vk (Proc.devRef .tc Cert.KernelIdeal.main_v38) : (⟨Cert.KernelIdeal.S20000000x3, .f32⟩ : BufTy).Contents (Elt F)) = StableHlo.after Cert.ReferenceIdeal.RefRun.rops_17 Vr (Proc.devRef .tc Cert.ReferenceIdeal.main_v36))
      ∧ ((StableHlo.after Cert.KernelIdeal.Gen.hostOps1_17 Vk (Proc.devRef .tc Cert.KernelIdeal.main_v46) : (⟨Cert.KernelIdeal.S20000000, .i32⟩ : BufTy).Contents (Elt F)) = StableHlo.after Cert.ReferenceIdeal.RefRun.rops_17 Vr (Proc.devRef .tc Cert.ReferenceIdeal.main_v44))
      ∧ ((StableHlo.after Cert.KernelIdeal.Gen.hostOps1_17 Vk (Proc.devRef .tc Cert.KernelIdeal.main_v54) : (⟨Cert.KernelIdeal.S20000000, .i32⟩ : BufTy).Contents (Elt F)) = StableHlo.after Cert.ReferenceIdeal.RefRun.rops_17 Vr (Proc.devRef .tc Cert.ReferenceIdeal.main_v52))
      ∧ ((StableHlo.after Cert.KernelIdeal.Gen.hostOps1_17 Vk (Proc.devRef .tc Cert.KernelIdeal.main_v6) : (⟨Cert.KernelIdeal.S_, .i32⟩ : BufTy).Contents (Elt F)) = StableHlo.after Cert.ReferenceIdeal.RefRun.rops_17 Vr (Proc.devRef .tc Cert.ReferenceIdeal.main_v4)) := by
  refine ⟨?_, ?_, ?_, ?_⟩ <;>
    (after_results_simp
     first
       | done
       | (simp only [h_main_v36, h_main_v44, h_main_v4, h_main_v27, h_main_v51, h_main_c_17]; first | done | rfl)
       | rfl)

/-! ## The chain -/

/-- The fold over the kernel program's lines is the folds over the lines one after another (the first line cut at
    the mask). -/
theorem kLines_after (Wk : Valuation Cert.KernelIdeal.τ Cert.KernelIdeal.sig (Elt F)) :
    StableHlo.after (kLines (F := F)).flatten Wk = (StableHlo.after Cert.KernelIdeal.Gen.hostOps1_17 (StableHlo.after Cert.KernelIdeal.Gen.hostOps1_16 (StableHlo.after Cert.KernelIdeal.Gen.hostOps1_15 (StableHlo.after Cert.KernelIdeal.Gen.hostOps1_14 (StableHlo.after Cert.KernelIdeal.Gen.hostOps1_13 (StableHlo.after Cert.KernelIdeal.Gen.hostOps1_12 (StableHlo.after Cert.KernelIdeal.Gen.hostOps1_11 (StableHlo.after Cert.KernelIdeal.Gen.hostOps1_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk))))))))))))))))))) := by
  simp only [kLines, List.flatten_cons, List.flatten_nil, List.append_nil, StableHlo.after_append]
  try rfl

/-- The same for the reference program's pieces. -/
theorem opss_after (Wr : Valuation Cert.ReferenceIdeal.τ Cert.ReferenceIdeal.sig (Elt F)) :
    StableHlo.after (Cert.ReferenceIdeal.RefRun.opss (F := F)).flatten Wr = (StableHlo.after Cert.ReferenceIdeal.RefRun.rops_17 (StableHlo.after Cert.ReferenceIdeal.RefRun.rops_16 (StableHlo.after Cert.ReferenceIdeal.RefRun.rops_15 (StableHlo.after Cert.ReferenceIdeal.RefRun.rops_14 (StableHlo.after Cert.ReferenceIdeal.RefRun.rops_13 (StableHlo.after Cert.ReferenceIdeal.RefRun.rops_12 (StableHlo.after Cert.ReferenceIdeal.RefRun.rops_11 (StableHlo.after Cert.ReferenceIdeal.RefRun.rops_10 (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))))))))))))))))) := by
  simp only [Cert.ReferenceIdeal.RefRun.opss, List.flatten_cons, List.flatten_nil, List.append_nil, StableHlo.after_append]
  try rfl

/-- From masks that agree and arguments that agree, the two programs' tails end with the same three compacted
    outputs and the same count: stage by stage the buffers still to be read agree, each stage the same operations
    on both sides. -/
theorem tails_agree (Wk : Valuation Cert.KernelIdeal.τ Cert.KernelIdeal.sig (Elt F)) (Wr : Valuation Cert.ReferenceIdeal.τ Cert.ReferenceIdeal.sig (Elt F))
      (hmask : (StableHlo.after kHead Wk (Proc.devRef .tc Cert.KernelIdeal.main_v4) : IVec Cert.KernelIdeal.S20000000 1) = StableHlo.after Cert.ReferenceIdeal.RefRun.rops_head Wr (Proc.devRef .tc Cert.ReferenceIdeal.main_v2))
      (h0 : (Wk (Proc.devRef .tc Cert.KernelIdeal.main_arg0) : FVec F Cert.KernelIdeal.S20000000x3 .f32) = Wr (Proc.devRef .tc Cert.ReferenceIdeal.main_arg0))
      (h1 : (Wk (Proc.devRef .tc Cert.KernelIdeal.main_arg1) : IVec Cert.KernelIdeal.S20000000 32) = Wr (Proc.devRef .tc Cert.ReferenceIdeal.main_arg1))
      (h2 : (Wk (Proc.devRef .tc Cert.KernelIdeal.main_arg2) : IVec Cert.KernelIdeal.S20000000 32) = Wr (Proc.devRef .tc Cert.ReferenceIdeal.main_arg2)) :
      (StableHlo.after (kLines (F := F)).flatten Wk (Proc.devRef .tc Cert.KernelIdeal.main_v38) : FVec F Cert.KernelIdeal.S20000000x3 .f32) = StableHlo.after (Cert.ReferenceIdeal.RefRun.opss (F := F)).flatten Wr (Proc.devRef .tc Cert.ReferenceIdeal.main_v36)
      ∧ (StableHlo.after (kLines (F := F)).flatten Wk (Proc.devRef .tc Cert.KernelIdeal.main_v46) : IVec Cert.KernelIdeal.S20000000 32) = StableHlo.after (Cert.ReferenceIdeal.RefRun.opss (F := F)).flatten Wr (Proc.devRef .tc Cert.ReferenceIdeal.main_v44)
      ∧ (StableHlo.after (kLines (F := F)).flatten Wk (Proc.devRef .tc Cert.KernelIdeal.main_v54) : IVec Cert.KernelIdeal.S20000000 32) = StableHlo.after (Cert.ReferenceIdeal.RefRun.opss (F := F)).flatten Wr (Proc.devRef .tc Cert.ReferenceIdeal.main_v52)
      ∧ (StableHlo.after (kLines (F := F)).flatten Wk (Proc.devRef .tc Cert.KernelIdeal.main_v6) : IVec Cert.KernelIdeal.S_ 32) = StableHlo.after (Cert.ReferenceIdeal.RefRun.opss (F := F)).flatten Wr (Proc.devRef .tc Cert.ReferenceIdeal.main_v4) := by
  obtain ⟨e0_main_arg2, e0_main_arg1, e0_main_arg0, e0_main_v2⟩ := stage_head Wk Wr hmask h0 h1 h2
  obtain ⟨e1_main_v4, e1_main_arg2, e1_main_arg1, e1_main_arg0, e1_main_v2⟩ := stage_0 (StableHlo.after kHead Wk) (StableHlo.after Cert.ReferenceIdeal.RefRun.rops_head Wr)
    e0_main_arg2 e0_main_arg1 e0_main_arg0 e0_main_v2
  obtain ⟨e2_main_v4, e2_main_arg2, e2_main_arg1, e2_main_arg0, e2_main_v2, e2_main_v5⟩ := stage_1 (StableHlo.after kRest (StableHlo.after kHead Wk)) (StableHlo.after Cert.ReferenceIdeal.RefRun.rops_0 (StableHlo.after Cert.ReferenceIdeal.RefRun.rops_head Wr))
    e1_main_v4 e1_main_arg2 e1_main_arg1 e1_main_arg0 e1_main_v2
  obtain ⟨e3_main_v4, e3_main_arg2, e3_main_arg1, e3_main_arg0, e3_main_v2, e3_main_v6, e3_main_v5, e3_main_c_1⟩ := stage_2 (StableHlo.after Cert.KernelIdeal.Gen.hostOps1_1 (StableHlo.after kRest (StableHlo.after kHead Wk))) (StableHlo.after Cert.ReferenceIdeal.RefRun.rops_1 (StableHlo.after Cert.ReferenceIdeal.RefRun.rops_0 (StableHlo.after Cert.ReferenceIdeal.RefRun.rops_head Wr)))
    e2_main_v4 e2_main_arg2 e2_main_arg1 e2_main_arg0 e2_main_v2 e2_main_v5
  obtain ⟨e4_main_v4, e4_main_arg2, e4_main_arg1, e4_main_arg0, e4_main_v2, e4_main_v6, e4_main_v7⟩ := stage_3 (StableHlo.after Cert.KernelIdeal.Gen.hostOps1_2 (StableHlo.after Cert.KernelIdeal.Gen.hostOps1_1 (StableHlo.after kRest (StableHlo.after kHead Wk)))) (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))
    e3_main_v4 e3_main_arg2 e3_main_arg1 e3_main_arg0 e3_main_v2 e3_main_v6 e3_main_v5 e3_main_c_1
  obtain ⟨e5_main_v4, e5_main_arg2, e5_main_arg1, e5_main_arg0, e5_main_v2, e5_main_v15⟩ := stage_4 (StableHlo.after Cert.KernelIdeal.Gen.hostOps1_3 (StableHlo.after Cert.KernelIdeal.Gen.hostOps1_2 (StableHlo.after Cert.KernelIdeal.Gen.hostOps1_1 (StableHlo.after kRest (StableHlo.after kHead Wk))))) (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr)))))
    e4_main_v4 e4_main_arg2 e4_main_arg1 e4_main_arg0 e4_main_v2 e4_main_v6 e4_main_v7
  obtain ⟨e6_main_v4, e6_main_arg2, e6_main_arg1, e6_main_arg0, e6_main_v2, e6_main_v16⟩ := stage_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk)))))) (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))))
    e5_main_v4 e5_main_arg2 e5_main_arg1 e5_main_arg0 e5_main_v2 e5_main_v15
  obtain ⟨e7_main_v4, e7_main_arg2, e7_main_arg1, e7_main_arg0, e7_main_v2, e7_main_v16, e7_main_c_5⟩ := stage_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk))))))) (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr)))))))
    e6_main_v4 e6_main_arg2 e6_main_arg1 e6_main_arg0 e6_main_v2 e6_main_v16
  obtain ⟨e8_main_v4, e8_main_arg2, e8_main_arg1, e8_main_arg0, e8_main_v2, e8_main_v17⟩ := stage_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk)))))))) (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))))))
    e7_main_v4 e7_main_arg2 e7_main_arg1 e7_main_arg0 e7_main_v2 e7_main_v16 e7_main_c_5
  obtain ⟨e9_main_v4, e9_main_arg2, e9_main_arg1, e9_main_arg0, e9_main_v2, e9_main_v17, e9_main_c_6⟩ := stage_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk))))))))) (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr)))))))))
    e8_main_v4 e8_main_arg2 e8_main_arg1 e8_main_arg0 e8_main_v2 e8_main_v17
  obtain ⟨e10_main_v4, e10_main_arg2, e10_main_arg1, e10_main_arg0, e10_main_v18, e10_main_v2⟩ := stage_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk)))))))))) (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))))))))
    e9_main_v4 e9_main_arg2 e9_main_arg1 e9_main_arg0 e9_main_v2 e9_main_v17 e9_main_c_6
  obtain ⟨e11_main_v4, e11_main_arg2, e11_main_arg1, e11_main_arg0, e11_main_v23, e11_main_v18, e11_main_c_8⟩ := stage_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk))))))))))) (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr)))))))))))
    e10_main_v4 e10_main_arg2 e10_main_arg1 e10_main_arg0 e10_main_v18 e10_main_v2
  obtain ⟨e12_main_v4, e12_main_arg2, e12_main_v24, e12_main_arg1, e12_main_arg0⟩ := stage_11 (StableHlo.after Cert.KernelIdeal.Gen.hostOps1_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk)))))))))))) (StableHlo.after Cert.ReferenceIdeal.RefRun.rops_10 (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))))))))))
    e11_main_v4 e11_main_arg2 e11_main_arg1 e11_main_arg0 e11_main_v23 e11_main_v18 e11_main_c_8
  obtain ⟨e13_main_v4, e13_main_v27, e13_main_arg2, e13_main_v24, e13_main_arg1, e13_main_v35, e13_main_v28, e13_main_cst_11⟩ := stage_12 (StableHlo.after Cert.KernelIdeal.Gen.hostOps1_11 (StableHlo.after Cert.KernelIdeal.Gen.hostOps1_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk))))))))))))) (StableHlo.after Cert.ReferenceIdeal.RefRun.rops_11 (StableHlo.after Cert.ReferenceIdeal.RefRun.rops_10 (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr)))))))))))))
    e12_main_v4 e12_main_arg2 e12_main_v24 e12_main_arg1 e12_main_arg0
  obtain ⟨e14_main_v36, e14_main_v4, e14_main_v27, e14_main_arg2, e14_main_v24, e14_main_arg1⟩ := stage_13 (StableHlo.after Cert.KernelIdeal.Gen.hostOps1_12 (StableHlo.after Cert.KernelIdeal.Gen.hostOps1_11 (StableHlo.after Cert.KernelIdeal.Gen.hostOps1_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk)))))))))))))) (StableHlo.after Cert.ReferenceIdeal.RefRun.rops_12 (StableHlo.after Cert.ReferenceIdeal.RefRun.rops_11 (StableHlo.after Cert.ReferenceIdeal.RefRun.rops_10 (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))))))))))))
    e13_main_v4 e13_main_v27 e13_main_arg2 e13_main_v24 e13_main_arg1 e13_main_v35 e13_main_v28 e13_main_cst_11
  obtain ⟨e15_main_v36, e15_main_v4, e15_main_v27, e15_main_arg2, e15_main_v24, e15_main_v43, e15_main_c_14⟩ := stage_14 (StableHlo.after Cert.KernelIdeal.Gen.hostOps1_13 (StableHlo.after Cert.KernelIdeal.Gen.hostOps1_12 (StableHlo.after Cert.KernelIdeal.Gen.hostOps1_11 (StableHlo.after Cert.KernelIdeal.Gen.hostOps1_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk))))))))))))))) (StableHlo.after Cert.ReferenceIdeal.RefRun.rops_13 (StableHlo.after Cert.ReferenceIdeal.RefRun.rops_12 (StableHlo.after Cert.ReferenceIdeal.RefRun.rops_11 (StableHlo.after Cert.ReferenceIdeal.RefRun.rops_10 (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr)))))))))))))))
    e14_main_v36 e14_main_v4 e14_main_v27 e14_main_arg2 e14_main_v24 e14_main_arg1
  obtain ⟨e16_main_v36, e16_main_v44, e16_main_v4, e16_main_v27, e16_main_arg2, e16_main_v24⟩ := stage_15 (StableHlo.after Cert.KernelIdeal.Gen.hostOps1_14 (StableHlo.after Cert.KernelIdeal.Gen.hostOps1_13 (StableHlo.after Cert.KernelIdeal.Gen.hostOps1_12 (StableHlo.after Cert.KernelIdeal.Gen.hostOps1_11 (StableHlo.after Cert.KernelIdeal.Gen.hostOps1_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk)))))))))))))))) (StableHlo.after Cert.ReferenceIdeal.RefRun.rops_14 (StableHlo.after Cert.ReferenceIdeal.RefRun.rops_13 (StableHlo.after Cert.ReferenceIdeal.RefRun.rops_12 (StableHlo.after Cert.ReferenceIdeal.RefRun.rops_11 (StableHlo.after Cert.ReferenceIdeal.RefRun.rops_10 (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))))))))))))))
    e15_main_v36 e15_main_v4 e15_main_v27 e15_main_arg2 e15_main_v24 e15_main_v43 e15_main_c_14
  obtain ⟨e17_main_v36, e17_main_v44, e17_main_v4, e17_main_v27, e17_main_v51, e17_main_c_17⟩ := stage_16 (StableHlo.after Cert.KernelIdeal.Gen.hostOps1_15 (StableHlo.after Cert.KernelIdeal.Gen.hostOps1_14 (StableHlo.after Cert.KernelIdeal.Gen.hostOps1_13 (StableHlo.after Cert.KernelIdeal.Gen.hostOps1_12 (StableHlo.after Cert.KernelIdeal.Gen.hostOps1_11 (StableHlo.after Cert.KernelIdeal.Gen.hostOps1_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk))))))))))))))))) (StableHlo.after Cert.ReferenceIdeal.RefRun.rops_15 (StableHlo.after Cert.ReferenceIdeal.RefRun.rops_14 (StableHlo.after Cert.ReferenceIdeal.RefRun.rops_13 (StableHlo.after Cert.ReferenceIdeal.RefRun.rops_12 (StableHlo.after Cert.ReferenceIdeal.RefRun.rops_11 (StableHlo.after Cert.ReferenceIdeal.RefRun.rops_10 (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr)))))))))))))))))
    e16_main_v36 e16_main_v44 e16_main_v4 e16_main_v27 e16_main_arg2 e16_main_v24
  obtain ⟨e18_main_v36, e18_main_v44, e18_main_v52, e18_main_v4⟩ := stage_17 (StableHlo.after Cert.KernelIdeal.Gen.hostOps1_16 (StableHlo.after Cert.KernelIdeal.Gen.hostOps1_15 (StableHlo.after Cert.KernelIdeal.Gen.hostOps1_14 (StableHlo.after Cert.KernelIdeal.Gen.hostOps1_13 (StableHlo.after Cert.KernelIdeal.Gen.hostOps1_12 (StableHlo.after Cert.KernelIdeal.Gen.hostOps1_11 (StableHlo.after Cert.KernelIdeal.Gen.hostOps1_10 (StableHlo.after Cert.KernelIdeal.Gen.hostOps1_9 (StableHlo.after Cert.KernelIdeal.Gen.hostOps1_8 (StableHlo.after Cert.KernelIdeal.Gen.hostOps1_7 (StableHlo.after Cert.KernelIdeal.Gen.hostOps1_6 (StableHlo.after Cert.KernelIdeal.Gen.hostOps1_5 (StableHlo.after Cert.KernelIdeal.Gen.hostOps1_4 (StableHlo.after Cert.KernelIdeal.Gen.hostOps1_3 (StableHlo.after Cert.KernelIdeal.Gen.hostOps1_2 (StableHlo.after Cert.KernelIdeal.Gen.hostOps1_1 (StableHlo.after kRest (StableHlo.after kHead Wk)))))))))))))))))) (StableHlo.after Cert.ReferenceIdeal.RefRun.rops_16 (StableHlo.after Cert.ReferenceIdeal.RefRun.rops_15 (StableHlo.after Cert.ReferenceIdeal.RefRun.rops_14 (StableHlo.after Cert.ReferenceIdeal.RefRun.rops_13 (StableHlo.after Cert.ReferenceIdeal.RefRun.rops_12 (StableHlo.after Cert.ReferenceIdeal.RefRun.rops_11 (StableHlo.after Cert.ReferenceIdeal.RefRun.rops_10 (StableHlo.after Cert.ReferenceIdeal.RefRun.rops_9 (StableHlo.after Cert.ReferenceIdeal.RefRun.rops_8 (StableHlo.after Cert.ReferenceIdeal.RefRun.rops_7 (StableHlo.after Cert.ReferenceIdeal.RefRun.rops_6 (StableHlo.after Cert.ReferenceIdeal.RefRun.rops_5 (StableHlo.after Cert.ReferenceIdeal.RefRun.rops_4 (StableHlo.after Cert.ReferenceIdeal.RefRun.rops_3 (StableHlo.after Cert.ReferenceIdeal.RefRun.rops_2 (StableHlo.after Cert.ReferenceIdeal.RefRun.rops_1 (StableHlo.after Cert.ReferenceIdeal.RefRun.rops_0 (StableHlo.after Cert.ReferenceIdeal.RefRun.rops_head Wr))))))))))))))))))
    e17_main_v36 e17_main_v44 e17_main_v4 e17_main_v27 e17_main_v51 e17_main_c_17
  rw [kLines_after, opss_after]
  exact ⟨e18_main_v36, e18_main_v44, e18_main_v52, e18_main_v4⟩

end Cert.Tails

end
-- ==== Proof.MaskAt.lean ====
/-
  The mask at one edge.  An edge with coordinates v₀, v₁, v₂ is kept when the root of its squared
  length, √(v₀² + v₁² + v₂²), is at most the cutoff — the value of the one 32-bit literal both programs
  carry, which is never evaluated.  The kernel computes this over a block laid out [3, 80000] (one row per
  coordinate: the sum runs down a column) and widens the answer to a 32-bit word; the host computes it over
  [E, 3] (the sum runs along a row, from a zero initial value).  At the ideal values both are the same
  extended real, because a sum over three terms does not depend on how the three are laid out.  Widening
  one bit to a word and asking whether the word is not zero gives the bit back.
-/
import proofs.«114148_j9569187135587_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.MaskAt

open Idealize.ShloMosaic Idealize.ShloMosaic.ValueIdx

/-- Whether the edge with coordinates `v` is within the cutoff, as one bit. -/
def within (v : Fin 3 → EReal) : BitVec 1 :=
  Ideal.cmp .ole (Ideal.sqrt (∑ k : Fin 3, v k * v k)) (Ideal.ofBits .f32 0x3FCCCCCD#32)

/-- A bit widened to a word is not the zero word exactly when the bit is set. -/
theorem widened_ne_zero (b : BitVec 1) : IntOp.cmpi .ne (b.setWidth 32) 0#32 = b := by
  revert b; decide

section Kernel

open Cert.KernelIdeal Cert.KernelIdeal.Gen

/-- The kernel's sum down column `q` of a [3, 80000] block is the sum of the column's three entries. -/
theorem column_sum_at (v : FVec Ideal S3x80000 .f32) (h : S3x80000.Reduces [0] S80000) (hφ : FKind.Formats .f32)
    (hacc : (0x00000000#32 : BitVec 32) = FKind.add.neutral .f32 hφ) (q : Fin 80000) :
    multiReduction (F := Ideal) .add [0] S80000 v 0x00000000#32 h hφ hacc (ix1 q) = ∑ k : Fin 3, v (ix2 k q) := by
  refine (Ideal.multiReduction_add_single v 0x00000000#32 h hφ hacc (ix1 q)).trans ?_
  refine Finset.sum_congr rfl fun k _ => congrArg v (funext fun a => Fin.ext ?_)
  match a with
  | ⟨0, _⟩ => rfl
  | ⟨1, _⟩ => rfl

/-- The word the kernel stores for the edge in column `q` of its block: the edge's bit, widened. -/
theorem stored_word_at (x0 : Vec Ideal S3x80000 .f32) (q : Fin 80000) :
    k0_pay1 (F := Ideal) x0 (ix2 (0 : Fin 1) q) = (within fun k => x0 (ix2 k q)).setWidth 32 := by
  have key : shapeCast S1x80000 (multiReduction (F := Ideal) .add [0] S80000
        (mulf (shapeCast S3x80000 x0 shapeCasts_S3x80000_S3x80000) (shapeCast S3x80000 x0 shapeCasts_S3x80000_S3x80000))
        0x00000000#32 reduces_S3x80000_S80000 (.inl rfl) rfl) shapeCasts_S80000_S1x80000 (ix2 (0 : Fin 1) q)
      = ∑ k : Fin 3, x0 (ix2 k q) * x0 (ix2 k q) := by
    rw [shapeCast_self]
    exact (shapeCast_a_1a_apply _ _ 0 q).trans ((column_sum_at _ _ _ _ q).trans rfl)
  refine (show k0_pay1 (F := Ideal) x0 (ix2 (0 : Fin 1) q)
      = (FloatOps.cmpf .ole (FloatOps.sqrt (shapeCast S1x80000 (multiReduction (F := Ideal) .add [0] S80000
          (mulf (shapeCast S3x80000 x0 shapeCasts_S3x80000_S3x80000) (shapeCast S3x80000 x0 shapeCasts_S3x80000_S3x80000))
          0x00000000#32 reduces_S3x80000_S80000 (.inl rfl) rfl) shapeCasts_S80000_S1x80000 (ix2 (0 : Fin 1) q)))
        (Scalar.ofBits (F := Ideal) .f32 0x3FCCCCCD#32)).setWidth 32 from rfl).trans ?_
  rw [key]
  rfl

end Kernel

end Cert.MaskAt

end
-- ==== Proof.MaskValue.lean ====
/-
  The kernel's mask array as one function.  Grid point t reads columns 80000·t … 80000·t + 79999 of the
  transposed edges [3, E] and writes the same columns of the mask [1, E]; the 250 points' blocks tile the
  mask.  So after the run the mask holds, at column e, the widened bit of the edge whose coordinates are
  column e of the transposed array — that is, row e of the argument.  The host's next four lines drop the
  unit axis and ask which words are not zero: the result, at e, is the edge's bit itself.
-/
import proofs.«114148_j9569187135587_1_alg».proof.Proof.FrameIdeal
import proofs.«114148_j9569187135587_1_alg».proof.Proof.MaskAt
import Idealize.ShloMosaic.Lib.Pipeline.Value
import Idealize.ShloMosaic.Lib.ValueLayout
import Idealize.ShloMosaic.Lib.StableHlo.Run

set_option maxRecDepth 16384

noncomputable section

namespace Cert.KernelIdeal.MaskValue

open Cert.KernelIdeal Cert.KernelIdeal.Gen Cert.KernelIdeal.MaskFrame Cert.MaskAt
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

theorem zero_off : (![0, 0] : Fin 2 → Nat) = fun _ => 0 := funext fun a => by fin_cases a <;> rfl

/-- The mask over the whole array, from the transposed edges: at column `e` the widened bit of the edge in column `e`. -/
def maskArray (xT : S3x20000000.Idx → EReal) : S1x20000000.Idx → BitVec 32 :=
  fun i => (within fun k => xT (ix2 k (⟨(i 1).val, idx2_lt1 i⟩ : Fin 20000000))).setWidth 32

/-- The two index maps over the grid: both windows sit on row block 0 and move together along the columns. -/
theorem index_facts : ∀ t : Fin cfg0.N, win0_0.index t (0 : Fin 2) = 0 ∧ win0_1.index t (0 : Fin 2) = 0
    ∧ win0_0.index t (1 : Fin 2) = win0_1.index t (1 : Fin 2) ∧ win0_1.index t (1 : Fin 2) ≤ 249 :=
  (by decide +kernel : ∀ t : Fin grid0.N, _)

/-- Every column block is some point's. -/
theorem index_onto : ∀ q : Fin 250, ∃ t : Fin cfg0.N, win0_1.index t = ![0, q.val] :=
  (by decide +kernel : ∀ q : Fin 250, ∃ t : Fin grid0.N, win0_1.index t = ![0, q.val])

/-- What point `t` writes back is block `t` of `maskArray` of the transposed edges as the kernel finds them. -/
theorem flushed_eq (c : Dev nD) (t : Fin cfg0.N) :
    (pipeData m 0 c).flushed 1 t = ((cfg0.win 1).blk t).view.read (Elt Ideal) (maskArray (atEntry m c main_v0)) := by
  show (cfg0.win 1).cut (grid0.coords t) ((pipeData m 0 c).after 1 t) = _
  rw [after_out]
  unfold maskPiece
  rw [View.canon_unit_zero zero_off]
  simp only [View.ld_unit_zero (S := S3x80000) zero_off]
  obtain ⟨e0, e1, e2, e3⟩ := index_facts t
  funext j
  obtain ⟨p, q, rfl⟩ : ∃ (p : Fin 1) (q : Fin 80000), j = ix2 p q := ⟨j 0, j 1, eq_ix2 j⟩
  obtain rfl : p = 0 := Subsingleton.elim _ _
  refine (stored_word_at (edgeBlock m c 0 t) q).trans ?_
  show (within fun k => atEntry m c main_v0 (((cfg0.win 0).blk t).view.emb (ix2 k q))).setWidth 32
    = (within fun k => atEntry m c main_v0 (ix2 k (⟨(((cfg0.win 1).blk t).view.emb (ix2 (0 : Fin 1) q) 1).val, _⟩ : Fin 20000000))).setWidth 32
  refine congrArg (fun v => (within v).setWidth 32) (funext fun k => congrArg (atEntry m c main_v0) ?_)
  funext a; apply Fin.ext
  match a with
  | ⟨0, _⟩ =>
    show win0_0.index t (0 : Fin 2) * 3 + 1 * k.val = k.val
    omega
  | ⟨1, _⟩ =>
    show win0_0.index t (1 : Fin 2) * 80000 + 1 * q.val = win0_1.index t (1 : Fin 2) * 80000 + 1 * q.val
    omega

/-- An index of the mask is in point `t`'s block iff each coordinate is in the block's range on its axis. -/
theorem mem_block (t : Fin cfg0.N) (i : S1x20000000.Idx) :
    i ∈ ((cfg0.win 1).blk t).view.set ↔ ∀ a : Fin 2, win0_1.index t a * S1x80000.size a ≤ (i a).val ∧ (i a).val < win0_1.index t a * S1x80000.size a + S1x80000.size a := by
  show i ∈ ((View.whole main_v1).slice (win0_1.rect t)).set ↔ _
  rw [View.set_slice_whole, Rect.mem_set_unit]
  exact Iff.rfl

/-- The blocks tile the mask: column `e` is in the block of the point that owns column block `e / 80000`. -/
theorem covered (i : S1x20000000.Idx) : ∃ t : Fin cfg0.N, (cfg0.win 1).flush t = true ∧ i ∈ ((cfg0.win 1).blk t).view.set := by
  have hi0 : (i 0).val < 1 := idx2_lt0 i
  have hi1 : (i 1).val < 20000000 := idx2_lt1 i
  obtain ⟨t, ht⟩ := index_onto ⟨(i 1).val / 80000, by omega⟩
  have q0 : win0_1.index t (0 : Fin 2) = 0 := congrFun ht 0
  have q1 : win0_1.index t (1 : Fin 2) = (i 1).val / 80000 := congrFun ht 1
  refine ⟨t, flush0_1 t, ?_⟩
  rw [mem_block]
  intro a
  match a with
  | ⟨0, _⟩ => show win0_1.index t (0 : Fin 2) * 1 ≤ (i 0).val ∧ (i 0).val < win0_1.index t (0 : Fin 2) * 1 + 1; omega
  | ⟨1, _⟩ => show win0_1.index t (1 : Fin 2) * 80000 ≤ (i 1).val ∧ (i 1).val < win0_1.index t (1 : Fin 2) * 80000 + 80000; omega

/-- The mask array after the run. -/
theorem mask_final (c : Dev nD) : (pipeData m 0 c).arrAt 1 cfg0.N = maskArray (atEntry m c main_v0) :=
  (pipeData m 0 c).arrAt_eq_of_cover 1 _ (fun t _ => flushed_eq m c t) covered

/-- The transposed edges as the kernel finds them: the transpose of the argument. -/
theorem entry_transposed (c : Dev nD) : (atEntry m c main_v0 : S3x20000000.Idx → EReal)
    = transpose S3x20000000 [1, 0] (m ((c : Thread nD τ).loc main_arg0)) transposes_S20000000x3_S3x20000000_1_0 := by
  dsimp only [atEntry, entryVal]
  simp only [hostOps0, List.flatten_cons, List.flatten_nil, List.append_nil]
  after_results

end Cert.KernelIdeal.MaskValue

end
-- ==== Proof.HostMaskAt.lean ====
/-
  The reference's bit for one edge.  The host squares the [E, 3] array entry by entry, sums each row of
  three from a zero initial value, takes the root and compares with the cutoff's value: at the ideal values,
  at row e, that is the bit `within` of the row's three coordinates.
-/
import proofs.«114148_j9569187135587_1_alg».proof.Proof.MaskAt
import proofs.«114148_j9569187135587_1_alg».proof.ReferenceIdeal
import Idealize.ShloMosaic.Lib.ValueIdx
import Idealize.ShloMosaic.Lib.Pipeline.Value
import Idealize.ShloMosaic.PureOps.Ideal.Laws

noncomputable section

namespace Cert.HostMaskAt

open Idealize.ShloMosaic Idealize.ShloMosaic.ValueIdx
open Cert.MaskAt Cert.ReferenceIdeal

/-- The host's square root, read at an index, at the ideal values. -/
theorem host_sqrt_at {s : Shape} {φ : FTy} (x : FVec Ideal s φ) (i : s.Idx) : Host.sqrt x i = Ideal.sqrt (x i) := rfl

/-- The host's bit for edge `e` of the [E, 3] array. -/
theorem host_bit_at (a0 : FVec Ideal S20000000x3 .f32) (h' : S20000000x3.ReducesTo [1] S20000000) (hS : 0 < S_.numel)
    (hb : S_.BroadcastsInDim S20000000 (![] : Fin 0 → Fin S20000000.rank)) (e : Fin 20000000) :
    cmpf (F := Ideal) .ole (Host.sqrt (Host.reduceAdd (mulf a0 a0) (constant S_ .f32 0x00000000#32) h' hS))
      (broadcastInDim S20000000 ![] hb (constant S_ .f32 0x3FCCCCCD#32)) (ix1 e) = within fun k => a0 (ix2 e k) := by
  have hr : S20000000x3.Reduces [1] S20000000 := by decide
  have key : Host.reduceAdd (F := Ideal) (mulf a0 a0) (constant S_ .f32 0x00000000#32) h' hS (ix1 e)
      = ∑ k : Fin 3, a0 (ix2 e k) * a0 (ix2 e k) := by
    show Ideal.hostReduceAdd h' (mulf a0 a0) (Ideal.ofBits .f32 0x00000000#32) (ix1 e) = _
    rw [Ideal.hostReduceAdd_single h' hr, Ideal.ofBits_zero_f32, zero_add]
    refine Finset.sum_congr rfl fun k _ => ?_
    have hk : hr.lift (ix1 e) k = ix2 e k := funext fun a => Fin.ext (by
      match a with
      | ⟨0, _⟩ => rfl
      | ⟨1, _⟩ => rfl)
    exact congrArg (fun i => a0 i * a0 i) hk
  rw [cmpf_apply, host_sqrt_at, key,
    broadcastInDim_apply (![] : Fin 0 → Fin S20000000.rank) hb (constant (F := Ideal) S_ .f32 0x3FCCCCCD#32) (ix1 e) ix0 (fun a => a.elim0),
    constant_apply, Ideal.cmpf_def]
  rfl

end Cert.HostMaskAt

end
-- ==== Proof.MaskBridge.lean ====
/-
  The two masks are one.  When the kernel program's later host lines start, its mask buffer holds, at
  column e, the widened bit of the edge in column e of the transposed argument; four lines later (the
  unit axis dropped, the words compared with zero) buffer %4 holds the bit itself, for the edge in row e
  of the argument.  The reference computes, for row e of its argument, the same bit directly.  So from
  memories that agree on the argument the two programs hand the same mask to the compaction they share.
-/
import proofs.«114148_j9569187135587_1_alg».proof.Proof.MaskValue
import proofs.«114148_j9569187135587_1_alg».proof.Proof.HostMaskAt
import proofs.«114148_j9569187135587_1_alg».proof.Proof.RefRun
import proofs.«114148_j9569187135587_1_alg».proof.Proof.Tails
import Idealize.ShloMosaic.Lib.ValueLayout
import Idealize.ShloMosaic.Lib.StableHlo.Run
import Idealize.ShloMosaic.Lib.Pipeline.FrameSuffix

set_option maxRecDepth 16384

noncomputable section

namespace Cert.MaskBridge

open Idealize.ShloMosaic Idealize.ShloMosaic.TcCoe Idealize.ShloMosaic.ValueIdx
open Idealize.SL Idealize.SL.Sem
open Cert.MaskAt

section KernelSide

variable (m : (ℓ : Loc Cert.KernelIdeal.nD Cert.KernelIdeal.τ Cert.KernelIdeal.sig) → Buf (Elt Ideal) ℓ)

/-- Core `c`'s buffers when the later host lines start: as the kernel found them, but for its two arrays, which hold
    what the run left in them. -/
abbrev afterKernel (c : Dev Cert.KernelIdeal.nD) : Valuation Cert.KernelIdeal.τ Cert.KernelIdeal.sig (Elt Ideal) :=
  Pipeline.withArrays (Cert.KernelIdeal.cfgs 0).spec c (Cert.KernelIdeal.MaskFrame.entryVal m c)
    fun w => (Cert.KernelIdeal.MaskFrame.pipeData m 0 c).arrAt w (Cert.KernelIdeal.cfgs 0).N

/-- The mask buffer then holds the mask array of the transposed argument. -/
theorem mask_held (c : Dev Cert.KernelIdeal.nD) : afterKernel m c (Proc.devRef .tc Cert.KernelIdeal.main_v1)
    = Cert.KernelIdeal.MaskValue.maskArray (Cert.KernelIdeal.MaskFrame.atEntry m c Cert.KernelIdeal.main_v0) :=
  (Pipeline.withArrays_arr Cert.KernelIdeal.spec0 Cert.KernelIdeal.Gen.launch0.win.arr_inj c _ _ 1).trans (Cert.KernelIdeal.MaskValue.mask_final m c)

/-- An argument buffer then holds what it was launched with. -/
theorem arg_held (c : Dev Cert.KernelIdeal.nD) (r : Ref Cert.KernelIdeal.sig .tc) (hr : r ∈ [Cert.KernelIdeal.main_arg0, Cert.KernelIdeal.main_arg1, Cert.KernelIdeal.main_arg2]) :
    afterKernel m c (Proc.devRef .tc r) = m ((c : Thread Cert.KernelIdeal.nD Cert.KernelIdeal.τ).loc r) :=
  (Pipeline.withArrays_of_ne _ c _ _ r (by
    simp only [List.mem_cons, List.mem_nil_iff, or_false] at hr
    rcases hr with rfl | rfl | rfl <;> decide)).trans (Cert.KernelIdeal.MaskFrame.atEntry_arg m c r hr)

/-- Buffer %4 of the kernel program, four lines later, at edge `e`: the edge's bit, from row `e` of the argument. -/
theorem kernel_mask_at (c : Dev Cert.KernelIdeal.nD) (e : Fin 20000000) :
    (StableHlo.after (Cert.Tails.kHead (F := Ideal)) (afterKernel m c) (Proc.devRef .tc Cert.KernelIdeal.main_v4) : IVec Cert.KernelIdeal.S20000000 1) (ix1 e)
      = within fun k => (m ((c : Thread Cert.KernelIdeal.nD Cert.KernelIdeal.τ).loc Cert.KernelIdeal.main_arg0) : FVec Ideal Cert.KernelIdeal.S20000000x3 .f32) (ix2 e k) := by
  have hv : (StableHlo.after (Cert.Tails.kHead (F := Ideal)) (afterKernel m c) (Proc.devRef .tc Cert.KernelIdeal.main_v4) : IVec Cert.KernelIdeal.S20000000 1)
      = cmpi .ne (shapeCast Cert.KernelIdeal.S20000000 (Cert.KernelIdeal.MaskValue.maskArray (Cert.KernelIdeal.MaskFrame.atEntry m c Cert.KernelIdeal.main_v0)) Cert.KernelIdeal.Gen.shapeCasts_S1x20000000_S20000000)
          (broadcastInDim Cert.KernelIdeal.S20000000 ![] Cert.KernelIdeal.Gen.bcast_S_S20000000 (constantI Cert.KernelIdeal.S_ 32 0#32)) := by
    rw [← mask_held m c]
    after_results <;> rfl
  rw [hv]
  have hz : broadcastInDim Cert.KernelIdeal.S20000000 ![] Cert.KernelIdeal.Gen.bcast_S_S20000000 (constantI Cert.KernelIdeal.S_ 32 0#32) (ix1 e) = 0#32 := rfl
  have hm : Cert.KernelIdeal.MaskValue.maskArray (Cert.KernelIdeal.MaskFrame.atEntry m c Cert.KernelIdeal.main_v0) (ix2 (0 : Fin 1) e)
      = (within fun k => Cert.KernelIdeal.MaskFrame.atEntry m c Cert.KernelIdeal.main_v0 (ix2 k e)).setWidth 32 := rfl
  refine (show cmpi .ne (shapeCast Cert.KernelIdeal.S20000000 (Cert.KernelIdeal.MaskValue.maskArray (Cert.KernelIdeal.MaskFrame.atEntry m c Cert.KernelIdeal.main_v0)) Cert.KernelIdeal.Gen.shapeCasts_S1x20000000_S20000000)
          (broadcastInDim Cert.KernelIdeal.S20000000 ![] Cert.KernelIdeal.Gen.bcast_S_S20000000 (constantI Cert.KernelIdeal.S_ 32 0#32)) (ix1 e)
        = IntOp.cmpi .ne (shapeCast Cert.KernelIdeal.S20000000 (Cert.KernelIdeal.MaskValue.maskArray (Cert.KernelIdeal.MaskFrame.atEntry m c Cert.KernelIdeal.main_v0)) Cert.KernelIdeal.Gen.shapeCasts_S1x20000000_S20000000 (ix1 e))
          (broadcastInDim Cert.KernelIdeal.S20000000 ![] Cert.KernelIdeal.Gen.bcast_S_S20000000 (constantI Cert.KernelIdeal.S_ 32 0#32) (ix1 e)) from rfl).trans ?_
  rw [shapeCast_1a_a_apply, hz, hm, widened_ne_zero]
  refine congrArg within (funext fun k => ?_)
  rw [Cert.KernelIdeal.MaskValue.entry_transposed m c]
  exact transpose_ix2_apply _ _ k e

end KernelSide

section ReferenceFold

attribute [local irreducible] Host.reduceAdd Host.sqrt

/-- The reference's mask as its seven lines compute it from the launch contents: the comparison, with the cutoff, of the
    root of the row sums of the squared argument — at any float instance.  (Every operation is kept folded: what is
    checked is only that the typed buffers' transports are the identity.) -/
theorem reference_mask_fold {F : FTy → Type} [FloatOps F] (W : Valuation Cert.ReferenceIdeal.τ Cert.ReferenceIdeal.sig (Elt F)) :
    (StableHlo.after (Cert.ReferenceIdeal.RefRun.rops_head (F := F)) W (Proc.devRef .tc Cert.ReferenceIdeal.main_v2) : IVec Cert.ReferenceIdeal.S20000000 1)
      = cmpf (F := F) .ole (Host.sqrt (Host.reduceAdd (mulf (W (Proc.devRef .tc Cert.ReferenceIdeal.main_arg0) : FVec F Cert.ReferenceIdeal.S20000000x3 .f32) (W (Proc.devRef .tc Cert.ReferenceIdeal.main_arg0)))
            (constant Cert.ReferenceIdeal.S_ .f32 0x00000000#32) Cert.ReferenceIdeal.Gen.reducesTo_S20000000x3_S20000000_d1 Cert.ReferenceIdeal.Gen.h_S_))
          (broadcastInDim Cert.ReferenceIdeal.S20000000 ![] Cert.ReferenceIdeal.Gen.bcast_S_S20000000 (constant Cert.ReferenceIdeal.S_ .f32 0x3FCCCCCD#32)) := by
  repeat rw [StableHlo.after_cons]
  rw [StableHlo.after_nil]
  repeat (first
    | rw [StableHlo.nullary_result] | rw [StableHlo.unary_result] | rw [StableHlo.binary_result]
    | (rw [StableHlo.nullary_result_ne]; rotate_left; decide)
    | (rw [StableHlo.unary_result_ne]; rotate_left; decide)
    | (rw [StableHlo.binary_result_ne]; rotate_left; decide))
  rfl

end ReferenceFold

section ReferenceSide

attribute [local irreducible] Host.reduceAdd

/-- The reference's mask, buffer %2, at edge `e`: the edge's bit, from row `e` of its argument. -/
theorem reference_mask_at (W : Valuation Cert.ReferenceIdeal.τ Cert.ReferenceIdeal.sig (Elt Ideal)) (e : Fin 20000000) :
    (StableHlo.after (Cert.ReferenceIdeal.RefRun.rops_head (F := Ideal)) W (Proc.devRef .tc Cert.ReferenceIdeal.main_v2) : IVec Cert.ReferenceIdeal.S20000000 1) (ix1 e)
      = within fun k => (W (Proc.devRef .tc Cert.ReferenceIdeal.main_arg0) : FVec Ideal Cert.ReferenceIdeal.S20000000x3 .f32) (ix2 e k) := by
  rw [reference_mask_fold (F := Ideal) W]
  exact Cert.HostMaskAt.host_bit_at _ _ _ _ e

end ReferenceSide

/-- From memories that agree on the argument, the two programs' masks are equal. -/
theorem masks_agree (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal))
    (h0 : (W (Proc.devRef .tc Cert.ReferenceIdeal.main_arg0) : FVec Ideal Cert.ReferenceIdeal.S20000000x3 .f32) = m ((c : Thread Cert.KernelIdeal.nD Cert.KernelIdeal.τ).loc Cert.KernelIdeal.main_arg0)) :
    (StableHlo.after (Cert.Tails.kHead (F := Ideal)) (afterKernel m c) (Proc.devRef .tc Cert.KernelIdeal.main_v4) : IVec Cert.KernelIdeal.S20000000 1)
      = StableHlo.after (Cert.ReferenceIdeal.RefRun.rops_head (F := Ideal)) W (Proc.devRef .tc Cert.ReferenceIdeal.main_v2) := by
  refine funext fun (i : (⟨1, ![20000000]⟩ : Shape).Idx) => ?_
  obtain ⟨e, rfl⟩ : ∃ e : Fin 20000000, i = ix1 e := ⟨i 0, eq_ix1 i⟩
  rw [kernel_mask_at m c e, reference_mask_at W e, h0]

end Cert.MaskBridge

end
-- ==== Proof.lean ====
/-
  Keeping the short edges.  Both programs take E = 20,000,000 edge vectors [E, 3] and two index arrays,
  mark the edges whose length √(x² + y² + z²) is at most the cutoff, count them, move the marked rows to
  the front in their order (prefix sums of the mask, a scatter, three gathers), and pad the rest with zeros
  and −1.  The kernel program computes the mask in a pipelined kernel over the transposed array, 80000
  edges per grid point, as 32-bit words that the host then compares with zero; the reference computes it on
  the host row by row.  At the ideal values the two masks are the same bits — a sum of three squares does
  not depend on the layout, and a widened bit is non-zero exactly when it is set — and from the mask on the
  two programs run the same host operations, so all seven results agree.

  The frames: each program terminates without a fault and leaves its three arguments as launched — for the
  kernel program at either instance by the pipeline's frame run continued through the later host lines,
  for the reference by its straight-line run.  No operation was rewritten by the idealization, so there is
  nothing to preserve.  The value claim: the kernel program's results are named as the fold of its later
  lines over the buffers the kernel left; the reference's results are the fold of its own lines over the
  launch contents; the folds agree because the masks do.
-/
import proofs.«114148_j9569187135587_1_alg».proof.Defs
import proofs.«114148_j9569187135587_1_alg».proof.Proof.Gen.Kernel
import proofs.«114148_j9569187135587_1_alg».proof.Proof.Gen.KernelIdeal
import proofs.«114148_j9569187135587_1_alg».proof.Proof.Gen.ReferenceIdeal
import proofs.«114148_j9569187135587_1_alg».proof.Proof.Gen.Pre_finite_inputs
import proofs.«114148_j9569187135587_1_alg».proof.Proof.FrameBits
import proofs.«114148_j9569187135587_1_alg».proof.Proof.FrameIdeal
import proofs.«114148_j9569187135587_1_alg».proof.Proof.RefRun
import proofs.«114148_j9569187135587_1_alg».proof.Proof.Tails
import proofs.«114148_j9569187135587_1_alg».proof.Proof.MaskBridge
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and keeps its arguments. -/
theorem frame_bits : Cert.frame_Kernel := fun m ρ _ => Cert.Kernel.MaskFrame.frame m ρ

/-- So does its reading at the ideal values. -/
theorem frame_ideal : Cert.frame_KernelIdeal := fun m ρ _ => Cert.KernelIdeal.MaskFrame.frame m ρ

/-- So does the reference. -/
theorem frame_reference : Cert.frame_ReferenceIdeal := fun m ρ _ => Cert.ReferenceIdeal.RefRun.frame m ρ

/-- The seven results agree: the arguments are returned as they are, and the three compacted arrays and the count are
    the shared compaction of one mask. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0), fun c => m ((c.tc : Thread Cert.KernelIdeal.nD Cert.KernelIdeal.τ).loc Cert.KernelIdeal.main_arg1), fun c => m ((c.tc : Thread Cert.KernelIdeal.nD Cert.KernelIdeal.τ).loc Cert.KernelIdeal.main_arg2),
    fun c => Pipeline.afterTail₀ Cert.KernelIdeal.cfgs (Cert.KernelIdeal.MaskFrame.pipeData m) 0 (Cert.KernelIdeal.MaskFrame.entryVal m) Cert.KernelIdeal.MaskFrame.laterLines c Cert.KernelIdeal.main_v38,
    fun c => Pipeline.afterTail₀ Cert.KernelIdeal.cfgs (Cert.KernelIdeal.MaskFrame.pipeData m) 0 (Cert.KernelIdeal.MaskFrame.entryVal m) Cert.KernelIdeal.MaskFrame.laterLines c Cert.KernelIdeal.main_v46,
    fun c => Pipeline.afterTail₀ Cert.KernelIdeal.cfgs (Cert.KernelIdeal.MaskFrame.pipeData m) 0 (Cert.KernelIdeal.MaskFrame.entryVal m) Cert.KernelIdeal.MaskFrame.laterLines c Cert.KernelIdeal.main_v54,
    fun c => Pipeline.afterTail₀ Cert.KernelIdeal.cfgs (Cert.KernelIdeal.MaskFrame.pipeData m) 0 (Cert.KernelIdeal.MaskFrame.entryVal m) Cert.KernelIdeal.MaskFrame.laterLines c Cert.KernelIdeal.main_v6, ?_, ?_⟩
  · refine (θ_run (Cert.KernelIdeal.defs (F := Ideal)) _ _).mono (fun r h c => ?_) (Cert.KernelIdeal.MaskFrame.run_main (F := Ideal) m ρ)
    have hk := (h c).2
    have a0 := (hk Cert.KernelIdeal.main_arg0 (Cert.KernelIdeal.MaskFrame.arg_in_rest Cert.KernelIdeal.main_arg0 (by simp))).trans (Cert.KernelIdeal.MaskFrame.later_arg m (Cert.KernelIdeal.MaskFrame.pipeData m) c Cert.KernelIdeal.main_arg0 (by simp))
    have a1 := (hk Cert.KernelIdeal.main_arg1 (Cert.KernelIdeal.MaskFrame.arg_in_rest Cert.KernelIdeal.main_arg1 (by simp))).trans (Cert.KernelIdeal.MaskFrame.later_arg m (Cert.KernelIdeal.MaskFrame.pipeData m) c Cert.KernelIdeal.main_arg1 (by simp))
    have a2 := (hk Cert.KernelIdeal.main_arg2 (Cert.KernelIdeal.MaskFrame.arg_in_rest Cert.KernelIdeal.main_arg2 (by simp))).trans (Cert.KernelIdeal.MaskFrame.later_arg m (Cert.KernelIdeal.MaskFrame.pipeData m) c Cert.KernelIdeal.main_arg2 (by simp))
    exact ⟨a0, a1, a2,
      hk Cert.KernelIdeal.main_v38 (Pipeline.mem_restRefs_of _ (by decide) (by decide)),
      hk Cert.KernelIdeal.main_v46 (Pipeline.mem_restRefs_of _ (by decide) (by decide)),
      hk Cert.KernelIdeal.main_v54 (Pipeline.mem_restRefs_of _ (by decide) (by decide)),
      hk Cert.KernelIdeal.main_v6 (Pipeline.mem_restRefs_of _ (by decide) (by decide)), a0, a1, a2⟩
  · refine (θ_run (Cert.ReferenceIdeal.defs (F := Ideal)) _ _).mono (fun r h c => ?_) (Cert.ReferenceIdeal.RefRun.run (F := Ideal) m' ρ')
    have hc := h c
    obtain ⟨g0, g1, g2⟩ := hagree c
    obtain ⟨e38, e46, e54, e6⟩ := Cert.Tails.tails_agree (F := Ideal) (Cert.MaskBridge.afterKernel m c) (StableHlo.launchContents m' c)
      (Cert.MaskBridge.masks_agree m c (StableHlo.launchContents m' c) g0)
      ((Cert.MaskBridge.arg_held m c Cert.KernelIdeal.main_arg0 (by simp)).trans g0.symm)
      ((Cert.MaskBridge.arg_held m c Cert.KernelIdeal.main_arg1 (by simp)).trans g1.symm)
      ((Cert.MaskBridge.arg_held m c Cert.KernelIdeal.main_arg2 (by simp)).trans g2.symm)
    exact ⟨(hc Cert.ReferenceIdeal.main_arg0).trans ((Cert.ReferenceIdeal.RefRun.kept_arg0 _).trans g0), (hc Cert.ReferenceIdeal.main_arg1).trans ((Cert.ReferenceIdeal.RefRun.kept_arg1 _).trans g1),
      (hc Cert.ReferenceIdeal.main_arg2).trans ((Cert.ReferenceIdeal.RefRun.kept_arg2 _).trans g2),
      (hc Cert.ReferenceIdeal.main_v36).trans e38.symm, (hc Cert.ReferenceIdeal.main_v44).trans e46.symm, (hc Cert.ReferenceIdeal.main_v52).trans e54.symm, (hc Cert.ReferenceIdeal.main_v4).trans e6.symm,
      (hc Cert.ReferenceIdeal.main_arg0).trans (Cert.ReferenceIdeal.RefRun.kept_arg0 _), (hc Cert.ReferenceIdeal.main_arg1).trans (Cert.ReferenceIdeal.RefRun.kept_arg1 _), (hc Cert.ReferenceIdeal.main_arg2).trans (Cert.ReferenceIdeal.RefRun.kept_arg2 _)⟩

theorem claim : Cert.Claim :=
  ⟨Cert.Kernel.Gen.facts, Cert.KernelIdeal.Gen.facts, Cert.ReferenceIdeal.Gen.facts, Cert.Pre_finite_inputs.Gen.facts,
    frame_bits, frame_ideal, frame_reference, trivial, algebraic⟩

end Cert.Proof

end
